-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v3)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v3) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v56) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S16384x4096 : Shape := ⟨2, ![16384, 4096]⟩
abbrev S16384x128 : Shape := ⟨2, ![16384, 128]⟩
abbrev S5120x4096 : Shape := ⟨2, ![5120, 4096]⟩
abbrev S128 : Shape := ⟨1, ![128]⟩
abbrev S_ : Shape := ⟨0, ![]⟩

class Facts : Prop where
  bcast_S_S16384x4096 : S_.BroadcastsInDim S16384x4096 (![] : Fin 0 → Fin S16384x4096.rank)
  reducesTo_S16384x4096_S_d0_1 : S16384x4096.ReducesTo [0, 1] S_
  h_S_ : 0 < S_.numel
  bcast_S_S16384x128 : S_.BroadcastsInDim S16384x128 (![] : Fin 0 → Fin S16384x128.rank)
  reducesTo_S16384x128_S_d0_1 : S16384x128.ReducesTo [0, 1] S_
  bcast_S_S5120x4096 : S_.BroadcastsInDim S5120x4096 (![] : Fin 0 → Fin S5120x4096.rank)
  reducesTo_S5120x4096_S_d0_1 : S5120x4096.ReducesTo [0, 1] S_
  bcast_S_S128 : S_.BroadcastsInDim S128 (![] : Fin 0 → Fin S128.rank)
  reducesTo_S128_S_d0 : S128.ReducesTo [0] S_

variable [Facts]

def fn_part1 {F : FTy → Type} [FloatOps F] (main_arg4 : FVec F S128 .f32) (main_arg5 : FVec F S128 .f32) (main_v13 : IVec S_ 1) (main_v16 : IVec S5120x4096 1) : IVec S_ 1 :=
  let main_c_5 : IVec S_ 1 := constantI S_ 1 1#1
  let main_v17 : IVec S_ 1 := (fun x v => Host.reduce IntOp.andi x v reducesTo_S5120x4096_S_d0_1 h_S_) main_v16 main_c_5
  let main_v18 : IVec S_ 1 := andi main_v13 main_v17
  let main_v19 : FVec F S128 .f32 := Host.absf main_arg4
  let main_cst_6 : FVec F S_ .f32 := constant S_ .f32 0x7F800000#32
  let main_v20 : FVec F S128 .f32 := broadcastInDim S128 ![] bcast_S_S128 main_cst_6
  let main_v21 : IVec S128 1 := cmpf .olt main_v19 main_v20
  let main_c_7 : IVec S_ 1 := constantI S_ 1 1#1
  let main_v22 : IVec S_ 1 := (fun x v => Host.reduce IntOp.andi x v reducesTo_S128_S_d0 h_S_) main_v21 main_c_7
  let main_v23 : IVec S_ 1 := andi main_v18 main_v22
  let main_v24 : FVec F S128 .f32 := Host.absf main_arg5
  let main_cst_8 : FVec F S_ .f32 := constant S_ .f32 0x7F800000#32
  let main_v25 : FVec F S128 .f32 := broadcastInDim S128 ![] bcast_S_S128 main_cst_8
  let main_v26 : IVec S128 1 := cmpf .olt main_v24 main_v25
  let main_c_9 : IVec S_ 1 := constantI S_ 1 1#1
  let main_v27 : IVec S_ 1 := (fun x v => Host.reduce IntOp.andi x v reducesTo_S128_S_d0 h_S_) main_v26 main_c_9
  let main_v28 : IVec S_ 1 := andi main_v23 main_v27
  main_v28

def fn {F : FTy → Type} [FloatOps F] (main_arg0 : FVec F S16384x4096 .f32) (main_arg1 : FVec F S16384x128 .f32) (main_arg2 : FVec F S16384x128 .f32) (main_arg3 : FVec F S5120x4096 .f32) (main_arg4 : FVec F S128 .f32) (main_arg5 : FVec F S128 .f32) : IVec S_ 1 :=
  let main_v0 : FVec F S16384x4096 .f32 := Host.absf main_arg0
  let main_cst : FVec F S_ .f32 := constant S_ .f32 0x7F800000#32
  let main_v1 : FVec F S16384x4096 .f32 := broadcastInDim S16384x4096 ![] bcast_S_S16384x4096 main_cst
  let main_v2 : IVec S16384x4096 1 := cmpf .olt main_v0 main_v1
  let main_c : IVec S_ 1 := constantI S_ 1 1#1
  let main_v3 : IVec S_ 1 := (fun x v => Host.reduce IntOp.andi x v reducesTo_S16384x4096_S_d0_1 h_S_) main_v2 main_c
  let main_v4 : FVec F S16384x128 .f32 := Host.absf main_arg1
  let main_cst_0 : FVec F S_ .f32 := constant S_ .f32 0x7F800000#32
  let main_v5 : FVec F S16384x128 .f32 := broadcastInDim S16384x128 ![] bcast_S_S16384x128 main_cst_0
  let main_v6 : IVec S16384x128 1 := cmpf .olt main_v4 main_v5
  let main_c_1 : IVec S_ 1 := constantI S_ 1 1#1
  let main_v7 : IVec S_ 1 := (fun x v => Host.reduce IntOp.andi x v reducesTo_S16384x128_S_d0_1 h_S_) main_v6 main_c_1
  let main_v8 : IVec S_ 1 := andi main_v3 main_v7
  let main_v9 : FVec F S16384x128 .f32 := Host.absf main_arg2
  let main_cst_2 : FVec F S_ .f32 := constant S_ .f32 0x7F800000#32
  let main_v10 : FVec F S16384x128 .f32 := broadcastInDim S16384x128 ![] bcast_S_S16384x128 main_cst_2
  let main_v11 : IVec S16384x128 1 := cmpf .olt main_v9 main_v10
  let main_c_3 : IVec S_ 1 := constantI S_ 1 1#1
  let main_v12 : IVec S_ 1 := (fun x v => Host.reduce IntOp.andi x v reducesTo_S16384x128_S_d0_1 h_S_) main_v11 main_c_3
  let main_v13 : IVec S_ 1 := andi main_v8 main_v12
  let main_v14 : FVec F S5120x4096 .f32 := Host.absf main_arg3
  let main_cst_4 : FVec F S_ .f32 := constant S_ .f32 0x7F800000#32
  let main_v15 : FVec F S5120x4096 .f32 := broadcastInDim S5120x4096 ![] bcast_S_S5120x4096 main_cst_4
  let main_v16 : IVec S5120x4096 1 := cmpf .olt main_v14 main_v15
  fn_part1 (F := F) main_arg4 main_arg5 main_v13 main_v16
-- ==== Kernel.lean ====
abbrev S16384x4096 : Shape := ⟨2, ![16384, 4096]⟩
abbrev S16384x128 : Shape := ⟨2, ![16384, 128]⟩
abbrev S5120x4096 : Shape := ⟨2, ![5120, 4096]⟩
abbrev S128 : Shape := ⟨1, ![128]⟩
abbrev S64x4096 : Shape := ⟨2, ![64, 4096]⟩
abbrev S4096x4096 : Shape := ⟨2, ![4096, 4096]⟩
abbrev S64x128 : Shape := ⟨2, ![64, 128]⟩
abbrev S64 : Shape := ⟨1, ![64]⟩
abbrev S64x1 : Shape := ⟨2, ![64, 1]⟩
abbrev S1x128 : Shape := ⟨2, ![1, 128]⟩
abbrev S64x64 : Shape := ⟨2, ![64, 64]⟩
abbrev S16384x1024 : Shape := ⟨2, ![16384, 1024]⟩
abbrev S512x4096 : Shape := ⟨2, ![512, 4096]⟩
abbrev S1024x4096 : Shape := ⟨2, ![1024, 4096]⟩
abbrev S512x128 : Shape := ⟨2, ![512, 128]⟩
abbrev S512x1024 : Shape := ⟨2, ![512, 1024]⟩
abbrev S512 : Shape := ⟨1, ![512]⟩
abbrev S512x1 : Shape := ⟨2, ![512, 1]⟩
abbrev S512x64 : Shape := ⟨2, ![512, 64]⟩
abbrev S512x512 : Shape := ⟨2, ![512, 512]⟩
abbrev S16384x5120 : Shape := ⟨2, ![16384, 5120]⟩

abbrev nBuf : Space → Nat
  | .hbm => 10
  | .vmem => 20
  | .smem => 0
  | _ => 0

abbrev bufTy : (tb : Table) → Fin (tcTables nBuf tb) → BufTy
  | .hbm, ⟨0, _⟩ => ⟨S16384x4096, .f32⟩
  | .hbm, ⟨1, _⟩ => ⟨S16384x128, .f32⟩
  | .hbm, ⟨2, _⟩ => ⟨S16384x128, .f32⟩
  | .hbm, ⟨3, _⟩ => ⟨S5120x4096, .f32⟩
  | .hbm, ⟨4, _⟩ => ⟨S128, .f32⟩
  | .hbm, ⟨5, _⟩ => ⟨S128, .f32⟩
  | .hbm, ⟨6, _⟩ => ⟨S5120x4096, .bf16⟩
  | .hbm, ⟨7, _⟩ => ⟨S16384x4096, .f32⟩
  | .hbm, ⟨8, _⟩ => ⟨S16384x1024, .f32⟩
  | .hbm, ⟨9, _⟩ => ⟨S16384x5120, .f32⟩
  | .local _ .vmem, ⟨0, _⟩ => ⟨S64x4096, .f32⟩
  | .local _ .vmem, ⟨1, _⟩ => ⟨S64x4096, .f32⟩
  | .local _ .vmem, ⟨2, _⟩ => ⟨S4096x4096, .bf16⟩
  | .local _ .vmem, ⟨3, _⟩ => ⟨S64x128, .f32⟩
  | .local _ .vmem, ⟨4, _⟩ => ⟨S64x128, .f32⟩
  | .local _ .vmem, ⟨5, _⟩ => ⟨S64x128, .f32⟩
  | .local _ .vmem, ⟨6, _⟩ => ⟨S64x128, .f32⟩
  | .local _ .vmem, ⟨7, _⟩ => ⟨S128, .f32⟩
  | .local _ .vmem, ⟨8, _⟩ => ⟨S64x4096, .f32⟩
  | .local _ .vmem, ⟨9, _⟩ => ⟨S64x4096, .f32⟩
  | .local _ .vmem, ⟨10, _⟩ => ⟨S512x4096, .f32⟩
  | .local _ .vmem, ⟨11, _⟩ => ⟨S512x4096, .f32⟩
  | .local _ .vmem, ⟨12, _⟩ => ⟨S1024x4096, .bf16⟩
  | .local _ .vmem, ⟨13, _⟩ => ⟨S512x128, .f32⟩
  | .local _ .vmem, ⟨14, _⟩ => ⟨S512x128, .f32⟩
  | .local _ .vmem, ⟨15, _⟩ => ⟨S512x128, .f32⟩
  | .local _ .vmem, ⟨16, _⟩ => ⟨S512x128, .f32⟩
  | .local _ .vmem, ⟨17, _⟩ => ⟨S128, .f32⟩
  | .local _ .vmem, ⟨18, _⟩ => ⟨S512x1024, .f32⟩
  | .local _ .vmem, ⟨19, _⟩ => ⟨S512x1024, .f32⟩
  | _, _ => ⟨S16384x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | _, _ => false

abbrev semScoped : Fin 0 → Bool
  | ⟨_, h⟩ => absurd h (Nat.not_lt_zero _)

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  ofTc nBuf bufTy 0 20 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg5_1 : Ref sig .tc := ⟨.vmem, 9, rfl⟩
abbrev cc1_stg0_0 : Ref sig .tc := ⟨.vmem, 10, rfl⟩
abbrev cc1_stg0_1 : Ref sig .tc := ⟨.vmem, 11, rfl⟩
abbrev cc1_stg1_0 : Ref sig .tc := ⟨.vmem, 12, rfl⟩
abbrev cc1_stg2_0 : Ref sig .tc := ⟨.vmem, 13, rfl⟩
abbrev cc1_stg2_1 : Ref sig .tc := ⟨.vmem, 14, rfl⟩
abbrev cc1_stg3_0 : Ref sig .tc := ⟨.vmem, 15, rfl⟩
abbrev cc1_stg3_1 : Ref sig .tc := ⟨.vmem, 16, rfl⟩
abbrev cc1_stg4_0 : Ref sig .tc := ⟨.vmem, 17, rfl⟩
abbrev cc1_stg5_0 : Ref sig .tc := ⟨.vmem, 18, rfl⟩
abbrev cc1_stg5_1 : Ref sig .tc := ⟨.vmem, 19, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem5_0 : DmaSem sig := 8
abbrev cc0_sem5_1 : DmaSem sig := 9
abbrev cc1_sem0_0 : DmaSem sig := 10
abbrev cc1_sem0_1 : DmaSem sig := 11
abbrev cc1_sem1_0 : DmaSem sig := 12
abbrev cc1_sem2_0 : DmaSem sig := 13
abbrev cc1_sem2_1 : DmaSem sig := 14
abbrev cc1_sem3_0 : DmaSem sig := 15
abbrev cc1_sem3_1 : DmaSem sig := 16
abbrev cc1_sem4_0 : DmaSem sig := 17
abbrev cc1_sem5_0 : DmaSem sig := 18
abbrev cc1_sem5_1 : DmaSem sig := 19

abbrev nD : Nat := 1
abbrev τ : Topo := Topo.v7x

variable {F : FTy → Type} [FloatOps F]

abbrev grid0 : Pipeline.Grid := ⟨1, ![256], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S64x4096 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S4096x4096 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S64x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S64x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S64x4096 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev grid1 : Pipeline.Grid := ⟨1, ![32], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c4_i32 : BitVec 32 := 4#32
  let c0_i32 : BitVec 32 := 0#32
  let c0_i32_0 : BitVec 32 := 0#32
  ![c4_i32.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_3 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_4 (i : grid1.Coords) : Fin 1 → Nat :=
  let arg0 : BitVec 32 := BitVec.ofNat 32 (i 0).val
  let c0_i32 : BitVec 32 := 0#32
  let c0_i32_0 : BitVec 32 := 0#32
  ![c0_i32.toNat]

def cc1_transform_5 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S512x4096 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S1024x4096 .bf16 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 2 → Memref sig .tc .vmem S512x128 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 2 → Memref sig .tc .vmem S512x128 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev stage1_4 : Fin 1 → Memref sig .tc .vmem S128 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 2 → Memref sig .tc .vmem S512x1024 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true]

class Facts₀ : Prop where
  bitsLt_bf16_f32 : FTy.bits .bf16 < FTy.bits .f32
  inb_S64x4096_S64x4096_0_0 : ∀ a, (![0, 0] : Fin 2 → Nat) a + S64x4096.size a ≤ S64x4096.size a
  h_S64x4096 : 0 < S64x4096.numel
  inb_S4096x4096_S4096x4096_0_0 : ∀ a, (![0, 0] : Fin 2 → Nat) a + S4096x4096.size a ≤ S4096x4096.size a
  h_S4096x4096 : 0 < S4096x4096.numel
  shapeCasts_S4096x4096_S4096x4096 : S4096x4096.ShapeCasts S4096x4096
  inb_S64x128_S64x128_0_0 : ∀ a, (![0, 0] : Fin 2 → Nat) a + S64x128.size a ≤ S64x128.size a
  h_S64x128 : 0 < S64x128.numel
  inb_S128_S128_0 : ∀ a, (![0] : Fin 1 → Nat) a + S128.size a ≤ S128.size a
  h_S128 : 0 < S128.numel
  slices_S64x4096_o0_0_S64x128 : S64x4096.Slices ![0, 0] S64x128
  reduces_S64x128_S64 : S64x128.Reduces [1] S64
  shapeCasts_S64_S64x1 : S64.ShapeCasts S64x1
  broadcasts_S64x1_S64x128 : S64x1.Broadcasts S64x128
  shapeCasts_S128_S1x128 : S128.ShapeCasts S1x128
  broadcasts_S1x128_S64x128 : S1x128.Broadcasts S64x128
  slices_S64x128_o0_0_S64x64 : S64x128.Slices ![0, 0] S64x64
  slices_S64x128_o0_64_S64x64 : S64x128.Slices ![0, 64] S64x64
  concatenates_S64x64_S64x64_S64x128_d1 : Shape.Concatenates [S64x64, S64x64] S64x128 1
  inb_S64x4096_S64x128_0_0 : ∀ a, (![0, 0] : Fin 2 → Nat) a + S64x128.size a ≤ S64x4096.size a
  slices_S64x4096_o0_128_S64x128 : S64x4096.Slices ![0, 128] S64x128
  inb_S64x4096_S64x128_0_128 : ∀ a, (![0, 128] : Fin 2 → Nat) a + S64x128.size a ≤ S64x4096.size a
  slices_S64x4096_o0_256_S64x128 : S64x4096.Slices ![0, 256] S64x128
  inb_S64x4096_S64x128_0_256 : ∀ a, (![0, 256] : Fin 2 → Nat) a + S64x128.size a ≤ S64x4096.size a
  slices_S64x4096_o0_384_S64x128 : S64x4096.Slices ![0, 384] S64x128
  inb_S64x4096_S64x128_0_384 : ∀ a, (![0, 384] : Fin 2 → Nat) a + S64x128.size a ≤ S64x4096.size a
  slices_S64x4096_o0_512_S64x128 : S64x4096.Slices ![0, 512] S64x128
  inb_S64x4096_S64x128_0_512 : ∀ a, (![0, 512] : Fin 2 → Nat) a + S64x128.size a ≤ S64x4096.size a
  slices_S64x4096_o0_640_S64x128 : S64x4096.Slices ![0, 640] S64x128
  inb_S64x4096_S64x128_0_640 : ∀ a, (![0, 640] : Fin 2 → Nat) a + S64x128.size a ≤ S64x4096.size a
  slices_S64x4096_o0_768_S64x128 : S64x4096.Slices ![0, 768] S64x128
  inb_S64x4096_S64x128_0_768 : ∀ a, (![0, 768] : Fin 2 → Nat) a + S64x128.size a ≤ S64x4096.size a
  slices_S64x4096_o0_896_S64x128 : S64x4096.Slices ![0, 896] S64x128
  inb_S64x4096_S64x128_0_896 : ∀ a, (![0, 896] : Fin 2 → Nat) a + S64x128.size a ≤ S64x4096.size a
  slices_S64x4096_o0_1024_S64x128 : S64x4096.Slices ![0, 1024] S64x128
  inb_S64x4096_S64x128_0_1024 : ∀ a, (![0, 1024] : Fin 2 → Nat) a + S64x128.size a ≤ S64x4096.size a
  slices_S64x4096_o0_1152_S64x128 : S64x4096.Slices ![0, 1152] S64x128
  inb_S64x4096_S64x128_0_1152 : ∀ a, (![0, 1152] : Fin 2 → Nat) a + S64x128.size a ≤ S64x4096.size a
  slices_S64x4096_o0_1280_S64x128 : S64x4096.Slices ![0, 1280] S64x128
  inb_S64x4096_S64x128_0_1280 : ∀ a, (![0, 1280] : Fin 2 → Nat) a + S64x128.size a ≤ S64x4096.size a
  slices_S64x4096_o0_1408_S64x128 : S64x4096.Slices ![0, 1408] S64x128
  inb_S64x4096_S64x128_0_1408 : ∀ a, (![0, 1408] : Fin 2 → Nat) a + S64x128.size a ≤ S64x4096.size a
  slices_S64x4096_o0_1536_S64x128 : S64x4096.Slices ![0, 1536] S64x128
  inb_S64x4096_S64x128_0_1536 : ∀ a, (![0, 1536] : Fin 2 → Nat) a + S64x128.size a ≤ S64x4096.size a
  slices_S64x4096_o0_1664_S64x128 : S64x4096.Slices ![0, 1664] S64x128
  inb_S64x4096_S64x128_0_1664 : ∀ a, (![0, 1664] : Fin 2 → Nat) a + S64x128.size a ≤ S64x4096.size a
  slices_S64x4096_o0_1792_S64x128 : S64x4096.Slices ![0, 1792] S64x128
  inb_S64x4096_S64x128_0_1792 : ∀ a, (![0, 1792] : Fin 2 → Nat) a + S64x128.size a ≤ S64x4096.size a
  slices_S64x4096_o0_1920_S64x128 : S64x4096.Slices ![0, 1920] S64x128
  inb_S64x4096_S64x128_0_1920 : ∀ a, (![0, 1920] : Fin 2 → Nat) a + S64x128.size a ≤ S64x4096.size a
  slices_S64x4096_o0_2048_S64x128 : S64x4096.Slices ![0, 2048] S64x128
  inb_S64x4096_S64x128_0_2048 : ∀ a, (![0, 2048] : Fin 2 → Nat) a + S64x128.size a ≤ S64x4096.size a
  slices_S64x4096_o0_2176_S64x128 : S64x4096.Slices ![0, 2176] S64x128
  inb_S64x4096_S64x128_0_2176 : ∀ a, (![0, 2176] : Fin 2 → Nat) a + S64x128.size a ≤ S64x4096.size a
  slices_S64x4096_o0_2304_S64x128 : S64x4096.Slices ![0, 2304] S64x128
  inb_S64x4096_S64x128_0_2304 : ∀ a, (![0, 2304] : Fin 2 → Nat) a + S64x128.size a ≤ S64x4096.size a
  slices_S64x4096_o0_2432_S64x128 : S64x4096.Slices ![0, 2432] S64x128
  inb_S64x4096_S64x128_0_2432 : ∀ a, (![0, 2432] : Fin 2 → Nat) a + S64x128.size a ≤ S64x4096.size a
  slices_S64x4096_o0_2560_S64x128 : S64x4096.Slices ![0, 2560] S64x128
  inb_S64x4096_S64x128_0_2560 : ∀ a, (![0, 2560] : Fin 2 → Nat) a + S64x128.size a ≤ S64x4096.size a
  slices_S64x4096_o0_2688_S64x128 : S64x4096.Slices ![0, 2688] S64x128
  inb_S64x4096_S64x128_0_2688 : ∀ a, (![0, 2688] : Fin 2 → Nat) a + S64x128.size a ≤ S64x4096.size a
  slices_S64x4096_o0_2816_S64x128 : S64x4096.Slices ![0, 2816] S64x128
  inb_S64x4096_S64x128_0_2816 : ∀ a, (![0, 2816] : Fin 2 → Nat) a + S64x128.size a ≤ S64x4096.size a
  slices_S64x4096_o0_2944_S64x128 : S64x4096.Slices ![0, 2944] S64x128
  inb_S64x4096_S64x128_0_2944 : ∀ a, (![0, 2944] : Fin 2 → Nat) a + S64x128.size a ≤ S64x4096.size a
  slices_S64x4096_o0_3072_S64x128 : S64x4096.Slices ![0, 3072] S64x128
  inb_S64x4096_S64x128_0_3072 : ∀ a, (![0, 3072] : Fin 2 → Nat) a + S64x128.size a ≤ S64x4096.size a
  slices_S64x4096_o0_3200_S64x128 : S64x4096.Slices ![0, 3200] S64x128
  inb_S64x4096_S64x128_0_3200 : ∀ a, (![0, 3200] : Fin 2 → Nat) a + S64x128.size a ≤ S64x4096.size a
  slices_S64x4096_o0_3328_S64x128 : S64x4096.Slices ![0, 3328] S64x128
  inb_S64x4096_S64x128_0_3328 : ∀ a, (![0, 3328] : Fin 2 → Nat) a + S64x128.size a ≤ S64x4096.size a
  slices_S64x4096_o0_3456_S64x128 : S64x4096.Slices ![0, 3456] S64x128
  inb_S64x4096_S64x128_0_3456 : ∀ a, (![0, 3456] : Fin 2 → Nat) a + S64x128.size a ≤ S64x4096.size a
  slices_S64x4096_o0_3584_S64x128 : S64x4096.Slices ![0, 3584] S64x128
  inb_S64x4096_S64x128_0_3584 : ∀ a, (![0, 3584] : Fin 2 → Nat) a + S64x128.size a ≤ S64x4096.size a
  slices_S64x4096_o0_3712_S64x128 : S64x4096.Slices ![0, 3712] S64x128
  inb_S64x4096_S64x128_0_3712 : ∀ a, (![0, 3712] : Fin 2 → Nat) a + S64x128.size a ≤ S64x4096.size a
  slices_S64x4096_o0_3840_S64x128 : S64x4096.Slices ![0, 3840] S64x128
  inb_S64x4096_S64x128_0_3840 : ∀ a, (![0, 3840] : Fin 2 → Nat) a + S64x128.size a ≤ S64x4096.size a
  slices_S64x4096_o0_3968_S64x128 : S64x4096.Slices ![0, 3968] S64x128
  inb_S64x4096_S64x128_0_3968 : ∀ a, (![0, 3968] : Fin 2 → Nat) a + S64x128.size a ≤ S64x4096.size a
  inb_S512x4096_S512x4096_0_0 : ∀ a, (![0, 0] : Fin 2 → Nat) a + S512x4096.size a ≤ S512x4096.size a
  h_S512x4096 : 0 < S512x4096.numel
  inb_S1024x4096_S1024x4096_0_0 : ∀ a, (![0, 0] : Fin 2 → Nat) a + S1024x4096.size a ≤ S1024x4096.size a
  h_S1024x4096 : 0 < S1024x4096.numel
  shapeCasts_S1024x4096_S1024x4096 : S1024x4096.ShapeCasts S1024x4096
  inb_S512x128_S512x128_0_0 : ∀ a, (![0, 0] : Fin 2 → Nat) a + S512x128.size a ≤ S512x128.size a
  h_S512x128 : 0 < S512x128.numel
  slices_S512x1024_o0_0_S512x128 : S512x1024.Slices ![0, 0] S512x128
  reduces_S512x128_S512 : S512x128.Reduces [1] S512
  shapeCasts_S512_S512x1 : S512.ShapeCasts S512x1
  broadcasts_S512x1_S512x128 : S512x1.Broadcasts S512x128
  broadcasts_S1x128_S512x128 : S1x128.Broadcasts S512x128
  slices_S512x128_o0_0_S512x64 : S512x128.Slices ![0, 0] S512x64
  slices_S512x128_o0_64_S512x64 : S512x128.Slices ![0, 64] S512x64
  concatenates_S512x64_S512x64_S512x128_d1 : Shape.Concatenates [S512x64, S512x64] S512x128 1
  inb_S512x1024_S512x128_0_0 : ∀ a, (![0, 0] : Fin 2 → Nat) a + S512x128.size a ≤ S512x1024.size a
  slices_S512x1024_o0_128_S512x128 : S512x1024.Slices ![0, 128] S512x128
  inb_S512x1024_S512x128_0_128 : ∀ a, (![0, 128] : Fin 2 → Nat) a + S512x128.size a ≤ S512x1024.size a
  slices_S512x1024_o0_256_S512x128 : S512x1024.Slices ![0, 256] S512x128
  inb_S512x1024_S512x128_0_256 : ∀ a, (![0, 256] : Fin 2 → Nat) a + S512x128.size a ≤ S512x1024.size a
  slices_S512x1024_o0_384_S512x128 : S512x1024.Slices ![0, 384] S512x128
  inb_S512x1024_S512x128_0_384 : ∀ a, (![0, 384] : Fin 2 → Nat) a + S512x128.size a ≤ S512x1024.size a
  slices_S512x1024_o0_512_S512x512 : S512x1024.Slices ![0, 512] S512x512
  inb_S512x1024_S512x512_0_512 : ∀ a, (![0, 512] : Fin 2 → Nat) a + S512x512.size a ≤ S512x1024.size a
  h_S512x512 : 0 < S512x512.numel
  concatenates_S16384x4096_S16384x1024_S16384x5120_d1 : Shape.Concatenates [S16384x4096, S16384x1024] S16384x5120 1
  dot_S64x4096_S4096x4096_S64x4096_1_1_0_0_n_n_wf : DotDims.WF S64x4096 S4096x4096 S64x4096 [1] [1] [0] [0] [] []
  dot_S512x4096_S1024x4096_S512x1024_1_1_0_0_n_n_wf : DotDims.WF S512x4096 S1024x4096 S512x1024 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S64x4096.size a ≤ S16384x4096.size a
  hwx0_0 : ∀ i : grid0.Coords, EltTy.bits .f32 = 32 ∨ (Rect.block (s := S16384x4096) S64x4096.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hstart0_1 : ∀ (i : grid0.Coords) a, cc0_transform_1 i a * S4096x4096.size a < S5120x4096.size a
  hwx0_1 : ∀ i : grid0.Coords, EltTy.bits .bf16 = 32 ∨ (Rect.unit (s := S5120x4096) (fun a => cc0_transform_1 i a * S4096x4096.size a) (fun a => (Pipeline.Clip.of (cc0_transform_1 i a) (S4096x4096.size a) (S5120x4096.size a)).extent (S4096x4096.size a)) fun a => Pipeline.Clip.inb (Pipeline.Clip.ok_of (hstart0_1 i a))).WholeWords (EltTy.packing .bf16)
  hwxs0_1 : ∀ i : grid0.Coords, EltTy.bits .bf16 = 32 ∨ (Rect.unit (s := S4096x4096) (fun _ => 0) (fun a => (Pipeline.Clip.of (cc0_transform_1 i a) (S4096x4096.size a) (S5120x4096.size a)).extent (S4096x4096.size a)) fun a => (Nat.zero_add _).trans_le (Pipeline.Clip.extent_le (Pipeline.Clip.ok_of (hstart0_1 i a)))).WholeWords (EltTy.packing .bf16)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S64x128.size a ≤ S16384x128.size a
  hwx0_2 : ∀ i : grid0.Coords, EltTy.bits .f32 = 32 ∨ (Rect.block (s := S16384x128) S64x128.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S64x128.size a ≤ S16384x128.size a
  hwx0_3 : ∀ i : grid0.Coords, EltTy.bits .f32 = 32 ∨ (Rect.block (s := S16384x128) S64x128.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S128.size a ≤ S128.size a
  hwx0_4 : ∀ i : grid0.Coords, EltTy.bits .f32 = 32 ∨ (Rect.block (s := S128) S128.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S64x4096.size a ≤ S16384x4096.size a
  hwx0_5 : ∀ i : grid0.Coords, EltTy.bits .f32 = 32 ∨ (Rect.block (s := S16384x4096) S64x4096.size (cc0_transform_5 i) (hinb0_5 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S512x4096.size a ≤ S16384x4096.size a
  hwx1_0 : ∀ i : grid1.Coords, EltTy.bits .f32 = 32 ∨ (Rect.block (s := S16384x4096) S512x4096.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S1024x4096.size a ≤ S5120x4096.size a
  hwx1_1 : ∀ i : grid1.Coords, EltTy.bits .bf16 = 32 ∨ (Rect.block (s := S5120x4096) S1024x4096.size (cc1_transform_1 i) (hinb1_1 i)).WholeWords (EltTy.packing .bf16)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S512x128.size a ≤ S16384x128.size a
  hwx1_2 : ∀ i : grid1.Coords, EltTy.bits .f32 = 32 ∨ (Rect.block (s := S16384x128) S512x128.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S512x128.size a ≤ S16384x128.size a
  hwx1_3 : ∀ i : grid1.Coords, EltTy.bits .f32 = 32 ∨ (Rect.block (s := S16384x128) S512x128.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S128.size a ≤ S128.size a
  hwx1_4 : ∀ i : grid1.Coords, EltTy.bits .f32 = 32 ∨ (Rect.block (s := S128) S128.size (cc1_transform_4 i) (hinb1_4 i)).WholeWords (EltTy.packing .f32)
  hstage1_5 : ∀ j, (stage1_5 j).IsWhole
  nbuf1_5 : grid1.bufCount reads1_5 false = 2
  hreads1_5 : ∀ i i' : grid1.Coords, (∀ a, reads1_5 a = true → i a = i' a) → cc1_transform_5 i = cc1_transform_5 i'
  hinb1_5 : ∀ (i : grid1.Coords) a, (cc1_transform_5 i a + 1) * S512x1024.size a ≤ S16384x1024.size a
  hwx1_5 : ∀ i : grid1.Coords, EltTy.bits .f32 = 32 ∨ (Rect.block (s := S16384x1024) S512x1024.size (cc1_transform_5 i) (hinb1_5 i)).WholeWords (EltTy.packing .f32)

variable [Facts₀]

def dot_S64x4096_S4096x4096_S64x4096_1_1_0_0_n_n : DotDims S64x4096 S4096x4096 S64x4096 where
  lhsContracting := [1]
  rhsContracting := [1]
  lhsNonContracting := [0]
  rhsNonContracting := [0]
  lhsBatch := []
  rhsBatch := []
  wf := dot_S64x4096_S4096x4096_S64x4096_1_1_0_0_n_n_wf
def dot_S512x4096_S1024x4096_S512x1024_1_1_0_0_n_n : DotDims S512x4096 S1024x4096 S512x1024 where
  lhsContracting := [1]
  rhsContracting := [1]
  lhsNonContracting := [0]
  rhsNonContracting := [0]
  lhsBatch := []
  rhsBatch := []
  wf := dot_S512x4096_S1024x4096_S512x1024_1_1_0_0_n_n_wf

abbrev win0_0 : Pipeline.Window sig grid0 :=
  Pipeline.Window.ofSpec (Memref.whole main_arg0) S64x4096.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpecClip (Memref.whole main_v0) S4096x4096.size cc0_transform_1 reads0_1 false true 1 stage0_1 sem0_1
    hrank0 hreads0_1 hstart0_1 nbuf0_1 (Memref.isWhole_whole _) hwx0_1 hwxs0_1 hstage0_1

abbrev win0_2 : Pipeline.Window sig grid0 :=
  Pipeline.Window.ofSpec (Memref.whole main_arg1) S64x128.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_arg2) S64x128.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_arg4) S128.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v1) S64x4096.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

abbrev win1_0 : Pipeline.Window sig grid1 :=
  Pipeline.Window.ofSpec (Memref.whole main_arg0) S512x4096.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v0) S1024x4096.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_arg1) S512x128.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_arg2) S512x128.size cc1_transform_3 reads1_3 false false 2 stage1_3 sem1_3
    hrank1 hreads1_3 hinb1_3 nbuf1_3 (Memref.isWhole_whole _) hwx1_3 hstage1_3

abbrev win1_4 : Pipeline.Window sig grid1 :=
  Pipeline.Window.ofSpec (Memref.whole main_arg5) S128.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v2) S512x1024.size cc1_transform_5 reads1_5 true false 2 stage1_5 sem1_5
    hrank1 hreads1_5 hinb1_5 nbuf1_5 (Memref.isWhole_whole _) hwx1_5 hstage1_5

abbrev win1 : Fin 6 → Pipeline.Window sig grid1 := fun | 0 => win1_0 | 1 => win1_1 | 2 => win1_2 | 3 => win1_3 | 4 => win1_4 | 5 => win1_5 | ⟨_ + 6, h⟩ => absurd h (Nat.not_lt.2 (Nat.le_add_left _ _))
abbrev spec1 : Fin 6 → Pipeline.WinSpec sig grid1.rank := fun w => (win1 w).toWinSpec

class Facts : Prop extends Facts₀ where

variable [Facts]
-- ==== ReferenceIdeal.lean ====
abbrev S16384x4096 : Shape := ⟨2, ![16384, 4096]⟩
abbrev S16384x128 : Shape := ⟨2, ![16384, 128]⟩
abbrev S5120x4096 : Shape := ⟨2, ![5120, 4096]⟩
abbrev S128 : Shape := ⟨1, ![128]⟩
abbrev S16384x5120 : Shape := ⟨2, ![16384, 5120]⟩
abbrev S16384x32x128 : Shape := ⟨3, ![16384, 32, 128]⟩
abbrev S16384x512 : Shape := ⟨2, ![16384, 512]⟩
abbrev S16384x4x128 : Shape := ⟨3, ![16384, 4, 128]⟩
abbrev S_ : Shape := ⟨0, ![]⟩
abbrev S16384x32 : Shape := ⟨2, ![16384, 32]⟩
abbrev S16384x32x1 : Shape := ⟨3, ![16384, 32, 1]⟩
abbrev S1x1x128 : Shape := ⟨3, ![1, 1, 128]⟩
abbrev S16384x32x64 : Shape := ⟨3, ![16384, 32, 64]⟩
abbrev S16384x1x128 : Shape := ⟨3, ![16384, 1, 128]⟩
abbrev S16384x4 : Shape := ⟨2, ![16384, 4]⟩
abbrev S16384x4x1 : Shape := ⟨3, ![16384, 4, 1]⟩
abbrev S16384x4x64 : Shape := ⟨3, ![16384, 4, 64]⟩

abbrev nBuf : Space → Nat
  | .hbm => 69
  | .vmem => 0
  | .smem => 0
  | _ => 0

abbrev bufTy : (tb : Table) → Fin (tcTables nBuf tb) → BufTy
  | .hbm, ⟨0, _⟩ => ⟨S16384x4096, .f32⟩
  | .hbm, ⟨1, _⟩ => ⟨S16384x128, .f32⟩
  | .hbm, ⟨2, _⟩ => ⟨S16384x128, .f32⟩
  | .hbm, ⟨3, _⟩ => ⟨S5120x4096, .f32⟩
  | .hbm, ⟨4, _⟩ => ⟨S128, .f32⟩
  | .hbm, ⟨5, _⟩ => ⟨S128, .f32⟩
  | .hbm, ⟨6, _⟩ => ⟨S16384x5120, .f32⟩
  | .hbm, ⟨7, _⟩ => ⟨S16384x4096, .f32⟩
  | .hbm, ⟨8, _⟩ => ⟨S16384x32x128, .f32⟩
  | .hbm, ⟨9, _⟩ => ⟨S16384x512, .f32⟩
  | .hbm, ⟨10, _⟩ => ⟨S16384x4x128, .f32⟩
  | .hbm, ⟨11, _⟩ => ⟨S16384x512, .f32⟩
  | .hbm, ⟨12, _⟩ => ⟨S16384x32x128, .f32⟩
  | .hbm, ⟨13, _⟩ => ⟨S_, .f32⟩
  | .hbm, ⟨14, _⟩ => ⟨S16384x32, .f32⟩
  | .hbm, ⟨15, _⟩ => ⟨S16384x32x1, .f32⟩
  | .hbm, ⟨16, _⟩ => ⟨S_, .f32⟩
  | .hbm, ⟨17, _⟩ => ⟨S16384x32x1, .f32⟩
  | .hbm, ⟨18, _⟩ => ⟨S16384x32x1, .f32⟩
  | .hbm, ⟨19, _⟩ => ⟨S_, .f32⟩
  | .hbm, ⟨20, _⟩ => ⟨S16384x32x1, .f32⟩
  | .hbm, ⟨21, _⟩ => ⟨S16384x32x1, .f32⟩
  | .hbm, ⟨22, _⟩ => ⟨S16384x32x1, .f32⟩
  | .hbm, ⟨23, _⟩ => ⟨S16384x32x128, .f32⟩
  | .hbm, ⟨24, _⟩ => ⟨S16384x32x128, .f32⟩
  | .hbm, ⟨25, _⟩ => ⟨S1x1x128, .f32⟩
  | .hbm, ⟨26, _⟩ => ⟨S16384x32x128, .f32⟩
  | .hbm, ⟨27, _⟩ => ⟨S16384x32x128, .f32⟩
  | .hbm, ⟨28, _⟩ => ⟨S16384x32x64, .f32⟩
  | .hbm, ⟨29, _⟩ => ⟨S16384x32x64, .f32⟩
  | .hbm, ⟨30, _⟩ => ⟨S16384x32x64, .f32⟩
  | .hbm, ⟨31, _⟩ => ⟨S16384x32x128, .f32⟩
  | .hbm, ⟨32, _⟩ => ⟨S16384x1x128, .f32⟩
  | .hbm, ⟨33, _⟩ => ⟨S16384x1x128, .f32⟩
  | .hbm, ⟨34, _⟩ => ⟨S16384x32x128, .f32⟩
  | .hbm, ⟨35, _⟩ => ⟨S16384x32x128, .f32⟩
  | .hbm, ⟨36, _⟩ => ⟨S16384x32x128, .f32⟩
  | .hbm, ⟨37, _⟩ => ⟨S16384x32x128, .f32⟩
  | .hbm, ⟨38, _⟩ => ⟨S16384x32x128, .f32⟩
  | .hbm, ⟨39, _⟩ => ⟨S16384x4096, .f32⟩
  | .hbm, ⟨40, _⟩ => ⟨S16384x4x128, .f32⟩
  | .hbm, ⟨41, _⟩ => ⟨S_, .f32⟩
  | .hbm, ⟨42, _⟩ => ⟨S16384x4, .f32⟩
  | .hbm, ⟨43, _⟩ => ⟨S16384x4x1, .f32⟩
  | .hbm, ⟨44, _⟩ => ⟨S_, .f32⟩
  | .hbm, ⟨45, _⟩ => ⟨S16384x4x1, .f32⟩
  | .hbm, ⟨46, _⟩ => ⟨S16384x4x1, .f32⟩
  | .hbm, ⟨47, _⟩ => ⟨S_, .f32⟩
  | .hbm, ⟨48, _⟩ => ⟨S16384x4x1, .f32⟩
  | .hbm, ⟨49, _⟩ => ⟨S16384x4x1, .f32⟩
  | .hbm, ⟨50, _⟩ => ⟨S16384x4x1, .f32⟩
  | .hbm, ⟨51, _⟩ => ⟨S16384x4x128, .f32⟩
  | .hbm, ⟨52, _⟩ => ⟨S16384x4x128, .f32⟩
  | .hbm, ⟨53, _⟩ => ⟨S1x1x128, .f32⟩
  | .hbm, ⟨54, _⟩ => ⟨S16384x4x128, .f32⟩
  | .hbm, ⟨55, _⟩ => ⟨S16384x4x128, .f32⟩
  | .hbm, ⟨56, _⟩ => ⟨S16384x4x64, .f32⟩
  | .hbm, ⟨57, _⟩ => ⟨S16384x4x64, .f32⟩
  | .hbm, ⟨58, _⟩ => ⟨S16384x4x64, .f32⟩
  | .hbm, ⟨59, _⟩ => ⟨S16384x4x128, .f32⟩
  | .hbm, ⟨60, _⟩ => ⟨S16384x1x128, .f32⟩
  | .hbm, ⟨61, _⟩ => ⟨S16384x1x128, .f32⟩
  | .hbm, ⟨62, _⟩ => ⟨S16384x4x128, .f32⟩
  | .hbm, ⟨63, _⟩ => ⟨S16384x4x128, .f32⟩
  | .hbm, ⟨64, _⟩ => ⟨S16384x4x128, .f32⟩
  | .hbm, ⟨65, _⟩ => ⟨S16384x4x128, .f32⟩
  | .hbm, ⟨66, _⟩ => ⟨S16384x4x128, .f32⟩
  | .hbm, ⟨67, _⟩ => ⟨S16384x512, .f32⟩
  | .hbm, ⟨68, _⟩ => ⟨S16384x5120, .f32⟩
  | _, _ => ⟨S16384x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_cst : Ref sig .tc := ⟨.hbm, 13, rfl⟩
abbrev main_v7 : Ref sig .tc := ⟨.hbm, 14, rfl⟩
abbrev main_v8 : Ref sig .tc := ⟨.hbm, 15, rfl⟩
abbrev main_cst_0 : Ref sig .tc := ⟨.hbm, 16, rfl⟩
abbrev main_v9 : Ref sig .tc := ⟨.hbm, 17, rfl⟩
abbrev main_v10 : Ref sig .tc := ⟨.hbm, 18, rfl⟩
abbrev main_cst_1 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩
abbrev main_v27 : Ref sig .tc := ⟨.hbm, 36, rfl⟩
abbrev main_v28 : Ref sig .tc := ⟨.hbm, 37, rfl⟩
abbrev main_v29 : Ref sig .tc := ⟨.hbm, 38, rfl⟩
abbrev main_v30 : Ref sig .tc := ⟨.hbm, 39, rfl⟩
abbrev main_v31 : Ref sig .tc := ⟨.hbm, 40, rfl⟩
abbrev main_cst_2 : Ref sig .tc := ⟨.hbm, 41, rfl⟩
abbrev main_v32 : Ref sig .tc := ⟨.hbm, 42, rfl⟩
abbrev main_v33 : Ref sig .tc := ⟨.hbm, 43, rfl⟩
abbrev main_cst_3 : Ref sig .tc := ⟨.hbm, 44, rfl⟩
abbrev main_v34 : Ref sig .tc := ⟨.hbm, 45, rfl⟩
abbrev main_v35 : Ref sig .tc := ⟨.hbm, 46, rfl⟩
abbrev main_cst_4 : Ref sig .tc := ⟨.hbm, 47, rfl⟩
abbrev main_v36 : Ref sig .tc := ⟨.hbm, 48, rfl⟩
abbrev main_v37 : Ref sig .tc := ⟨.hbm, 49, rfl⟩
abbrev main_v38 : Ref sig .tc := ⟨.hbm, 50, rfl⟩
abbrev main_v39 : Ref sig .tc := ⟨.hbm, 51, rfl⟩
abbrev main_v40 : Ref sig .tc := ⟨.hbm, 52, rfl⟩
abbrev main_v41 : Ref sig .tc := ⟨.hbm, 53, rfl⟩
abbrev main_v42 : Ref sig .tc := ⟨.hbm, 54, rfl⟩
abbrev main_v43 : Ref sig .tc := ⟨.hbm, 55, rfl⟩
abbrev main_v44 : Ref sig .tc := ⟨.hbm, 56, rfl⟩
abbrev main_v45 : Ref sig .tc := ⟨.hbm, 57, rfl⟩
abbrev main_v46 : Ref sig .tc := ⟨.hbm, 58, rfl⟩
abbrev main_v47 : Ref sig .tc := ⟨.hbm, 59, rfl⟩
abbrev main_v48 : Ref sig .tc := ⟨.hbm, 60, rfl⟩
abbrev main_v49 : Ref sig .tc := ⟨.hbm, 61, rfl⟩
abbrev main_v50 : Ref sig .tc := ⟨.hbm, 62, rfl⟩
abbrev main_v51 : Ref sig .tc := ⟨.hbm, 63, rfl⟩
abbrev main_v52 : Ref sig .tc := ⟨.hbm, 64, rfl⟩
abbrev main_v53 : Ref sig .tc := ⟨.hbm, 65, rfl⟩
abbrev main_v54 : Ref sig .tc := ⟨.hbm, 66, rfl⟩
abbrev main_v55 : Ref sig .tc := ⟨.hbm, 67, rfl⟩
abbrev main_v56 : Ref sig .tc := ⟨.hbm, 68, rfl⟩

abbrev nD : Nat := 1
abbrev τ : Topo := Topo.v7x

variable {F : FTy → Type} [FloatOps F]

class Facts₀ : Prop where
  slices_S16384x5120_S16384x4096_0_0 : S16384x5120.Slices ![0, 0] S16384x4096
  shapeCasts_S16384x4096_S16384x32x128 : S16384x4096.ShapeCasts S16384x32x128
  slices_S16384x5120_S16384x512_0_4096 : S16384x5120.Slices ![0, 4096] S16384x512
  shapeCasts_S16384x512_S16384x4x128 : S16384x512.ShapeCasts S16384x4x128
  slices_S16384x5120_S16384x512_0_4608 : S16384x5120.Slices ![0, 4608] S16384x512
  reducesTo_S16384x32x128_S16384x32_d2 : S16384x32x128.ReducesTo [2] S16384x32
  h_S_ : 0 < S_.numel
  bcast_S16384x32_S16384x32x1_0_1 : S16384x32.BroadcastsInDim S16384x32x1 (![0, 1] : Fin 2 → Fin S16384x32x1.rank)
  bcast_S_S16384x32x1 : S_.BroadcastsInDim S16384x32x1 (![] : Fin 0 → Fin S16384x32x1.rank)
  bcast_S16384x32x1_S16384x32x128_0_1_2 : S16384x32x1.BroadcastsInDim S16384x32x128 (![0, 1, 2] : Fin 3 → Fin S16384x32x128.rank)
  bcast_S128_S1x1x128_2 : S128.BroadcastsInDim S1x1x128 (![2] : Fin 1 → Fin S1x1x128.rank)
  bcast_S1x1x128_S16384x32x128_0_1_2 : S1x1x128.BroadcastsInDim S16384x32x128 (![0, 1, 2] : Fin 3 → Fin S16384x32x128.rank)
  slices_S16384x32x128_S16384x32x64_0_0_0 : S16384x32x128.Slices ![0, 0, 0] S16384x32x64
  slices_S16384x32x128_S16384x32x64_0_0_64 : S16384x32x128.Slices ![0, 0, 64] S16384x32x64
  concatenates_S16384x32x64_S16384x32x64_S16384x32x128_d2 : Shape.Concatenates [S16384x32x64, S16384x32x64] S16384x32x128 2
  bcast_S16384x128_S16384x1x128_0_2 : S16384x128.BroadcastsInDim S16384x1x128 (![0, 2] : Fin 2 → Fin S16384x1x128.rank)
  bcast_S16384x1x128_S16384x32x128_0_1_2 : S16384x1x128.BroadcastsInDim S16384x32x128 (![0, 1, 2] : Fin 3 → Fin S16384x32x128.rank)
  shapeCasts_S16384x32x128_S16384x4096 : S16384x32x128.ShapeCasts S16384x4096
  reducesTo_S16384x4x128_S16384x4_d2 : S16384x4x128.ReducesTo [2] S16384x4
  bcast_S16384x4_S16384x4x1_0_1 : S16384x4.BroadcastsInDim S16384x4x1 (![0, 1] : Fin 2 → Fin S16384x4x1.rank)
  bcast_S_S16384x4x1 : S_.BroadcastsInDim S16384x4x1 (![] : Fin 0 → Fin S16384x4x1.rank)
  bcast_S16384x4x1_S16384x4x128_0_1_2 : S16384x4x1.BroadcastsInDim S16384x4x128 (![0, 1, 2] : Fin 3 → Fin S16384x4x128.rank)
  bcast_S1x1x128_S16384x4x128_0_1_2 : S1x1x128.BroadcastsInDim S16384x4x128 (![0, 1, 2] : Fin 3 → Fin S16384x4x128.rank)
  slices_S16384x4x128_S16384x4x64_0_0_0 : S16384x4x128.Slices ![0, 0, 0] S16384x4x64
  slices_S16384x4x128_S16384x4x64_0_0_64 : S16384x4x128.Slices ![0, 0, 64] S16384x4x64
  concatenates_S16384x4x64_S16384x4x64_S16384x4x128_d2 : Shape.Concatenates [S16384x4x64, S16384x4x64] S16384x4x128 2
  bcast_S16384x1x128_S16384x4x128_0_1_2 : S16384x1x128.BroadcastsInDim S16384x4x128 (![0, 1, 2] : Fin 3 → Fin S16384x4x128.rank)
  shapeCasts_S16384x4x128_S16384x512 : S16384x4x128.ShapeCasts S16384x512
  concatenates_S16384x4096_S16384x512_S16384x512_S16384x5120_d1 : Shape.Concatenates [S16384x4096, S16384x512, S16384x512] S16384x5120 1
  dot_S16384x4096_S5120x4096_S16384x5120_1_1_0_0_n_n_wf : DotDims.WF S16384x4096 S5120x4096 S16384x5120 [1] [1] [0] [0] [] []

variable [Facts₀]

def dot_S16384x4096_S5120x4096_S16384x5120_1_1_0_0_n_n : DotDims S16384x4096 S5120x4096 S16384x5120 where
  lhsContracting := [1]
  rhsContracting := [1]
  lhsNonContracting := [0]
  rhsNonContracting := [0]
  lhsBatch := []
  rhsBatch := []
  wf := dot_S16384x4096_S5120x4096_S16384x5120_1_1_0_0_n_n_wf

class Facts : Prop extends Facts₀ where

variable [Facts]
-- ==== Proof.Spec.lean ====
/-
  The result both programs compute, as one function of the six argument arrays, index by index, on the
  extended reals.

  With  P t e = ∑ k < 4096, h[t,k] · w[e,k]  (the fused projection of token t onto output column e), the
  5120 output columns are 40 blocks of 128. A block below column 4608 is an attention head (32 query heads,
  then 4 key heads); for a head's row  x d = P t (128·b + d)  the result is the rotated, normalised row
      y d = x d · rsqrt ((∑ d', x d' · x d') / 128 + ε) · g d
      out d = r d · sin[t,d] + y d · cos[t,d],    r d = −y (d + 64) for d < 64,  r d = y (d − 64) otherwise,
  with g the query weight below column 4096 and the key weight from there on. The last four blocks (columns
  4608 … 5119, the values) are P itself.
-/
import Idealize.ShloMosaic.PureOps.Ideal
import Idealize.ShloMosaic.Lib.ValueIdx

noncomputable section

namespace Cert.Spec

open Idealize.ShloMosaic Idealize.ShloMosaic.ValueIdx
open scoped BigOperators

/-- The divisor of the mean, the float 128. -/
def c128 : EReal := Ideal.ofBits .f32 0x43000000#32
/-- The stabiliser under the root: the float nearest 1e-6. -/
def eps : EReal := Ideal.ofBits .f32 0x358637BD#32

/-- Token `t`'s projection onto output column `e`: the row of `h` against the row of `w`. -/
def proj (h : (⟨2, ![16384, 4096]⟩ : Shape).Idx → EReal) (w : (⟨2, ![5120, 4096]⟩ : Shape).Idx → EReal)
    (t : Fin 16384) (e : Fin 5120) : EReal :=
  ∑ k : Fin 4096, h (ix2 t k) * w (ix2 e k)

/-- A head's row after the root-mean-square normalisation with weight `g`. -/
def normed (x g : Fin 128 → EReal) (d : Fin 128) : EReal :=
  x d * Ideal.rsqrt (Ideal.div (∑ d' : Fin 128, x d' * x d') c128 + eps) * g d

/-- The half-rotation: the upper half negated into the lower, the lower half into the upper. -/
def rotHalf (y : Fin 128 → EReal) (d : Fin 128) : EReal :=
  if h : d.val < 64 then -(y ⟨d.val + 64, by omega⟩) else y ⟨d.val - 64, by omega⟩

/-- A head's row normalised and rotated by the token's sine and cosine rows. -/
def rope (x s c g : Fin 128 → EReal) (d : Fin 128) : EReal :=
  rotHalf (normed x g) d * s d + normed x g d * c d

/-- Block `b` (of 128 columns) of token `t`'s projection, as a row. -/
def headRow (h : (⟨2, ![16384, 4096]⟩ : Shape).Idx → EReal) (w : (⟨2, ![5120, 4096]⟩ : Shape).Idx → EReal)
    (t : Fin 16384) (b : Fin 40) (d : Fin 128) : EReal :=
  proj h w t ⟨b.val * 128 + d.val, by omega⟩

/-- The result at token `t`, column `e`. -/
def Gat (h : (⟨2, ![16384, 4096]⟩ : Shape).Idx → EReal) (sn cs : (⟨2, ![16384, 128]⟩ : Shape).Idx → EReal)
    (w : (⟨2, ![5120, 4096]⟩ : Shape).Idx → EReal) (qn kn : (⟨1, ![128]⟩ : Shape).Idx → EReal)
    (t : Fin 16384) (e : Fin 5120) : EReal :=
  if e.val < 4608 then
    rope (headRow h w t ⟨e.val / 128, by omega⟩) (fun d => sn (ix2 t d)) (fun d => cs (ix2 t d))
      (fun d => if e.val < 4096 then qn (ix1 d) else kn (ix1 d)) ⟨e.val % 128, Nat.mod_lt _ (by norm_num)⟩
  else proj h w t e

/-- The result array. -/
def G (h : (⟨2, ![16384, 4096]⟩ : Shape).Idx → EReal) (sn cs : (⟨2, ![16384, 128]⟩ : Shape).Idx → EReal)
    (w : (⟨2, ![5120, 4096]⟩ : Shape).Idx → EReal) (qn kn : (⟨1, ![128]⟩ : Shape).Idx → EReal) :
    (⟨2, ![16384, 5120]⟩ : Shape).Idx → EReal :=
  fun i => Gat h sn cs w qn kn (i 0) (i 1)

theorem G_ix2 (h sn cs w qn kn) (t : Fin 16384) (e : Fin 5120) :
    G h sn cs w qn kn (ix2 t e) = Gat h sn cs w qn kn t e := rfl

end Cert.Spec

end
-- ==== Proof.RefSpec.lean ====
/-
  The reference program computes the specified array.

  Read index by index, the reference's result at token `t`, column `e` is one of three pieces joined along the
  column axis: columns below 4096 come from the 32 query heads, columns 4096 … 4607 from the 4 key heads, and
  the rest are the projection itself. For a head, the reshape sends column `128·b + d` of its slice to the
  pair `(b, d)`; along `d` the row is multiplied by the reciprocal root of its mean square plus the stabiliser
  and by the weight; the half-rotation is a join of the negated upper half and the lower half along `d`; and the
  sine and cosine rows of the token are broadcast over the heads. Each step below reads one operation at an
  index built from its coordinates; the arithmetic is the specification's, operation for operation, so no law
  of the extended reals is used beyond `0 + x = x` for the sum's initial value.
-/
import proofs.«167721_j61710090109455_2_alg».proof.Proof.Spec
import proofs.«167721_j61710090109455_2_alg».proof.Proof.Gen.ReferenceIdeal.Read

noncomputable section

namespace Cert.RefSpec

open Cert.ReferenceIdeal Cert.ReferenceIdeal.Gen Cert.ReferenceIdeal.Read
open Idealize.ShloMosaic Idealize.ShloMosaic.ValueIdx
open scoped BigOperators

/-! ## The projection -/

/-- The fused projection at token `t`, column `e`: the contraction runs over the 4096 hidden coordinates. -/
theorem proj_at (x0 : (⟨S16384x4096, .f32⟩ : BufTy).Contents (Elt Ideal)) (x3 : (⟨S5120x4096, .f32⟩ : BufTy).Contents (Elt Ideal)) (t : Fin 16384) (e : Fin 5120) :
    val_main_v0 (F := Ideal) x0 x3 (ix2 t e) = Cert.Spec.proj x0 x3 t e := by
  rw [val_main_v0_apply]
  unfold Cert.Spec.proj
  refine Finset.sum_congr rfl fun k _ => ?_
  have el : lidx_main_v0 (ix2 t e) k = ix2 t k := funext fun a => by match a with | ⟨0, _⟩ => rfl | ⟨1, _⟩ => rfl
  have er : ridx_main_v0 (ix2 t e) k = ix2 e k := funext fun a => by match a with | ⟨0, _⟩ => rfl | ⟨1, _⟩ => rfl
  rw [el, er]

/-! ## The query heads -/

/-- A query head's row of the projection: the reshape sends column `128·b + d` of the slice to `(b, d)`. -/
theorem qrow_at (x0 : (⟨S16384x4096, .f32⟩ : BufTy).Contents (Elt Ideal)) (x3 : (⟨S5120x4096, .f32⟩ : BufTy).Contents (Elt Ideal)) (t : Fin 16384) (b : Fin 32) (d : Fin 128) :
    val_main_v2 (F := Ideal) x0 x3 (ix3 t b d) = Cert.Spec.headRow x0 x3 t ⟨b.val, by omega⟩ d := by
  rw [val_main_v2_apply, val_main_v1_apply]
  have hb := b.isLt; have hd := d.isLt; have ht := t.isLt
  have e : idx_main_v1 (idx_main_v2 (ix3 t b d)) = ix2 t (⟨b.val * 128 + d.val, by omega⟩ : Fin 5120) :=
    funext fun a => by
      match a with
      | ⟨0, _⟩ => exact Fin.ext (by show ((t.val * 32 + b.val) * 128 + d.val) / 4096 = t.val; omega)
      | ⟨1, _⟩ => exact Fin.ext (by show ((t.val * 32 + b.val) * 128 + d.val) % 4096 = b.val * 128 + d.val; omega)
  rw [e, proj_at]
  rfl

/-- The sum of squares along a query head's row; the host's sum starts from the zero word. -/
theorem qsq_at (x0 : (⟨S16384x4096, .f32⟩ : BufTy).Contents (Elt Ideal)) (x3 : (⟨S5120x4096, .f32⟩ : BufTy).Contents (Elt Ideal)) (t : Fin 16384) (b : Fin 32) :
    val_main_v7 (F := Ideal) x0 x3 (ix2 t b)
      = ∑ d' : Fin 128, Cert.Spec.headRow x0 x3 t ⟨b.val, by omega⟩ d' * Cert.Spec.headRow x0 x3 t ⟨b.val, by omega⟩ d' := by
  rw [val_main_v7_apply, val_main_cst_apply, Ideal.ofBits_def, Ideal.ofBits_zero_f32, zero_add]
  refine Finset.sum_congr rfl fun k _ => ?_
  have e : idx_main_v7 (ix2 t b) k = ix3 t b k := funext fun a => by match a with | ⟨0, _⟩ => rfl | ⟨1, _⟩ => rfl | ⟨2, _⟩ => rfl
  rw [e, val_main_v6_apply, qrow_at]
  rfl

/-- The reciprocal root of a query head's mean square plus the stabiliser, broadcast along the row. -/
theorem qrs_at (x0 : (⟨S16384x4096, .f32⟩ : BufTy).Contents (Elt Ideal)) (x3 : (⟨S5120x4096, .f32⟩ : BufTy).Contents (Elt Ideal)) (t : Fin 16384) (b : Fin 32) (d : Fin 128) :
    val_main_v14 (F := Ideal) x0 x3 (ix3 t b d)
      = Ideal.rsqrt (Ideal.div (∑ d' : Fin 128, Cert.Spec.headRow x0 x3 t ⟨b.val, by omega⟩ d' * Cert.Spec.headRow x0 x3 t ⟨b.val, by omega⟩ d') Cert.Spec.c128 + Cert.Spec.eps) := by
  rw [val_main_v14_apply, val_main_v13_apply, val_main_v12_apply, val_main_v10_apply, val_main_v8_apply, val_main_v9_apply, val_main_cst_0_apply,
    val_main_v11_apply, val_main_cst_1_apply]
  have e : idx_main_v8 (idx_main_v14 (ix3 t b d)) = ix2 t b := funext fun a => by match a with | ⟨0, _⟩ => rfl | ⟨1, _⟩ => rfl
  rw [e, qsq_at]
  rfl

/-- A query head's normalised row. -/
theorem qnormed_at (x0 : (⟨S16384x4096, .f32⟩ : BufTy).Contents (Elt Ideal)) (x3 : (⟨S5120x4096, .f32⟩ : BufTy).Contents (Elt Ideal)) (x4 : (⟨S128, .f32⟩ : BufTy).Contents (Elt Ideal)) (t : Fin 16384) (b : Fin 32) (d : Fin 128) :
    val_main_v18 (F := Ideal) x0 x3 x4 (ix3 t b d)
      = Cert.Spec.normed (Cert.Spec.headRow x0 x3 t ⟨b.val, by omega⟩) (fun d' => x4 (ix1 d')) d := by
  rw [val_main_v18_apply, val_main_v15_apply, qrow_at, qrs_at, val_main_v17_apply, val_main_v16_apply]
  have e : idx_main_v16 (idx_main_v17 (ix3 t b d)) = ix1 d := funext fun a => by match a with | ⟨0, _⟩ => rfl
  rw [e]
  rfl

/-- Two half rows joined along the last axis, read at an index: the first below 64, the second from there on. -/
theorem qconcat_at (u v : S16384x32x64.Idx → EReal) (t : Fin 16384) (b : Fin 32) (d : Fin 128) :
    concatenate S16384x32x128 2 [⟨S16384x32x64, u⟩, ⟨S16384x32x64, v⟩] concatenates_S16384x32x64_S16384x32x64_S16384x32x128_d2 (ix3 t b d)
      = if hd : d.val < 64 then u (ix3 t b ⟨d.val, hd⟩) else v (ix3 t b ⟨d.val - 64, by omega⟩) := by
  by_cases hd : d.val < 64
  · rw [dif_pos hd]
    exact concatenate_pair_apply_left 2 u v _ (ix3 t b d) rfl (ix3 t b ⟨d.val, hd⟩) (fun a => by match a with | ⟨0, _⟩ => rfl | ⟨1, _⟩ => rfl | ⟨2, _⟩ => rfl)
  · rw [dif_neg hd]
    exact concatenate_pair_apply_right 2 u v _ (ix3 t b d) rfl rfl (ix3 t b ⟨d.val - 64, by omega⟩)
      (fun a => by
        match a with
        | ⟨0, _⟩ => exact fun _ => rfl
        | ⟨1, _⟩ => exact fun _ => rfl
        | ⟨2, _⟩ => exact fun hne => absurd rfl hne)
      (by show (d.val - 64) + 64 = d.val; omega)

/-- The half-rotation of a query head's normalised row. -/
theorem qrot_at (x0 : (⟨S16384x4096, .f32⟩ : BufTy).Contents (Elt Ideal)) (x3 : (⟨S5120x4096, .f32⟩ : BufTy).Contents (Elt Ideal)) (x4 : (⟨S128, .f32⟩ : BufTy).Contents (Elt Ideal)) (t : Fin 16384) (b : Fin 32) (d : Fin 128) :
    val_main_v22 (F := Ideal) x0 x3 x4 (ix3 t b d)
      = Cert.Spec.rotHalf (Cert.Spec.normed (Cert.Spec.headRow x0 x3 t ⟨b.val, by omega⟩) (fun d' => x4 (ix1 d'))) d := by
  unfold val_main_v22 Cert.Spec.rotHalf
  rw [qconcat_at]
  by_cases hd : d.val < 64
  · rw [dif_pos hd, dif_pos hd, val_main_v21_apply, val_main_v20_apply]
    have e : idx_main_v20 (ix3 t b (⟨d.val, hd⟩ : Fin 64)) = ix3 t b (⟨d.val + 64, by omega⟩ : Fin 128) :=
      funext fun a => by
        match a with
        | ⟨0, _⟩ => rfl
        | ⟨1, _⟩ => rfl
        | ⟨2, _⟩ => exact Fin.ext (by show 64 + d.val = d.val + 64; omega)
    rw [e, qnormed_at]
    rfl
  · rw [dif_neg hd, dif_neg hd, val_main_v19_apply]
    have e : idx_main_v19 (ix3 t b (⟨d.val - 64, by omega⟩ : Fin 64)) = ix3 t b (⟨d.val - 64, by omega⟩ : Fin 128) := funext fun a => by match a with | ⟨0, _⟩ => rfl | ⟨1, _⟩ => rfl | ⟨2, _⟩ => rfl
    rw [e, qnormed_at]

/-- A query head's row normalised and rotated by the token's sine and cosine rows. -/
theorem qrope_at (x0 : (⟨S16384x4096, .f32⟩ : BufTy).Contents (Elt Ideal)) (x1 x2 : (⟨S16384x128, .f32⟩ : BufTy).Contents (Elt Ideal)) (x3 : (⟨S5120x4096, .f32⟩ : BufTy).Contents (Elt Ideal)) (x4 : (⟨S128, .f32⟩ : BufTy).Contents (Elt Ideal)) (t : Fin 16384) (b : Fin 32) (d : Fin 128) :
    val_main_v29 (F := Ideal) x0 x1 x2 x3 x4 (ix3 t b d)
      = Cert.Spec.rope (Cert.Spec.headRow x0 x3 t ⟨b.val, by omega⟩) (fun d' => x1 (ix2 t d')) (fun d' => x2 (ix2 t d'))
          (fun d' => x4 (ix1 d')) d := by
  rw [val_main_v29_apply, val_main_v26_apply, val_main_v28_apply, qrot_at, qnormed_at, val_main_v25_apply, val_main_v23_apply,
    val_main_v27_apply, val_main_v24_apply]
  have e1 : idx_main_v23 (idx_main_v25 (ix3 t b d)) = ix2 t d := funext fun a => by match a with | ⟨0, _⟩ => rfl | ⟨1, _⟩ => rfl
  have e2 : idx_main_v24 (idx_main_v27 (ix3 t b d)) = ix2 t d := funext fun a => by match a with | ⟨0, _⟩ => rfl | ⟨1, _⟩ => rfl
  rw [e1, e2]
  rfl

/-- The query heads laid side by side again: column `e` of the 4096 is head `e / 128` at `e % 128`. -/
theorem qflat_at (x0 : (⟨S16384x4096, .f32⟩ : BufTy).Contents (Elt Ideal)) (x1 x2 : (⟨S16384x128, .f32⟩ : BufTy).Contents (Elt Ideal)) (x3 : (⟨S5120x4096, .f32⟩ : BufTy).Contents (Elt Ideal)) (x4 : (⟨S128, .f32⟩ : BufTy).Contents (Elt Ideal)) (t : Fin 16384) (e : Fin 4096) :
    val_main_v30 (F := Ideal) x0 x1 x2 x3 x4 (ix2 t e)
      = Cert.Spec.rope (Cert.Spec.headRow x0 x3 t ⟨e.val / 128, by omega⟩) (fun d' => x1 (ix2 t d')) (fun d' => x2 (ix2 t d'))
          (fun d' => x4 (ix1 d')) ⟨e.val % 128, Nat.mod_lt _ (by norm_num)⟩ := by
  rw [val_main_v30_apply]
  have he := e.isLt; have ht := t.isLt
  have e' : idx_main_v30 (ix2 t e) = ix3 t (⟨e.val / 128, by omega⟩ : Fin 32) (⟨e.val % 128, Nat.mod_lt _ (by norm_num)⟩ : Fin 128) :=
    funext fun a => by
      match a with
      | ⟨0, _⟩ => exact Fin.ext (by show (t.val * 4096 + e.val) / 4096 = t.val; omega)
      | ⟨1, _⟩ => exact Fin.ext (by show (t.val * 4096 + e.val) / 128 % 32 = e.val / 128; omega)
      | ⟨2, _⟩ => exact Fin.ext (by show (t.val * 4096 + e.val) % 128 = e.val % 128; omega)
  rw [e', qrope_at]

/-! ## The key heads -/

/-- A key head's row of the projection: the slice starts at column 4096 and the reshape sends its column
    `128·b + d` to `(b, d)`, so the head's row is block `32 + b` of the projection. -/
theorem krow_at (x0 : (⟨S16384x4096, .f32⟩ : BufTy).Contents (Elt Ideal)) (x3 : (⟨S5120x4096, .f32⟩ : BufTy).Contents (Elt Ideal)) (t : Fin 16384) (b : Fin 4) (d : Fin 128) :
    val_main_v4 (F := Ideal) x0 x3 (ix3 t b d) = Cert.Spec.headRow x0 x3 t ⟨32 + b.val, by omega⟩ d := by
  rw [val_main_v4_apply, val_main_v3_apply]
  have hb := b.isLt; have hd := d.isLt; have ht := t.isLt
  have e : idx_main_v3 (idx_main_v4 (ix3 t b d)) = ix2 t (⟨(32 + b.val) * 128 + d.val, by omega⟩ : Fin 5120) :=
    funext fun a => by
      match a with
      | ⟨0, _⟩ => exact Fin.ext (by show ((t.val * 4 + b.val) * 128 + d.val) / 512 = t.val; omega)
      | ⟨1, _⟩ => exact Fin.ext (by show 4096 + ((t.val * 4 + b.val) * 128 + d.val) % 512 = (32 + b.val) * 128 + d.val; omega)
  rw [e, proj_at]
  rfl

/-- The sum of squares along a key head's row; the host's sum starts from the zero word. -/
theorem ksq_at (x0 : (⟨S16384x4096, .f32⟩ : BufTy).Contents (Elt Ideal)) (x3 : (⟨S5120x4096, .f32⟩ : BufTy).Contents (Elt Ideal)) (t : Fin 16384) (b : Fin 4) :
    val_main_v32 (F := Ideal) x0 x3 (ix2 t b)
      = ∑ d' : Fin 128, Cert.Spec.headRow x0 x3 t ⟨32 + b.val, by omega⟩ d' * Cert.Spec.headRow x0 x3 t ⟨32 + b.val, by omega⟩ d' := by
  rw [val_main_v32_apply, val_main_cst_2_apply, Ideal.ofBits_def, Ideal.ofBits_zero_f32, zero_add]
  refine Finset.sum_congr rfl fun k _ => ?_
  have e : idx_main_v32 (ix2 t b) k = ix3 t b k := funext fun a => by match a with | ⟨0, _⟩ => rfl | ⟨1, _⟩ => rfl | ⟨2, _⟩ => rfl
  rw [e, val_main_v31_apply, krow_at]
  rfl

/-- The reciprocal root of a key head's mean square plus the stabiliser, broadcast along the row. -/
theorem krs_at (x0 : (⟨S16384x4096, .f32⟩ : BufTy).Contents (Elt Ideal)) (x3 : (⟨S5120x4096, .f32⟩ : BufTy).Contents (Elt Ideal)) (t : Fin 16384) (b : Fin 4) (d : Fin 128) :
    val_main_v39 (F := Ideal) x0 x3 (ix3 t b d)
      = Ideal.rsqrt (Ideal.div (∑ d' : Fin 128, Cert.Spec.headRow x0 x3 t ⟨32 + b.val, by omega⟩ d' * Cert.Spec.headRow x0 x3 t ⟨32 + b.val, by omega⟩ d') Cert.Spec.c128 + Cert.Spec.eps) := by
  rw [val_main_v39_apply, val_main_v38_apply, val_main_v37_apply, val_main_v35_apply, val_main_v33_apply, val_main_v34_apply, val_main_cst_3_apply,
    val_main_v36_apply, val_main_cst_4_apply]
  have e : idx_main_v33 (idx_main_v39 (ix3 t b d)) = ix2 t b := funext fun a => by match a with | ⟨0, _⟩ => rfl | ⟨1, _⟩ => rfl
  rw [e, ksq_at]
  rfl

/-- A key head's normalised row. -/
theorem knormed_at (x0 : (⟨S16384x4096, .f32⟩ : BufTy).Contents (Elt Ideal)) (x3 : (⟨S5120x4096, .f32⟩ : BufTy).Contents (Elt Ideal)) (x5 : (⟨S128, .f32⟩ : BufTy).Contents (Elt Ideal)) (t : Fin 16384) (b : Fin 4) (d : Fin 128) :
    val_main_v43 (F := Ideal) x0 x3 x5 (ix3 t b d)
      = Cert.Spec.normed (Cert.Spec.headRow x0 x3 t ⟨32 + b.val, by omega⟩) (fun d' => x5 (ix1 d')) d := by
  rw [val_main_v43_apply, val_main_v40_apply, krow_at, krs_at, val_main_v42_apply, val_main_v41_apply]
  have e : idx_main_v41 (idx_main_v42 (ix3 t b d)) = ix1 d := funext fun a => by match a with | ⟨0, _⟩ => rfl
  rw [e]
  rfl

/-- Two half rows joined along the last axis, read at an index: the first below 64, the second from there on. -/
theorem kconcat_at (u v : S16384x4x64.Idx → EReal) (t : Fin 16384) (b : Fin 4) (d : Fin 128) :
    concatenate S16384x4x128 2 [⟨S16384x4x64, u⟩, ⟨S16384x4x64, v⟩] concatenates_S16384x4x64_S16384x4x64_S16384x4x128_d2 (ix3 t b d)
      = if hd : d.val < 64 then u (ix3 t b ⟨d.val, hd⟩) else v (ix3 t b ⟨d.val - 64, by omega⟩) := by
  by_cases hd : d.val < 64
  · rw [dif_pos hd]
    exact concatenate_pair_apply_left 2 u v _ (ix3 t b d) rfl (ix3 t b ⟨d.val, hd⟩) (fun a => by match a with | ⟨0, _⟩ => rfl | ⟨1, _⟩ => rfl | ⟨2, _⟩ => rfl)
  · rw [dif_neg hd]
    exact concatenate_pair_apply_right 2 u v _ (ix3 t b d) rfl rfl (ix3 t b ⟨d.val - 64, by omega⟩)
      (fun a => by
        match a with
        | ⟨0, _⟩ => exact fun _ => rfl
        | ⟨1, _⟩ => exact fun _ => rfl
        | ⟨2, _⟩ => exact fun hne => absurd rfl hne)
      (by show (d.val - 64) + 64 = d.val; omega)

/-- The half-rotation of a key head's normalised row. -/
theorem krot_at (x0 : (⟨S16384x4096, .f32⟩ : BufTy).Contents (Elt Ideal)) (x3 : (⟨S5120x4096, .f32⟩ : BufTy).Contents (Elt Ideal)) (x5 : (⟨S128, .f32⟩ : BufTy).Contents (Elt Ideal)) (t : Fin 16384) (b : Fin 4) (d : Fin 128) :
    val_main_v47 (F := Ideal) x0 x3 x5 (ix3 t b d)
      = Cert.Spec.rotHalf (Cert.Spec.normed (Cert.Spec.headRow x0 x3 t ⟨32 + b.val, by omega⟩) (fun d' => x5 (ix1 d'))) d := by
  unfold val_main_v47 Cert.Spec.rotHalf
  rw [kconcat_at]
  by_cases hd : d.val < 64
  · rw [dif_pos hd, dif_pos hd, val_main_v46_apply, val_main_v45_apply]
    have e : idx_main_v45 (ix3 t b (⟨d.val, hd⟩ : Fin 64)) = ix3 t b (⟨d.val + 64, by omega⟩ : Fin 128) :=
      funext fun a => by
        match a with
        | ⟨0, _⟩ => rfl
        | ⟨1, _⟩ => rfl
        | ⟨2, _⟩ => exact Fin.ext (by show 64 + d.val = d.val + 64; omega)
    rw [e, knormed_at]
    rfl
  · rw [dif_neg hd, dif_neg hd, val_main_v44_apply]
    have e : idx_main_v44 (ix3 t b (⟨d.val - 64, by omega⟩ : Fin 64)) = ix3 t b (⟨d.val - 64, by omega⟩ : Fin 128) := funext fun a => by match a with | ⟨0, _⟩ => rfl | ⟨1, _⟩ => rfl | ⟨2, _⟩ => rfl
    rw [e, knormed_at]

/-- A key head's row normalised and rotated by the token's sine and cosine rows. -/
theorem krope_at (x0 : (⟨S16384x4096, .f32⟩ : BufTy).Contents (Elt Ideal)) (x1 x2 : (⟨S16384x128, .f32⟩ : BufTy).Contents (Elt Ideal)) (x3 : (⟨S5120x4096, .f32⟩ : BufTy).Contents (Elt Ideal)) (x5 : (⟨S128, .f32⟩ : BufTy).Contents (Elt Ideal)) (t : Fin 16384) (b : Fin 4) (d : Fin 128) :
    val_main_v54 (F := Ideal) x0 x1 x2 x3 x5 (ix3 t b d)
      = Cert.Spec.rope (Cert.Spec.headRow x0 x3 t ⟨32 + b.val, by omega⟩) (fun d' => x1 (ix2 t d')) (fun d' => x2 (ix2 t d'))
          (fun d' => x5 (ix1 d')) d := by
  rw [val_main_v54_apply, val_main_v51_apply, val_main_v53_apply, krot_at, knormed_at, val_main_v50_apply, val_main_v48_apply,
    val_main_v52_apply, val_main_v49_apply]
  have e1 : idx_main_v48 (idx_main_v50 (ix3 t b d)) = ix2 t d := funext fun a => by match a with | ⟨0, _⟩ => rfl | ⟨1, _⟩ => rfl
  have e2 : idx_main_v49 (idx_main_v52 (ix3 t b d)) = ix2 t d := funext fun a => by match a with | ⟨0, _⟩ => rfl | ⟨1, _⟩ => rfl
  rw [e1, e2]
  rfl

/-- The key heads laid side by side again: column `e` of the 512 is head `e / 128` at `e % 128`. -/
theorem kflat_at (x0 : (⟨S16384x4096, .f32⟩ : BufTy).Contents (Elt Ideal)) (x1 x2 : (⟨S16384x128, .f32⟩ : BufTy).Contents (Elt Ideal)) (x3 : (⟨S5120x4096, .f32⟩ : BufTy).Contents (Elt Ideal)) (x5 : (⟨S128, .f32⟩ : BufTy).Contents (Elt Ideal)) (t : Fin 16384) (e : Fin 512) :
    val_main_v55 (F := Ideal) x0 x1 x2 x3 x5 (ix2 t e)
      = Cert.Spec.rope (Cert.Spec.headRow x0 x3 t ⟨32 + e.val / 128, by omega⟩) (fun d' => x1 (ix2 t d')) (fun d' => x2 (ix2 t d'))
          (fun d' => x5 (ix1 d')) ⟨e.val % 128, Nat.mod_lt _ (by norm_num)⟩ := by
  rw [val_main_v55_apply]
  have he := e.isLt; have ht := t.isLt
  have e' : idx_main_v55 (ix2 t e) = ix3 t (⟨e.val / 128, by omega⟩ : Fin 4) (⟨e.val % 128, Nat.mod_lt _ (by norm_num)⟩ : Fin 128) :=
    funext fun a => by
      match a with
      | ⟨0, _⟩ => exact Fin.ext (by show (t.val * 512 + e.val) / 512 = t.val; omega)
      | ⟨1, _⟩ => exact Fin.ext (by show (t.val * 512 + e.val) / 128 % 4 = e.val / 128; omega)
      | ⟨2, _⟩ => exact Fin.ext (by show (t.val * 512 + e.val) % 128 = e.val % 128; omega)
  rw [e', krope_at]

/-! ## The three column ranges joined -/

/-- The query, key and value columns joined along the column axis, read at an index. -/
theorem qkv_concat_at (u : S16384x4096.Idx → EReal) (v w : S16384x512.Idx → EReal) (t : Fin 16384) (e : Fin 5120) :
    concatenate S16384x5120 1 [⟨S16384x4096, u⟩, ⟨S16384x512, v⟩, ⟨S16384x512, w⟩]
        concatenates_S16384x4096_S16384x512_S16384x512_S16384x5120_d1 (ix2 t e)
      = if h1 : e.val < 4096 then u (ix2 t ⟨e.val, h1⟩)
        else if h2 : e.val < 4608 then v (ix2 t ⟨e.val - 4096, by omega⟩)
        else w (ix2 t ⟨e.val - 4608, by omega⟩) := by
  have he := e.isLt
  by_cases h1 : e.val < 4096
  · rw [dif_pos h1]
    exact concatenate_apply_piece 1 _ _ (ix2 t e) 0 (by show (0 : Nat) < 3; omega) S16384x4096 u rfl rfl 0 rfl (ix2 t ⟨e.val, h1⟩)
      (fun a => by
        match a with
        | ⟨0, _⟩ => exact fun _ => rfl
        | ⟨1, _⟩ => exact fun hne => absurd rfl hne)
      (by show 0 + e.val = e.val; omega)
  · rw [dif_neg h1]
    by_cases h2 : e.val < 4608
    · rw [dif_pos h2]
      exact concatenate_apply_piece 1 _ _ (ix2 t e) 1 (by show (1 : Nat) < 3; omega) S16384x512 v rfl rfl 4096 rfl (ix2 t ⟨e.val - 4096, by omega⟩)
        (fun a => by
          match a with
          | ⟨0, _⟩ => exact fun _ => rfl
          | ⟨1, _⟩ => exact fun hne => absurd rfl hne)
        (by show 4096 + (e.val - 4096) = e.val; omega)
    · rw [dif_neg h2]
      exact concatenate_apply_piece 1 _ _ (ix2 t e) 2 (by show (2 : Nat) < 3; omega) S16384x512 w rfl rfl 4608 rfl (ix2 t ⟨e.val - 4608, by omega⟩)
        (fun a => by
          match a with
          | ⟨0, _⟩ => exact fun _ => rfl
          | ⟨1, _⟩ => exact fun hne => absurd rfl hne)
        (by show 4608 + (e.val - 4608) = e.val; omega)

/-- The reference's result is the specification's array. -/
theorem ref_eq (x0 : (⟨S16384x4096, .f32⟩ : BufTy).Contents (Elt Ideal)) (x1 x2 : (⟨S16384x128, .f32⟩ : BufTy).Contents (Elt Ideal)) (x3 : (⟨S5120x4096, .f32⟩ : BufTy).Contents (Elt Ideal)) (x4 x5 : (⟨S128, .f32⟩ : BufTy).Contents (Elt Ideal)) :
    Cert.ReferenceIdeal.Read.val_main_v56 (F := Ideal) x0 x1 x2 x3 x4 x5 = Cert.Spec.G x0 x1 x2 x3 x4 x5 := by
  funext i
  obtain ⟨t, e, rfl⟩ : ∃ (t : Fin 16384) (e : Fin 5120), i = ix2 t e := ⟨i 0, i 1, eq_ix2 i⟩
  have he := e.isLt
  rw [Cert.Spec.G_ix2]
  unfold val_main_v56 Cert.Spec.Gat
  rw [qkv_concat_at]
  by_cases h1 : e.val < 4096
  · rw [dif_pos h1, if_pos (show e.val < 4608 by omega), qflat_at]
    simp only [if_pos h1]
  · rw [dif_neg h1]
    by_cases h2 : e.val < 4608
    · rw [dif_pos h2, if_pos h2, kflat_at]
      simp only [if_neg h1]
      have eb : (⟨32 + (e.val - 4096) / 128, by omega⟩ : Fin 40) = ⟨e.val / 128, by omega⟩ := Fin.ext (by show 32 + (e.val - 4096) / 128 = e.val / 128; omega)
      have ed : (⟨(e.val - 4096) % 128, Nat.mod_lt _ (by norm_num)⟩ : Fin 128) = ⟨e.val % 128, Nat.mod_lt _ (by norm_num)⟩ := Fin.ext (by show (e.val - 4096) % 128 = e.val % 128; omega)
      rw [eb, ed]
    · rw [dif_neg h2, if_neg h2, val_main_v5_apply]
      have e5 : idx_main_v5 (ix2 t (⟨e.val - 4608, by omega⟩ : Fin 512)) = ix2 t e :=
        funext fun a => by
          match a with
          | ⟨0, _⟩ => rfl
          | ⟨1, _⟩ => exact Fin.ext (by show 4608 + (e.val - 4608) = e.val; omega)
      rw [e5, proj_at]

end Cert.RefSpec
end
-- ==== Proof.K.QRun.lean ====
/-
  The query kernel's body run once, on whole staging buffers: five whole loads (the token block, the weight rows,
  the sine and cosine blocks, the norm weight), then thirty-two stores into the output block, one head of 128
  columns each, which together tile it. The run names the list of pieces the stores leave.
-/
import proofs.«167721_j61710090109455_2_alg».proof.Proof.Gen.Kernel.Launch
import proofs.«167721_j61710090109455_2_alg».proof.Proof.Gen.Kernel.Skeleton
import proofs.«167721_j61710090109455_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Fr

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 16000000 in
/-- The pieces the body's stores leave in the output block (last store first), with the proof that the body, on
    whole staging buffers holding `x0 … x4` and an output buffer holding anything, runs to the continuation with
    the inputs as they were and the output buffer at those pieces written over what it held. -/
noncomputable def qRun (c : Dev nD) (i : grid0.Coords)
    (arg1 : Memref sig .tc .vmem S64x4096 .f32) (harg1 : arg1.IsWhole) (arg2 : Memref sig .tc .vmem S4096x4096 .bf16) (harg2 : arg2.IsWhole)
    (arg3 : Memref sig .tc .vmem S64x128 .f32) (harg3 : arg3.IsWhole) (arg4 : Memref sig .tc .vmem S64x128 .f32) (harg4 : arg4.IsWhole)
    (arg5 : Memref sig .tc .vmem S128 .f32) (harg5 : arg5.IsWhole) (arg6 : Memref sig .tc .vmem S64x4096 .f32) (harg6 : arg6.IsWhole)
    (x0 : Vec F S64x4096 .f32) (x1 : Vec F S4096x4096 .bf16) (x2 x3 : Vec F S64x128 .f32) (x4 : Vec F S128 .f32) :
    { L : List (View.Piece (Elt F) S64x4096 .f32) //
      ∀ (K : PUnit → sProp 𝕄),
        iprop(owns (c : Thread nD τ) arg1 fullShare x0 ∗ owns (c : Thread nD τ) arg2 fullShare x1 ∗ owns (c : Thread nD τ) arg3 fullShare x2
            ∗ owns (c : Thread nD τ) arg4 fullShare x3 ∗ owns (c : Thread nD τ) arg5 fullShare x4 ∗ (∃ d, owns (c : Thread nD τ) arg6 fullShare d)
            ∗ (iprop(owns (c : Thread nD τ) arg1 fullShare x0 ∗ owns (c : Thread nD τ) arg2 fullShare x1 ∗ owns (c : Thread nD τ) arg3 fullShare x2
                ∗ owns (c : Thread nD τ) arg4 fullShare x3 ∗ owns (c : Thread nD τ) arg5 fullShare x4
                ∗ (∃ f, arg6.view.loc (c : Thread nD τ) ↦[arg6.view.set]{fullShare} arg6.view.writes (Elt F) f L)) -∗ K ⟨⟩))
          ⊢ wp frame (wpE (defs₀ (F := F)) Variants.none c none) Set.univ
              (cc0__q_kernel i arg1 harg1 arg2 harg2 arg3 harg3 arg4 harg4 arg5 harg5 arg6 harg6) K } := by
  refine ⟨?_, fun K => ?run⟩
  case run =>
    simp only [cc0__q_kernel_eq_skeleton]; unfold cc0__q_kernel_skel
    simp only [k0_part1_eq_skeleton, k0_part2_eq_skeleton, k0_part3_eq_skeleton, k0_part4_eq_skeleton, k0_part5_eq_skeleton,
      k0_part6_eq_skeleton, k0_part7_eq_skeleton, k0_part8_eq_skeleton, k0_part9_eq_skeleton, k0_part10_eq_skeleton,
      k0_part11_eq_skeleton, k0_part12_eq_skeleton, k0_part13_eq_skeleton, k0_part14_eq_skeleton, k0_part15_eq_skeleton,
      k0_part16_eq_skeleton]
    unfold owns
    iintro ⟨⟨%f0, %hf0, H0⟩, ⟨%f1, %hf1, H1⟩, ⟨%f2, %hf2, H2⟩, ⟨%f3, %hf3, H3⟩, ⟨%f4, %hf4, H4⟩, ⟨%d5, %f5, -, H5⟩, Hk⟩
    obtain rfl := harg1.eq_unread hf0
    obtain rfl := harg2.eq_unread hf1
    obtain rfl := harg3.eq_unread hf2
    obtain rfl := harg4.eq_unread hf3
    obtain rfl := harg5.eq_unread hf4
    sl_exec
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    iexists _; iexact H5

end Cert.Kernel.Fr

end
-- ==== Proof.K.Data0.lean ====
/-
  Region 0 of @main, the query kernel's pipeline, at any contents `V` of the core's buffers when the region is
  entered: each window's block at a point, what each input's staging buffer holds when the body runs (its block,
  fetched there or not), what the body's stores leave in the output's staging buffer (the pieces the body's run
  names, which tile the block, read back), and the pipeline's proof data over these.
-/
import proofs.«167721_j61710090109455_2_alg».proof.Proof.K.QRun

set_option maxRecDepth 16384

noncomputable section

namespace Cert.Kernel.Fr

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Region
variable (V : (c : Dev nD) → (b : Ref sig .tc) → Buf (Elt F) ((c : Thread nD τ).loc b))

/-! ## The windows' blocks -/

/-- Window `w`'s block at point `t`, read off its array as the region finds it (`V`). -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- Input window 0's current staging buffer holds its block at every point, fetched there or not, for any proof
    data whose array is `V`'s and whose body leaves the block in place: unfetched, the block index has not moved. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

/-- Window 1's blocks may overhang its array in type, but its one block (index `(0, 0)`, 4096 rows of 5120) does not:
    no axis is cut at any point. -/
theorem clip0_1 (i : grid0.Coords) (a : Fin (cfg0.win 1).shape.rank) : (cfg0.win 1).clip i a = none := by
  match a with
  | ⟨0, _⟩ => exact (by decide : Pipeline.Clip.of 0 4096 5120 = none)
  | ⟨1, _⟩ => exact (by decide : Pipeline.Clip.of 0 4096 4096 = none)

/-- What window 1's staging buffer holds at every point: its one block, filling the whole buffer (nothing of the
    prior contents shows, no axis being cut). -/
def wblk0 (c : Dev nD) (t : Fin cfg0.N) : (cfg0.win 1).block.Idx → Elt F (cfg0.win 1).elt :=
  (cfg0.win 1).fill (cfg0.grid.coords t) (fun _ => Classical.arbitrary _) (iblk0 V c 1 t)

/-- Input window 1's current staging buffer holds that at every point, fetched there (the first point) or not, for
    any proof data whose array is `V`'s and whose body leaves it in place. -/
theorem before0_1_of {c : Dev nD} (dat : Dat τ (Elt F) Unit ℕ (UR sig nD τ) ℕ cfg0 c) (hA : dat.A 1 = V c (Pipeline.arrRef spec0 1))
    (hafter : ∀ t, dat.after 1 t = wblk0 V c t) (t : Fin cfg0.N) (d) : dat.before 1 t d = wblk0 V c t :=
  (dat.before_in_eq_fetched 1 rfl (fun _ => rfl)
      (fun t t' _ => funext fun a => (clip0_1 _ a).trans (clip0_1 _ a).symm)
      (fun t => by rw [hafter]; unfold wblk0; rw [Window.cut_fill]; unfold Dat.blockOf iblk0; rw [hA]) t d).trans
    (by unfold Dat.fetched Dat.blockOf wblk0 iblk0; rw [hA]; exact Pipeline.fill_of_clip_none (cfg := cfg0) 1 _ (clip0_1 _) _ _ _)

/-- Input window 2's current staging buffer holds its block at every point, fetched there or not, for any proof
    data whose array is `V`'s and whose body leaves the block in place: unfetched, the block index has not moved. -/
theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)

/-- Input window 3's current staging buffer holds its block at every point, fetched there or not, for any proof
    data whose array is `V`'s and whose body leaves the block in place: unfetched, the block index has not moved. -/
theorem before0_3_of {c : Dev nD} (dat : Dat τ (Elt F) Unit ℕ (UR sig nD τ) ℕ cfg0 c) (hA : dat.A 3 = V c (Pipeline.arrRef spec0 3))
    (hafter : ∀ t, dat.after 3 t = iblk0 V c 3 t) (t : Fin cfg0.N) (d) : dat.before 3 t d = iblk0 V c 3 t :=
  (dat.before_in_eq_fetched 3 rfl (fun _ => rfl) (fun _ _ _ => rfl) (fun t => by rw [hafter]; unfold Dat.blockOf iblk0; rw [hA]; try rfl) t d).trans
    (by unfold Dat.fetched Dat.blockOf iblk0; rw [hA]; try rfl)

/-- Input window 4's current staging buffer holds its block at every point, fetched there or not, for any proof
    data whose array is `V`'s and whose body leaves the block in place: unfetched, the block index has not moved. -/
theorem before0_4_of {c : Dev nD} (dat : Dat τ (Elt F) Unit ℕ (UR sig nD τ) ℕ cfg0 c) (hA : dat.A 4 = V c (Pipeline.arrRef spec0 4))
    (hafter : ∀ t, dat.after 4 t = iblk0 V c 4 t) (t : Fin cfg0.N) (d) : dat.before 4 t d = iblk0 V c 4 t :=
  (dat.before_in_eq_fetched 4 rfl (fun _ => rfl) (fun _ _ _ => rfl) (fun t => by rw [hafter]; unfold Dat.blockOf iblk0; rw [hA]; try rfl) t d).trans
    (by unfold Dat.fetched Dat.blockOf iblk0; rw [hA]; try rfl)

/-! ## The staging memrefs at a point, and the output's buffer after the body -/

/-- One staging buffer of the output window, through which its contents are stated (the choice does not matter:
    the stores cover the block). -/
abbrev VO0 : View sig .tc .vmem S64x4096 .f32 := (Memref.whole cc0_stg5_0 : Memref sig .tc .vmem S64x4096 .f32).view
abbrev ms0_0 (t : Fin cfg0.N) : Memref sig .tc .vmem S64x4096 .f32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S4096x4096 .bf16 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S64x128 .f32 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S64x128 .f32 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S128 .f32 := win0_4.stage (cfg0.slots t 4)
abbrev hs0_4 (t : Fin cfg0.N) : (ms0_4 t).IsWhole := hstage0_4 ((cfg0.slots t 4).cast nbuf0_4)
abbrev ms0_5 (t : Fin cfg0.N) : Memref sig .tc .vmem S64x4096 .f32 := win0_5.stage (cfg0.slots t 5)
abbrev hs0_5 (t : Fin cfg0.N) : (ms0_5 t).IsWhole := hstage0_5 ((cfg0.slots t 5).cast nbuf0_5)

/-- The pieces the body's stores leave — thirty-two blocks of 128 columns — tile the output block, so they cover it. -/
theorem cover0 (c : Dev nD) (i : grid0.Coords) (arg1 : Memref sig .tc .vmem S64x4096 .f32) (harg1 : arg1.IsWhole) (arg2 : Memref sig .tc .vmem S4096x4096 .bf16) (harg2 : arg2.IsWhole) (arg3 : Memref sig .tc .vmem S64x128 .f32) (harg3 : arg3.IsWhole) (arg4 : Memref sig .tc .vmem S64x128 .f32) (harg4 : arg4.IsWhole) (arg5 : Memref sig .tc .vmem S128 .f32) (harg5 : arg5.IsWhole) (arg6 : Memref sig .tc .vmem S64x4096 .f32) (harg6 : arg6.IsWhole)
    (x0 : Vec F S64x4096 .f32) (x1 : Vec F S4096x4096 .bf16) (x2 : Vec F S64x128 .f32) (x3 : Vec F S64x128 .f32) (x4 : Vec F S128 .f32) (y : S64x4096.Idx) :
    ∃ pc ∈ (qRun c i arg1 harg1 arg2 harg2 arg3 harg3 arg4 harg4 arg5 harg5 arg6 harg6 x0 x1 x2 x3 x4).1, y ∈ pc.1.set :=
  View.cover_of_tiledL (qRun c i arg1 harg1 arg2 harg2 arg3 harg3 arg4 harg4 arg5 harg5 arg6 harg6 x0 x1 x2 x3 x4).1 S64x128.size (by sl_kernel_rfl) y

/-- What the body leaves in the output's staging buffer at point `t`: the run's pieces, at the point's memrefs and
    the inputs' blocks, read back over contents that do not matter. -/
def out0 (c : Dev nD) (t : Fin cfg0.N) : Vec F S64x4096 .f32 :=
  VO0.read (Elt F) (VO0.writes (Elt F) VO0.junk
    (qRun c (grid0.coords t) (ms0_0 t) (hs0_0 t) (ms0_1 t) (hs0_1 t) (ms0_2 t) (hs0_2 t) (ms0_3 t) (hs0_3 t) (ms0_4 t) (hs0_4 t) (ms0_5 t) (hs0_5 t)
      (iblk0 V c 0 t) (wblk0 V c t) (iblk0 V c 2 t) (iblk0 V c 3 t) (iblk0 V c 4 t)).1)

/-! ## The pipeline's proof data -/

/-- The proof data of pipeline 0 on core `c`: the arrays as the region finds them (`V`); after the body at point
    `t` each input's buffer at what it held and the output's at `out0`; the invariant the scoped rest and the
    generator register, untouched; nothing owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => wblk0 V c t
    | ⟨2, _⟩ => iblk0 V c 2 t
    | ⟨3, _⟩ => iblk0 V c 3 t
    | ⟨4, _⟩ => iblk0 V c 4 t
    | ⟨5, _⟩ => out0 V c t
  Φ _ := Pipeline.ΦA spec0 c
  q _ := fullShare
  owed _ := 0

/-- The proof data's arrays are the region-entry contents. -/
theorem A_eq0 (c : Dev nD) (w : Fin cfg0.W) : (dat0 V c).A w = V c (Pipeline.arrRef spec0 w) := by
  dsimp only [dat0]

/-- What the body leaves, window by window. -/
theorem after0_0 (c : Dev nD) (t : Fin cfg0.N) : (dat0 V c).after 0 t = iblk0 V c 0 t := by dsimp only [dat0]
theorem after0_1 (c : Dev nD) (t : Fin cfg0.N) : (dat0 V c).after 1 t = wblk0 V c t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = iblk0 V c 3 t := by dsimp only [dat0]
theorem after0_4 (c : Dev nD) (t : Fin cfg0.N) : (dat0 V c).after 4 t = iblk0 V c 4 t := by dsimp only [dat0]
theorem after0_5 (c : Dev nD) (t : Fin cfg0.N) : (dat0 V c).after 5 t = out0 V c t := by dsimp only [dat0]

/-- Each input's current staging buffer holds its block at every point, fetched there or not. -/
theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = wblk0 V c t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d
theorem before0_3 (c : Dev nD) (t : Fin cfg0.N) (d) : (dat0 V c).before 3 t d = iblk0 V c 3 t :=
  before0_3_of V (dat0 V c) (A_eq0 V c 3) (after0_3 V c) t d
theorem before0_4 (c : Dev nD) (t : Fin cfg0.N) (d) : (dat0 V c).before 4 t d = iblk0 V c 4 t :=
  before0_4_of V (dat0 V c) (A_eq0 V c 4) (after0_4 V c) t d

end Region

end Cert.Kernel.Fr

end
-- ==== Proof.K.Body0.lean ====
/-
  Region 0's body obligation: at every point the body, handed each input's staging buffer at its block and the
  output's at anything, runs (the body's run, at the point's memrefs) to the inputs as they were and the output's
  buffer at the pieces its stores leave, which cover the block; the invariant and what the core owes pass through.
-/
import proofs.«167721_j61710090109455_2_alg».proof.Proof.K.Data0

set_option maxRecDepth 16384

noncomputable section

namespace Cert.Kernel.Fr

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Region
variable (V : (c : Dev nD) → (b : Ref sig .tc) → Buf (Elt F) ((c : Thread nD τ).loc b))

/-- What the body is called with at point `t` (the windows one by one), -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d))
    ∗ (∃ d, owns (c : Thread nD τ) (st0_4 t) fullShare ((dat0 V c).before 4 t d))
    ∗ (∃ d, owns (c : Thread nD τ) (st0_5 t) fullShare ((dat0 V c).before 5 t d)))

/-- and what it returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t)
    ∗ owns (c : Thread nD τ) (st0_4 t) fullShare ((dat0 V c).after 4 t)
    ∗ owns (c : Thread nD τ) (st0_5 t) fullShare ((dat0 V c).after 5 t))

set_option maxHeartbeats 1600000 in
/-- The body at any point: the inputs' memrefs hold their blocks, so the body's run applies; the output's buffer ends
    at the run's pieces over what it held, which read back as `out0` because the pieces cover the block. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2, before0_3, before0_4]
  rw [show (dat0 V c).Φ t.succ = (dat0 V c).Φ t.castSucc from rfl,
    show (dat0 V c).owesAt () t.succ = (dat0 V c).owesAt () t.castSucc from rfl,
    after0_0, after0_1, after0_2, after0_3, after0_4, after0_5]
  unfold out0
  iintro ⟨HΦ, Ho, ⟨%d0, H0⟩, ⟨%d1, H1⟩, ⟨%d2, H2⟩, ⟨%d3, H3⟩, ⟨%d4, H4⟩, ⟨%d5, H5⟩⟩
  iapply ((qRun c (grid0.coords t) _ _ _ _ _ _ _ _ _ _ _ _ (iblk0 V c 0 t) (wblk0 V c t) (iblk0 V c 2 t) (iblk0 V c 3 t) (iblk0 V c 4 t)).2 _)
  isplitl [H0]; · iexact H0
  isplitl [H1]; · iexact H1
  isplitl [H2]; · iexact H2
  isplitl [H3]; · iexact H3
  isplitl [H4]; · iexact H4
  isplitl [H5]; · iexists _; iexact H5
  iintro ⟨H0, H1, H2, H3, H4, ⟨%e5, H5⟩⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  unfold owns; iexists _; isplitr
  swap; · iexact H5
  ipureintro; exact View.read_writes_of_cover _ _ _ _ _ (cover0 c _ _ _ _ _ _ _ _ _ _ _ _ _ _ _ _ _ _)

/-- The library's body obligation, at every point. -/
theorem body_obligation0 (c : Dev nD) : BodyObligation (dat0 (F := F) V c) (defs₀ (F := F)) Variants.none () Set.univ := fun t => by
  rw [bigSep_W0, bigSep_W0]
  exact sound_body0 V c t

end Region

end Cert.Kernel.Fr

end
-- ==== Proof.K.KVRun.lean ====
/-
  The key/value kernel's body run once, on whole staging buffers: five whole loads (the token block, the weight
  rows, the sine and cosine blocks, the norm weight), then five stores into the output block — four heads of 128
  columns and the 512 value columns — which together tile it. The run names the list of pieces the stores leave.
-/
import proofs.«167721_j61710090109455_2_alg».proof.Proof.Gen.Kernel.Launch
import proofs.«167721_j61710090109455_2_alg».proof.Proof.Gen.Kernel.Skeleton
import proofs.«167721_j61710090109455_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Fr

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
/-- The pieces the body's stores leave in the output block (last store first), with the proof that the body, on
    whole staging buffers holding `x0 … x4` and an output buffer holding anything, runs to the continuation with
    the inputs as they were and the output buffer at those pieces written over what it held. -/
noncomputable def kvRun (c : Dev nD) (i : grid1.Coords)
    (arg1 : Memref sig .tc .vmem S512x4096 .f32) (harg1 : arg1.IsWhole) (arg2 : Memref sig .tc .vmem S1024x4096 .bf16) (harg2 : arg2.IsWhole)
    (arg3 : Memref sig .tc .vmem S512x128 .f32) (harg3 : arg3.IsWhole) (arg4 : Memref sig .tc .vmem S512x128 .f32) (harg4 : arg4.IsWhole)
    (arg5 : Memref sig .tc .vmem S128 .f32) (harg5 : arg5.IsWhole) (arg6 : Memref sig .tc .vmem S512x1024 .f32) (harg6 : arg6.IsWhole)
    (x0 : Vec F S512x4096 .f32) (x1 : Vec F S1024x4096 .bf16) (x2 x3 : Vec F S512x128 .f32) (x4 : Vec F S128 .f32) :
    { L : List (View.Piece (Elt F) S512x1024 .f32) //
      ∀ (K : PUnit → sProp 𝕄),
        iprop(owns (c : Thread nD τ) arg1 fullShare x0 ∗ owns (c : Thread nD τ) arg2 fullShare x1 ∗ owns (c : Thread nD τ) arg3 fullShare x2
            ∗ owns (c : Thread nD τ) arg4 fullShare x3 ∗ owns (c : Thread nD τ) arg5 fullShare x4 ∗ (∃ d, owns (c : Thread nD τ) arg6 fullShare d)
            ∗ (iprop(owns (c : Thread nD τ) arg1 fullShare x0 ∗ owns (c : Thread nD τ) arg2 fullShare x1 ∗ owns (c : Thread nD τ) arg3 fullShare x2
                ∗ owns (c : Thread nD τ) arg4 fullShare x3 ∗ owns (c : Thread nD τ) arg5 fullShare x4
                ∗ (∃ f, arg6.view.loc (c : Thread nD τ) ↦[arg6.view.set]{fullShare} arg6.view.writes (Elt F) f L)) -∗ K ⟨⟩))
          ⊢ wp frame (wpE (defs₀ (F := F)) Variants.none c none) Set.univ
              (cc1__kv_kernel i arg1 harg1 arg2 harg2 arg3 harg3 arg4 harg4 arg5 harg5 arg6 harg6) K } := by
  refine ⟨?_, fun K => ?run⟩
  case run =>
    simp only [cc1__kv_kernel_eq_skeleton]; unfold cc1__kv_kernel_skel
    simp only [k1_part1_eq_skeleton, k1_part2_eq_skeleton]
    unfold owns
    iintro ⟨⟨%f0, %hf0, H0⟩, ⟨%f1, %hf1, H1⟩, ⟨%f2, %hf2, H2⟩, ⟨%f3, %hf3, H3⟩, ⟨%f4, %hf4, H4⟩, ⟨%d5, %f5, -, H5⟩, Hk⟩
    obtain rfl := harg1.eq_unread hf0
    obtain rfl := harg2.eq_unread hf1
    obtain rfl := harg3.eq_unread hf2
    obtain rfl := harg4.eq_unread hf3
    obtain rfl := harg5.eq_unread hf4
    sl_exec
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    iexists _; iexact H5

end Cert.Kernel.Fr

end
-- ==== Proof.K.Data1.lean ====
/-
  Region 1 of @main, the key/value kernel's pipeline, at any contents `V` of the core's buffers when the region is
  entered: each window's block at a point, what each input's staging buffer holds when the body runs (its block,
  fetched there or not), what the body's stores leave in the output's staging buffer (the pieces the body's run
  names, which tile the block, read back), and the pipeline's proof data over these.
-/
import proofs.«167721_j61710090109455_2_alg».proof.Proof.K.KVRun

set_option maxRecDepth 16384

noncomputable section

namespace Cert.Kernel.Fr

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Region
variable (V : (c : Dev nD) → (b : Ref sig .tc) → Buf (Elt F) ((c : Thread nD τ).loc b))

/-! ## The windows' blocks -/

/-- Window `w`'s block at point `t`, read off its array as the region finds it (`V`). -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- Input window 0's current staging buffer holds its block at every point, fetched there or not, for any proof
    data whose array is `V`'s and whose body leaves the block in place: unfetched, the block index has not moved. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)

/-- Input window 1's current staging buffer holds its block at every point, fetched there or not, for any proof
    data whose array is `V`'s and whose body leaves the block in place: unfetched, the block index has not moved. -/
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

/-- Input window 2's current staging buffer holds its block at every point, fetched there or not, for any proof
    data whose array is `V`'s and whose body leaves the block in place: unfetched, the block index has not moved. -/
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)

/-- Input window 3's current staging buffer holds its block at every point, fetched there or not, for any proof
    data whose array is `V`'s and whose body leaves the block in place: unfetched, the block index has not moved. -/
theorem before1_3_of {c : Dev nD} (dat : Dat τ (Elt F) Unit ℕ (UR sig nD τ) ℕ cfg1 c) (hA : dat.A 3 = V c (Pipeline.arrRef spec1 3))
    (hafter : ∀ t, dat.after 3 t = iblk1 V c 3 t) (t : Fin cfg1.N) (d) : dat.before 3 t d = iblk1 V c 3 t :=
  (dat.before_in_eq_fetched 3 rfl (fun _ => rfl) (fun _ _ _ => rfl) (fun t => by rw [hafter]; unfold Dat.blockOf iblk1; rw [hA]; try rfl) t d).trans
    (by unfold Dat.fetched Dat.blockOf iblk1; rw [hA]; try rfl)

/-- Input window 4's current staging buffer holds its block at every point, fetched there or not, for any proof
    data whose array is `V`'s and whose body leaves the block in place: unfetched, the block index has not moved. -/
theorem before1_4_of {c : Dev nD} (dat : Dat τ (Elt F) Unit ℕ (UR sig nD τ) ℕ cfg1 c) (hA : dat.A 4 = V c (Pipeline.arrRef spec1 4))
    (hafter : ∀ t, dat.after 4 t = iblk1 V c 4 t) (t : Fin cfg1.N) (d) : dat.before 4 t d = iblk1 V c 4 t :=
  (dat.before_in_eq_fetched 4 rfl (fun _ => rfl) (fun _ _ _ => rfl) (fun t => by rw [hafter]; unfold Dat.blockOf iblk1; rw [hA]; try rfl) t d).trans
    (by unfold Dat.fetched Dat.blockOf iblk1; rw [hA]; try rfl)

/-! ## The staging memrefs at a point, and the output's buffer after the body -/

/-- One staging buffer of the output window, through which its contents are stated (the choice does not matter:
    the stores cover the block). -/
abbrev VO1 : View sig .tc .vmem S512x1024 .f32 := (Memref.whole cc1_stg5_0 : Memref sig .tc .vmem S512x1024 .f32).view
abbrev ms1_0 (t : Fin cfg1.N) : Memref sig .tc .vmem S512x4096 .f32 := win1_0.stage (cfg1.slots t 0)
abbrev hs1_0 (t : Fin cfg1.N) : (ms1_0 t).IsWhole := hstage1_0 ((cfg1.slots t 0).cast nbuf1_0)
abbrev ms1_1 (t : Fin cfg1.N) : Memref sig .tc .vmem S1024x4096 .bf16 := win1_1.stage (cfg1.slots t 1)
abbrev hs1_1 (t : Fin cfg1.N) : (ms1_1 t).IsWhole := hstage1_1 ((cfg1.slots t 1).cast nbuf1_1)
abbrev ms1_2 (t : Fin cfg1.N) : Memref sig .tc .vmem S512x128 .f32 := win1_2.stage (cfg1.slots t 2)
abbrev hs1_2 (t : Fin cfg1.N) : (ms1_2 t).IsWhole := hstage1_2 ((cfg1.slots t 2).cast nbuf1_2)
abbrev ms1_3 (t : Fin cfg1.N) : Memref sig .tc .vmem S512x128 .f32 := win1_3.stage (cfg1.slots t 3)
abbrev hs1_3 (t : Fin cfg1.N) : (ms1_3 t).IsWhole := hstage1_3 ((cfg1.slots t 3).cast nbuf1_3)
abbrev ms1_4 (t : Fin cfg1.N) : Memref sig .tc .vmem S128 .f32 := win1_4.stage (cfg1.slots t 4)
abbrev hs1_4 (t : Fin cfg1.N) : (ms1_4 t).IsWhole := hstage1_4 ((cfg1.slots t 4).cast nbuf1_4)
abbrev ms1_5 (t : Fin cfg1.N) : Memref sig .tc .vmem S512x1024 .f32 := win1_5.stage (cfg1.slots t 5)
abbrev hs1_5 (t : Fin cfg1.N) : (ms1_5 t).IsWhole := hstage1_5 ((cfg1.slots t 5).cast nbuf1_5)

/-- The pieces the body's stores leave — four blocks of 128 columns and one of 512 — cut into blocks of 128 columns
    tile the output block, so they cover it. -/
theorem cover1 (c : Dev nD) (i : grid1.Coords) (arg1 : Memref sig .tc .vmem S512x4096 .f32) (harg1 : arg1.IsWhole) (arg2 : Memref sig .tc .vmem S1024x4096 .bf16) (harg2 : arg2.IsWhole) (arg3 : Memref sig .tc .vmem S512x128 .f32) (harg3 : arg3.IsWhole) (arg4 : Memref sig .tc .vmem S512x128 .f32) (harg4 : arg4.IsWhole) (arg5 : Memref sig .tc .vmem S128 .f32) (harg5 : arg5.IsWhole) (arg6 : Memref sig .tc .vmem S512x1024 .f32) (harg6 : arg6.IsWhole)
    (x0 : Vec F S512x4096 .f32) (x1 : Vec F S1024x4096 .bf16) (x2 : Vec F S512x128 .f32) (x3 : Vec F S512x128 .f32) (x4 : Vec F S128 .f32) (y : S512x1024.Idx) :
    ∃ pc ∈ (kvRun c i arg1 harg1 arg2 harg2 arg3 harg3 arg4 harg4 arg5 harg5 arg6 harg6 x0 x1 x2 x3 x4).1, y ∈ pc.1.set :=
  View.cover_of_tiledBy (kvRun c i arg1 harg1 arg2 harg2 arg3 harg3 arg4 harg4 arg5 harg5 arg6 harg6 x0 x1 x2 x3 x4).1 S512x128.size (by sl_kernel_rfl) y

/-- What the body leaves in the output's staging buffer at point `t`: the run's pieces, at the point's memrefs and
    the inputs' blocks, read back over contents that do not matter. -/
def out1 (c : Dev nD) (t : Fin cfg1.N) : Vec F S512x1024 .f32 :=
  VO1.read (Elt F) (VO1.writes (Elt F) VO1.junk
    (kvRun c (grid1.coords t) (ms1_0 t) (hs1_0 t) (ms1_1 t) (hs1_1 t) (ms1_2 t) (hs1_2 t) (ms1_3 t) (hs1_3 t) (ms1_4 t) (hs1_4 t) (ms1_5 t) (hs1_5 t)
      (iblk1 V c 0 t) (iblk1 V c 1 t) (iblk1 V c 2 t) (iblk1 V c 3 t) (iblk1 V c 4 t)).1)

/-! ## The pipeline's proof data -/

/-- The proof data of pipeline 1 on core `c`: the arrays as the region finds them (`V`); after the body at point
    `t` each input's buffer at what it held and the output's at `out1`; the invariant the scoped rest and the
    generator register, untouched; nothing owed; full shares. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => iblk1 V c 4 t
    | ⟨5, _⟩ => out1 V c t
  Φ _ := Pipeline.ΦA spec1 c
  q _ := fullShare
  owed _ := 0

/-- The proof data's arrays are the region-entry contents. -/
theorem A_eq1 (c : Dev nD) (w : Fin cfg1.W) : (dat1 V c).A w = V c (Pipeline.arrRef spec1 w) := by
  dsimp only [dat1]

/-- What the body leaves, window by window. -/
theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) : (dat1 V c).after 4 t = iblk1 V c 4 t := by dsimp only [dat1]
theorem after1_5 (c : Dev nD) (t : Fin cfg1.N) : (dat1 V c).after 5 t = out1 V c t := by dsimp only [dat1]

/-- Each input's current staging buffer holds its block at every point, fetched there or not. -/
theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d
theorem before1_3 (c : Dev nD) (t : Fin cfg1.N) (d) : (dat1 V c).before 3 t d = iblk1 V c 3 t :=
  before1_3_of V (dat1 V c) (A_eq1 V c 3) (after1_3 V c) t d
theorem before1_4 (c : Dev nD) (t : Fin cfg1.N) (d) : (dat1 V c).before 4 t d = iblk1 V c 4 t :=
  before1_4_of V (dat1 V c) (A_eq1 V c 4) (after1_4 V c) t d

end Region

end Cert.Kernel.Fr

end
-- ==== Proof.K.Body1.lean ====
/-
  Region 1's body obligation: at every point the body, handed each input's staging buffer at its block and the
  output's at anything, runs (the body's run, at the point's memrefs) to the inputs as they were and the output's
  buffer at the pieces its stores leave, which cover the block; the invariant and what the core owes pass through.
-/
import proofs.«167721_j61710090109455_2_alg».proof.Proof.K.Data1

set_option maxRecDepth 16384

noncomputable section

namespace Cert.Kernel.Fr

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Region
variable (V : (c : Dev nD) → (b : Ref sig .tc) → Buf (Elt F) ((c : Thread nD τ).loc b))

/-- What the body is called with at point `t` (the windows one by one), -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d))
    ∗ (∃ d, owns (c : Thread nD τ) (st1_4 t) fullShare ((dat1 V c).before 4 t d))
    ∗ (∃ d, owns (c : Thread nD τ) (st1_5 t) fullShare ((dat1 V c).before 5 t d)))

/-- and what it returns. -/
def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t)
    ∗ owns (c : Thread nD τ) (st1_3 t) fullShare ((dat1 V c).after 3 t)
    ∗ owns (c : Thread nD τ) (st1_4 t) fullShare ((dat1 V c).after 4 t)
    ∗ owns (c : Thread nD τ) (st1_5 t) fullShare ((dat1 V c).after 5 t))

set_option maxHeartbeats 1600000 in
/-- The body at any point: the inputs' memrefs hold their blocks, so the body's run applies; the output's buffer ends
    at the run's pieces over what it held, which read back as `out1` because the pieces cover the block. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3, before1_4]
  rw [show (dat1 V c).Φ t.succ = (dat1 V c).Φ t.castSucc from rfl,
    show (dat1 V c).owesAt () t.succ = (dat1 V c).owesAt () t.castSucc from rfl,
    after1_0, after1_1, after1_2, after1_3, after1_4, after1_5]
  unfold out1
  iintro ⟨HΦ, Ho, ⟨%d0, H0⟩, ⟨%d1, H1⟩, ⟨%d2, H2⟩, ⟨%d3, H3⟩, ⟨%d4, H4⟩, ⟨%d5, H5⟩⟩
  iapply ((kvRun c (grid1.coords t) _ _ _ _ _ _ _ _ _ _ _ _ (iblk1 V c 0 t) (iblk1 V c 1 t) (iblk1 V c 2 t) (iblk1 V c 3 t) (iblk1 V c 4 t)).2 _)
  isplitl [H0]; · iexact H0
  isplitl [H1]; · iexact H1
  isplitl [H2]; · iexact H2
  isplitl [H3]; · iexact H3
  isplitl [H4]; · iexact H4
  isplitl [H5]; · iexists _; iexact H5
  iintro ⟨H0, H1, H2, H3, H4, ⟨%e5, H5⟩⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  unfold owns; iexists _; isplitr
  swap; · iexact H5
  ipureintro; exact View.read_writes_of_cover _ _ _ _ _ (cover1 c _ _ _ _ _ _ _ _ _ _ _ _ _ _ _ _ _ _)

/-- The library's body obligation, at every point. -/
theorem body_obligation1 (c : Dev nD) : BodyObligation (dat1 (F := F) V c) (defs₀ (F := F)) Variants.none () Set.univ := fun t => by
  rw [bigSep_W1, bigSep_W1]
  exact sound_body1 V c t

end Region

end Cert.Kernel.Fr

end
-- ==== Proof.K.Boundary.lean ====
/-
  The buffers' contents at each boundary of @main's four segments — the conversion of the weights, the query
  kernel's region, the key/value kernel's region, the join of their results — as a fold from the launch memory:
  a host stretch's results by its operations, a region's arrays at what its write-backs leave. Each argument
  walks back through the fold to its launch contents; the result is the join of what the two regions leave; the
  second region is entered with the weights converted and everything else it reads as launched.
-/
import proofs.«167721_j61710090109455_2_alg».proof.Proof.K.Body0
import proofs.«167721_j61710090109455_2_alg».proof.Proof.K.Body1

set_option maxRecDepth 16384

noncomputable section

namespace Cert.Kernel.Fr

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffer contents at each segment boundary -/

/-- Core `c`'s buffers at launch. -/
abbrev W0 : Dev nD → Valuation τ sig (Elt F) := fun c b => (s₀ m ρ).mem ((c : Dev nD), b)
/-- After the conversion of the weights (region 0's entry). -/
abbrev W1 : Dev nD → Valuation τ sig (Elt F) := fun c => StableHlo.after hostOps0 (W0 m ρ c)
/-- The same read at the TensorCore's references (what region 0's proof data take). -/
abbrev U1 : (c : Dev nD) → (b : Ref sig .tc) → Buf (Elt F) ((c : Thread nD τ).loc b) := fun c b => W1 m ρ c b
/-- At region 0's exit (region 1's entry): its arrays at what the pipeline leaves, every other buffer as entered. -/
def W2 (c : Dev nD) : Valuation τ sig (Elt F) :=
  Pipeline.withArrays spec0 c (W1 m ρ c) fun w => (dat0 (U1 m ρ) c).arrAt w cfg0.N
theorem W2_arr (c : Dev nD) (w : Fin cfg0.W) :
    W2 m ρ c (Proc.devRef .tc (Pipeline.arrRef spec0 w)) = (dat0 (U1 m ρ) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m ρ c (Proc.devRef .tc b) = W1 m ρ c (Proc.devRef .tc b) := by
  unfold W2; exact Pipeline.withArrays_of_ne spec0 c _ _ b hb
/-- The same read at the TensorCore's references (what region 1's proof data take). -/
abbrev U2 : (c : Dev nD) → (b : Ref sig .tc) → Buf (Elt F) ((c : Thread nD τ).loc b) := fun c b => W2 m ρ c b
theorem hF0 (c : Dev nD) (w : Fin cfg0.W) : (dat0 (U1 m ρ) c).arrAt w cfg0.N = U2 m ρ c (Pipeline.arrRef spec0 w) :=
  (W2_arr m ρ c w).symm
theorem hrest0 (c : Dev nD) : ∀ b, b ∉ Finset.univ.image (Pipeline.arrRef spec0) → U2 m ρ c b = U1 m ρ c b :=
  fun b hb => W2_of_ne m ρ c b fun w e => hb (Finset.mem_image.mpr ⟨w, Finset.mem_univ _, e⟩)

/-- At region 1's exit: its arrays at what the pipeline leaves, every other buffer as entered. -/
def W3 (c : Dev nD) : Valuation τ sig (Elt F) :=
  Pipeline.withArrays spec1 c (W2 m ρ c) fun w => (dat1 (U2 m ρ) c).arrAt w cfg1.N
theorem W3_arr (c : Dev nD) (w : Fin cfg1.W) :
    W3 m ρ c (Proc.devRef .tc (Pipeline.arrRef spec1 w)) = (dat1 (U2 m ρ) c).arrAt w cfg1.N := by
  unfold W3; exact Pipeline.withArrays_arr spec1 launch1.win.arr_inj c _ _ w
theorem W3_of_ne (c : Dev nD) (b : Ref sig .tc) (hb : ∀ w, Pipeline.arrRef spec1 w ≠ b) :
    W3 m ρ c (Proc.devRef .tc b) = W2 m ρ c (Proc.devRef .tc b) := by
  unfold W3; exact Pipeline.withArrays_of_ne spec1 c _ _ b hb
/-- The same read at the TensorCore's references (region 1's exit contents). -/
abbrev U3 : (c : Dev nD) → (b : Ref sig .tc) → Buf (Elt F) ((c : Thread nD τ).loc b) := fun c b => W3 m ρ c b
theorem hF1 (c : Dev nD) (w : Fin cfg1.W) : (dat1 (U2 m ρ) c).arrAt w cfg1.N = U3 m ρ c (Pipeline.arrRef spec1 w) :=
  (W3_arr m ρ c w).symm
theorem hrest1 (c : Dev nD) : ∀ b, b ∉ Finset.univ.image (Pipeline.arrRef spec1) → U3 m ρ c b = U2 m ρ c b :=
  fun b hb => W3_of_ne m ρ c b fun w e => hb (Finset.mem_image.mpr ⟨w, Finset.mem_univ _, e⟩)

/-- After the join of the two results: the contents @main returns with. -/
abbrev W4 : Dev nD → Valuation τ sig (Elt F) := fun c => StableHlo.after hostOps2 (W3 m ρ c)
/-- The last boundary's contents, by the name the run's statement uses. -/
abbrev Wfin : Dev nD → Valuation τ sig (Elt F) := W4 m ρ

/-! ## The arguments end as launched -/

theorem W4_main_arg0 (c : Dev nD) : W4 m ρ c (Proc.devRef .tc main_arg0) = m ((c : Thread nD τ).loc main_arg0) :=
  calc W4 m ρ c (Proc.devRef .tc main_arg0)
    _ = W3 m ρ c (Proc.devRef .tc main_arg0) := StableHlo.after_of_forall_not_mem (b := Proc.devRef .tc main_arg0) _ _ (List.forall_iff_forall_mem.mp (by
          simp only [hostOps2, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W2 m ρ c (Proc.devRef .tc main_arg0) := (W3_arr m ρ c 0).trans (((dat1 (U2 m ρ) c).arrAt_in 0 rfl _).trans (A_eq1 (U2 m ρ) c 0))
    _ = W1 m ρ c (Proc.devRef .tc main_arg0) := (W2_arr m ρ c 0).trans (((dat0 (U1 m ρ) c).arrAt_in 0 rfl _).trans (A_eq0 (U1 m ρ) c 0))
    _ = W0 m ρ c (Proc.devRef .tc main_arg0) := StableHlo.after_of_forall_not_mem (b := Proc.devRef .tc main_arg0) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg0) := rfl

theorem W4_main_arg1 (c : Dev nD) : W4 m ρ c (Proc.devRef .tc main_arg1) = m ((c : Thread nD τ).loc main_arg1) :=
  calc W4 m ρ c (Proc.devRef .tc main_arg1)
    _ = W3 m ρ c (Proc.devRef .tc main_arg1) := StableHlo.after_of_forall_not_mem (b := Proc.devRef .tc main_arg1) _ _ (List.forall_iff_forall_mem.mp (by
          simp only [hostOps2, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W2 m ρ c (Proc.devRef .tc main_arg1) := (W3_arr m ρ c 2).trans (((dat1 (U2 m ρ) c).arrAt_in 2 rfl _).trans (A_eq1 (U2 m ρ) c 2))
    _ = W1 m ρ c (Proc.devRef .tc main_arg1) := (W2_arr m ρ c 2).trans (((dat0 (U1 m ρ) c).arrAt_in 2 rfl _).trans (A_eq0 (U1 m ρ) c 2))
    _ = W0 m ρ c (Proc.devRef .tc main_arg1) := StableHlo.after_of_forall_not_mem (b := Proc.devRef .tc main_arg1) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg1) := rfl

theorem W4_main_arg2 (c : Dev nD) : W4 m ρ c (Proc.devRef .tc main_arg2) = m ((c : Thread nD τ).loc main_arg2) :=
  calc W4 m ρ c (Proc.devRef .tc main_arg2)
    _ = W3 m ρ c (Proc.devRef .tc main_arg2) := StableHlo.after_of_forall_not_mem (b := Proc.devRef .tc main_arg2) _ _ (List.forall_iff_forall_mem.mp (by
          simp only [hostOps2, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W2 m ρ c (Proc.devRef .tc main_arg2) := (W3_arr m ρ c 3).trans (((dat1 (U2 m ρ) c).arrAt_in 3 rfl _).trans (A_eq1 (U2 m ρ) c 3))
    _ = W1 m ρ c (Proc.devRef .tc main_arg2) := (W2_arr m ρ c 3).trans (((dat0 (U1 m ρ) c).arrAt_in 3 rfl _).trans (A_eq0 (U1 m ρ) c 3))
    _ = W0 m ρ c (Proc.devRef .tc main_arg2) := StableHlo.after_of_forall_not_mem (b := Proc.devRef .tc main_arg2) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg2) := rfl

theorem W4_main_arg3 (c : Dev nD) : W4 m ρ c (Proc.devRef .tc main_arg3) = m ((c : Thread nD τ).loc main_arg3) :=
  calc W4 m ρ c (Proc.devRef .tc main_arg3)
    _ = W3 m ρ c (Proc.devRef .tc main_arg3) := StableHlo.after_of_forall_not_mem (b := Proc.devRef .tc main_arg3) _ _ (List.forall_iff_forall_mem.mp (by
          simp only [hostOps2, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W2 m ρ c (Proc.devRef .tc main_arg3) := W3_of_ne m ρ c main_arg3 (by decide)
    _ = W1 m ρ c (Proc.devRef .tc main_arg3) := W2_of_ne m ρ c main_arg3 (by decide)
    _ = W0 m ρ c (Proc.devRef .tc main_arg3) := StableHlo.after_of_forall_not_mem (b := Proc.devRef .tc main_arg3) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg3) := rfl

theorem W4_main_arg4 (c : Dev nD) : W4 m ρ c (Proc.devRef .tc main_arg4) = m ((c : Thread nD τ).loc main_arg4) :=
  calc W4 m ρ c (Proc.devRef .tc main_arg4)
    _ = W3 m ρ c (Proc.devRef .tc main_arg4) := StableHlo.after_of_forall_not_mem (b := Proc.devRef .tc main_arg4) _ _ (List.forall_iff_forall_mem.mp (by
          simp only [hostOps2, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W2 m ρ c (Proc.devRef .tc main_arg4) := W3_of_ne m ρ c main_arg4 (by decide)
    _ = W1 m ρ c (Proc.devRef .tc main_arg4) := (W2_arr m ρ c 4).trans (((dat0 (U1 m ρ) c).arrAt_in 4 rfl _).trans (A_eq0 (U1 m ρ) c 4))
    _ = W0 m ρ c (Proc.devRef .tc main_arg4) := StableHlo.after_of_forall_not_mem (b := Proc.devRef .tc main_arg4) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg4) := rfl

theorem W4_main_arg5 (c : Dev nD) : W4 m ρ c (Proc.devRef .tc main_arg5) = m ((c : Thread nD τ).loc main_arg5) :=
  calc W4 m ρ c (Proc.devRef .tc main_arg5)
    _ = W3 m ρ c (Proc.devRef .tc main_arg5) := StableHlo.after_of_forall_not_mem (b := Proc.devRef .tc main_arg5) _ _ (List.forall_iff_forall_mem.mp (by
          simp only [hostOps2, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W2 m ρ c (Proc.devRef .tc main_arg5) := (W3_arr m ρ c 4).trans (((dat1 (U2 m ρ) c).arrAt_in 4 rfl _).trans (A_eq1 (U2 m ρ) c 4))
    _ = W1 m ρ c (Proc.devRef .tc main_arg5) := W2_of_ne m ρ c main_arg5 (by decide)
    _ = W0 m ρ c (Proc.devRef .tc main_arg5) := StableHlo.after_of_forall_not_mem (b := Proc.devRef .tc main_arg5) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg5) := rfl

/-! ## What the regions are entered with, and the result -/

/-- Region 0 is entered with the weights converted, -/
theorem U1_main_v0 (c : Dev nD) : U1 m ρ c main_v0 = truncf .bf16 (m ((c : Thread nD τ).loc main_arg3)) bitsLt_bf16_f32 := by
  show StableHlo.after hostOps0 (W0 m ρ c) (Proc.devRef .tc main_v0) = _
  after_results
/-- and so is region 1: the first region only reads them. -/
theorem U2_main_v0 (c : Dev nD) : U2 m ρ c main_v0 = truncf .bf16 (m ((c : Thread nD τ).loc main_arg3)) bitsLt_bf16_f32 :=
  ((W2_arr m ρ c 1).trans (((dat0 (U1 m ρ) c).arrAt_in 1 rfl _).trans (A_eq0 (U1 m ρ) c 1))).trans (U1_main_v0 m ρ c)
theorem U1_main_arg0 (c : Dev nD) : U1 m ρ c main_arg0 = m ((c : Thread nD τ).loc main_arg0) :=
  StableHlo.after_of_forall_not_mem (b := Proc.devRef .tc main_arg0) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
theorem U1_main_arg1 (c : Dev nD) : U1 m ρ c main_arg1 = m ((c : Thread nD τ).loc main_arg1) :=
  StableHlo.after_of_forall_not_mem (b := Proc.devRef .tc main_arg1) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
theorem U1_main_arg2 (c : Dev nD) : U1 m ρ c main_arg2 = m ((c : Thread nD τ).loc main_arg2) :=
  StableHlo.after_of_forall_not_mem (b := Proc.devRef .tc main_arg2) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
theorem U1_main_arg4 (c : Dev nD) : U1 m ρ c main_arg4 = m ((c : Thread nD τ).loc main_arg4) :=
  StableHlo.after_of_forall_not_mem (b := Proc.devRef .tc main_arg4) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
theorem U2_main_arg0 (c : Dev nD) : U2 m ρ c main_arg0 = m ((c : Thread nD τ).loc main_arg0) :=
  ((W2_arr m ρ c 0).trans (((dat0 (U1 m ρ) c).arrAt_in 0 rfl _).trans (A_eq0 (U1 m ρ) c 0))).trans (StableHlo.after_of_forall_not_mem (b := Proc.devRef .tc main_arg0) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide))))
theorem U2_main_arg1 (c : Dev nD) : U2 m ρ c main_arg1 = m ((c : Thread nD τ).loc main_arg1) :=
  ((W2_arr m ρ c 2).trans (((dat0 (U1 m ρ) c).arrAt_in 2 rfl _).trans (A_eq0 (U1 m ρ) c 2))).trans (StableHlo.after_of_forall_not_mem (b := Proc.devRef .tc main_arg1) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide))))
theorem U2_main_arg2 (c : Dev nD) : U2 m ρ c main_arg2 = m ((c : Thread nD τ).loc main_arg2) :=
  ((W2_arr m ρ c 3).trans (((dat0 (U1 m ρ) c).arrAt_in 3 rfl _).trans (A_eq0 (U1 m ρ) c 3))).trans (StableHlo.after_of_forall_not_mem (b := Proc.devRef .tc main_arg2) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide))))
theorem U2_main_arg5 (c : Dev nD) : U2 m ρ c main_arg5 = m ((c : Thread nD τ).loc main_arg5) :=
  (W2_of_ne m ρ c main_arg5 (by decide)).trans (StableHlo.after_of_forall_not_mem (b := Proc.devRef .tc main_arg5) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide))))

/-- The result is the join, along the columns, of what the two regions' write-backs leave in their result arrays. -/
theorem Wfin_main_v3 (c : Dev nD) :
    Wfin m ρ c (Proc.devRef .tc main_v3)
      = concatenate S16384x5120 1 [⟨S16384x4096, (dat0 (U1 m ρ) c).arrAt 5 cfg0.N⟩, ⟨S16384x1024, (dat1 (U2 m ρ) c).arrAt 5 cfg1.N⟩]
          concatenates_S16384x4096_S16384x1024_S16384x5120_d1 := by
  have h1 : W3 m ρ c (Proc.devRef .tc main_v1) = (dat0 (U1 m ρ) c).arrAt 5 cfg0.N :=
    (W3_of_ne m ρ c main_v1 (by decide)).trans (W2_arr m ρ c 5)
  have h2 : W3 m ρ c (Proc.devRef .tc main_v2) = (dat1 (U2 m ρ) c).arrAt 5 cfg1.N := W3_arr m ρ c 5
  show StableHlo.after hostOps2 (W3 m ρ c) (Proc.devRef .tc main_v3) = _
  after_results
  rw [h1, h2]

end Cert.Kernel.Fr

end
-- ==== Proof.K.Frame.lean ====
/-
  The run of @main as four segments over the thread state "every unscoped buffer at the boundary's contents, the
  generator register at some state, nothing owed": the two host stretches by their operations, the two kernel
  regions by their pipelines' proof data and body obligations. Every weakly fair execution terminates, and every
  final memory holds each unscoped buffer at the last boundary's contents.
-/
import proofs.«167721_j61710090109455_2_alg».proof.Proof.K.Boundary

set_option maxRecDepth 16384

noncomputable section

namespace Cert.Kernel.Fr

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The proof data family and the thread state -/

/-- The prefetched tables' admissible contents: no pipeline has a table. -/
abbrev adm : (p : Fin 2) → (pcfgs (F := F) p).Adm := fun p => (cfgs p).toPCfg_adm
/-- Every pipeline's proof data, each at its region's entry contents. -/
def pdats : (p : Fin 2) → (c : Dev nD) → Dat τ (Elt F) Unit ℕ (UR sig nD τ) ℕ (Pipeline.pin (pcfgs (F := F)) adm p) c
  | ⟨0, _⟩ => fun c => dat0 (U1 m ρ) c
  | ⟨1, _⟩ => fun c => dat1 (U2 m ρ) c
abbrev 𝒱₀ : Variants := Variants.none
/-- No core owes another anything: no level is assigned. -/
abbrev L : GSem nD τ sig → Finset Unit := fun _ => ∅
abbrev lv : GSem nD τ sig → Unit → ℕ := fun _ _ => 0
/-- What rides beside the buffers through every segment: the core's generator register at some state and its
    `owes`, at nothing. -/
abbrev R (c : Dev nD) : sProp 𝕄 := iprop((∃ r, prngReg c r) ∗ ∃ W, owes (c : Thread nD τ) (0 : CellTallies nD τ sig Unit) W)
/-- A host stretch as a segment over the unscoped references from the contents `W`, `R` riding along. -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

/-- No host operation allocates a buffer. -/
theorem hostOps0_fresh : (hostOps0 : List (HloOp τ sig (Elt F))).Forall fun op => op.fresh = ∅ := by
  simp only [List.Forall]; repeat' constructor
theorem hostOps2_fresh : (hostOps2 : List (HloOp τ sig (Elt F))).Forall fun op => op.fresh = ∅ := by
  simp only [List.Forall]; repeat' constructor
/-- The last thread state without the `owes`: every unscoped buffer at the last boundary's contents, the generator
    register at some state. -/
abbrev Tₙ (c : Dev nD) : sProp 𝕄 := iprop(StableHlo.held (c : Thread nD τ) (Pipeline.ucRefs τ sig) (W4 m ρ c) ∗ ∃ r, prngReg c r)

/-! ## The regions as segments -/

-- a library lemma stated over `pin pcs a p` unifies with the pinned configuration only when unification may unfold
-- plain definitions in a metavariable's type
set_option backward.isDefEq.respectTransparency.types false in
/-- REGION 0 (custom_call 0) over the thread state: entered from every unscoped buffer at `W1`, left at `W2`. Its
    arrays split out of the unscoped buffers and put back at the exit contents; the generator register into the
    invariant and out; nothing owed; no semaphore of the kernel's own. -/
def reg0 : Pipeline.RegionSeg (pcfgs (F := F)) adm (pdats m ρ) () defs₀ 𝒱₀ L lv 0 where
  win := launch0.win.to₀
  block_pos := launch0.block_pos
  stage_whole := launch0.stage_whole
  K := PEmpty
  osem k := k.elim
  ho := Pipeline.OwnSemFacts.none _
  hbody c := (body_obligation0 (U1 m ρ) c).loose
  hwaits := Pipeline.hwaits_of_owed_zero _ _ _ _ L lv 0 fun _ _ => rfl
  pre c := iprop(StableHlo.held (c : Thread nD τ) (Pipeline.ucRefs τ sig) (W1 m ρ c) ∗ R c)
  post c := iprop(StableHlo.held (c : Thread nD τ) (Pipeline.ucRefs τ sig) (W2 m ρ c) ∗ R c)
  X c := iprop(∃ r, prngReg c r)
  Y c := iprop(∃ r, prngReg c r)
  Z c := Pipeline.unscopedRest (Ix := Unit) (Name := ℕ) (U := UR sig nD τ) (Lvl := ℕ) spec0 c (U1 m ρ c)
  hentry c := by
    rw [Pipeline.ownSems0_none]
    have hsplit := Pipeline.arrays_of_unscopedBufs (p := 0) (pcfgs (F := F)) adm (pdats m ρ) launch0.win launch0.arr_whole c
      ((pdats m ρ 0 c).share_full fun _ => rfl) (U1 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m ρ 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m ρ) ((pdats m ρ 0 c).share_full fun _ => rfl)
      (U1 m ρ c) (U2 m ρ c) ((pdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

-- a library lemma stated over `pin pcs a p` unifies with the pinned configuration only when unification may unfold
-- plain definitions in a metavariable's type
set_option backward.isDefEq.respectTransparency.types false in
/-- REGION 1 (custom_call 1) over the thread state: entered from every unscoped buffer at `W2`, left at `W3`. Its
    arrays split out of the unscoped buffers and put back at the exit contents; the generator register into the
    invariant and out; nothing owed; no semaphore of the kernel's own. -/
def reg1 : Pipeline.RegionSeg (pcfgs (F := F)) adm (pdats m ρ) () defs₀ 𝒱₀ L lv 1 where
  win := launch1.win.to₀
  block_pos := launch1.block_pos
  stage_whole := launch1.stage_whole
  K := PEmpty
  osem k := k.elim
  ho := Pipeline.OwnSemFacts.none _
  hbody c := (body_obligation1 (U2 m ρ) c).loose
  hwaits := Pipeline.hwaits_of_owed_zero _ _ _ _ L lv 1 fun _ _ => rfl
  pre c := iprop(StableHlo.held (c : Thread nD τ) (Pipeline.ucRefs τ sig) (W2 m ρ c) ∗ R c)
  post c := iprop(StableHlo.held (c : Thread nD τ) (Pipeline.ucRefs τ sig) (W3 m ρ c) ∗ R c)
  X c := iprop(∃ r, prngReg c r)
  Y c := iprop(∃ r, prngReg c r)
  Z c := Pipeline.unscopedRest (Ix := Unit) (Name := ℕ) (U := UR sig nD τ) (Lvl := ℕ) spec1 c (U2 m ρ c)
  hentry c := by
    rw [Pipeline.ownSems0_none]
    have hsplit := Pipeline.arrays_of_unscopedBufs (p := 1) (pcfgs (F := F)) adm (pdats m ρ) launch1.win launch1.arr_whole c
      ((pdats m ρ 1 c).share_full fun _ => rfl) (U2 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m ρ 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m ρ) ((pdats m ρ 1 c).share_full fun _ => rfl)
      (U2 m ρ c) (U3 m ρ c) ((pdats m ρ 1 c).arrAt · cfg1.N) (hF1 m ρ c) (hrest1 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## @main as segments, and the launch -/

/-- @main's 4 segments in order. -/
abbrev segs : List (Pipeline.Seg (pcfgs (F := F)) adm (pdats m ρ) () defs₀ 𝒱₀ L lv) :=
  [ .host (hseg hostOps0 hostOps0_sub hostOps0_fresh (W0 m ρ)),
    .region (reg0 m ρ),
    .region (reg1 m ρ),
    .host (hseg hostOps2 hostOps2_sub hostOps2_fresh (W3 m ρ)) ]
/-- @main is the run of the segments. -/
theorem main_run (c : Dev nD) : main (F := F) c = Pipeline.Seg.run (segs m ρ) := (main_chain c).trans (by chain_rfl)

-- the launch theorem's implicit arguments are found by unifying its conclusion with this one, which takes unfolding plain
-- definitions in a metavariable's type
set_option backward.isDefEq.respectTransparency.types false in
/-- At the compiled mesh, from any memory with zero counters, every weakly fair execution of @main on the TensorCores
    terminates, nothing faulting, and every final memory holds every unscoped buffer at the last boundary's contents:
    the arguments as launched (`W4_main_argK`), the result at the join of the regions' results (`Wfin_main_v3`). -/
theorem run_main : θ_run defs (onTc (τ := τ) (main (F := F))) ⟨m, fun _ => 0, ρ⟩ (fun r => ∀ c : Dev nD,
      ∀ b ∈ Pipeline.ucRefs τ sig, r.2.mem (((c : Thread nD τ)).1, b) = Wfin m ρ c b) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun c => by
      show iprop(StableHlo.held (c : Thread nD τ) (Pipeline.ucRefs τ sig) (W4 m ρ c) ∗ R c)
        ⊢ iprop(Tₙ m ρ c ∗ ∃ W, owes (c : Thread nD τ) (0 : CellTallies nD τ sig Unit) W)
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W4 m ρ c b)
    (hfin := fun c s' => by
      iintro ⟨⟨Hh, -⟩, HSI⟩
      unfold StableHlo.held
      imodintro
      iapply (pointsTo_read_all (Pipeline.ucRefs τ sig) (fun b => (((c : Thread nD τ)).1, b)) (W4 m ρ c) s')
      isplitl [Hh] <;> iassumption)
    (hQ := fun s h => h)

/-- An unscoped TensorCore reference is among those the final memory is read at. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩

end Cert.Kernel.Fr

end
-- ==== Proof.K.FrameClaim.lean ====
/-
  The frame claim's post from the run's: the final memory holds every unscoped buffer at the last boundary's
  contents, and there each argument array holds what it was launched with.
-/
import proofs.«167721_j61710090109455_2_alg».proof.Proof.K.Frame

set_option maxRecDepth 16384

noncomputable section

namespace Cert.Kernel.Fr

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- Every weakly fair execution of @main terminates, nothing faulting, and every final memory has the six argument
    arrays as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  (θ_run defs _ _).mono (fun _ h c =>
    ⟨(h c _ (mem_uc main_arg0 (by decide))).trans (W4_main_arg0 m ρ c),
      (h c _ (mem_uc main_arg1 (by decide))).trans (W4_main_arg1 m ρ c),
      (h c _ (mem_uc main_arg2 (by decide))).trans (W4_main_arg2 m ρ c),
      (h c _ (mem_uc main_arg3 (by decide))).trans (W4_main_arg3 m ρ c),
      (h c _ (mem_uc main_arg4 (by decide))).trans (W4_main_arg4 m ρ c),
      (h c _ (mem_uc main_arg5 (by decide))).trans (W4_main_arg5 m ρ c)⟩) (run_main m ρ)

end Cert.Kernel.Fr

end
-- ==== Proof.KI.QRun.lean ====
/-
  The query kernel's body run once, on whole staging buffers: five whole loads (the token block, the weight rows,
  the sine and cosine blocks, the norm weight), then thirty-two stores into the output block, one head of 128
  columns each, which together tile it. The run names the list of pieces the stores leave.
-/
import proofs.«167721_j61710090109455_2_alg».proof.Proof.Gen.KernelIdeal.Launch
import proofs.«167721_j61710090109455_2_alg».proof.Proof.Gen.KernelIdeal.Skeleton
import proofs.«167721_j61710090109455_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 16000000 in
/-- The pieces the body's stores leave in the output block (last store first), with the proof that the body, on
    whole staging buffers holding `x0 … x4` and an output buffer holding anything, runs to the continuation with
    the inputs as they were and the output buffer at those pieces written over what it held. -/
noncomputable def qRun (c : Dev nD) (i : grid0.Coords)
    (arg1 : Memref sig .tc .vmem S64x4096 .f32) (harg1 : arg1.IsWhole) (arg2 : Memref sig .tc .vmem S4096x4096 .bf16) (harg2 : arg2.IsWhole)
    (arg3 : Memref sig .tc .vmem S64x128 .f32) (harg3 : arg3.IsWhole) (arg4 : Memref sig .tc .vmem S64x128 .f32) (harg4 : arg4.IsWhole)
    (arg5 : Memref sig .tc .vmem S128 .f32) (harg5 : arg5.IsWhole) (arg6 : Memref sig .tc .vmem S64x4096 .f32) (harg6 : arg6.IsWhole)
    (x0 : Vec F S64x4096 .f32) (x1 : Vec F S4096x4096 .bf16) (x2 x3 : Vec F S64x128 .f32) (x4 : Vec F S128 .f32) :
    { L : List (View.Piece (Elt F) S64x4096 .f32) //
      ∀ (K : PUnit → sProp 𝕄),
        iprop(owns (c : Thread nD τ) arg1 fullShare x0 ∗ owns (c : Thread nD τ) arg2 fullShare x1 ∗ owns (c : Thread nD τ) arg3 fullShare x2
            ∗ owns (c : Thread nD τ) arg4 fullShare x3 ∗ owns (c : Thread nD τ) arg5 fullShare x4 ∗ (∃ d, owns (c : Thread nD τ) arg6 fullShare d)
            ∗ (iprop(owns (c : Thread nD τ) arg1 fullShare x0 ∗ owns (c : Thread nD τ) arg2 fullShare x1 ∗ owns (c : Thread nD τ) arg3 fullShare x2
                ∗ owns (c : Thread nD τ) arg4 fullShare x3 ∗ owns (c : Thread nD τ) arg5 fullShare x4
                ∗ (∃ f, arg6.view.loc (c : Thread nD τ) ↦[arg6.view.set]{fullShare} arg6.view.writes (Elt F) f L)) -∗ K ⟨⟩))
          ⊢ wp frame (wpE (defs₀ (F := F)) Variants.none c none) Set.univ
              (cc0__q_kernel i arg1 harg1 arg2 harg2 arg3 harg3 arg4 harg4 arg5 harg5 arg6 harg6) K } := by
  refine ⟨?_, fun K => ?run⟩
  case run =>
    simp only [cc0__q_kernel_eq_skeleton]; unfold cc0__q_kernel_skel
    simp only [k0_part1_eq_skeleton, k0_part2_eq_skeleton, k0_part3_eq_skeleton, k0_part4_eq_skeleton, k0_part5_eq_skeleton,
      k0_part6_eq_skeleton, k0_part7_eq_skeleton, k0_part8_eq_skeleton, k0_part9_eq_skeleton, k0_part10_eq_skeleton,
      k0_part11_eq_skeleton, k0_part12_eq_skeleton, k0_part13_eq_skeleton, k0_part14_eq_skeleton, k0_part15_eq_skeleton,
      k0_part16_eq_skeleton]
    unfold owns
    iintro ⟨⟨%f0, %hf0, H0⟩, ⟨%f1, %hf1, H1⟩, ⟨%f2, %hf2, H2⟩, ⟨%f3, %hf3, H3⟩, ⟨%f4, %hf4, H4⟩, ⟨%d5, %f5, -, H5⟩, Hk⟩
    obtain rfl := harg1.eq_unread hf0
    obtain rfl := harg2.eq_unread hf1
    obtain rfl := harg3.eq_unread hf2
    obtain rfl := harg4.eq_unread hf3
    obtain rfl := harg5.eq_unread hf4
    sl_exec
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    iexists _; iexact H5

end Cert.KernelIdeal.Fr

end
-- ==== Proof.KI.Data0.lean ====
/-
  Region 0 of @main, the query kernel's pipeline, at any contents `V` of the core's buffers when the region is
  entered: each window's block at a point, what each input's staging buffer holds when the body runs (its block,
  fetched there or not), what the body's stores leave in the output's staging buffer (the pieces the body's run
  names, which tile the block, read back), and the pipeline's proof data over these.
-/
import proofs.«167721_j61710090109455_2_alg».proof.Proof.KI.QRun

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Region
variable (V : (c : Dev nD) → (b : Ref sig .tc) → Buf (Elt F) ((c : Thread nD τ).loc b))

/-! ## The windows' blocks -/

/-- Window `w`'s block at point `t`, read off its array as the region finds it (`V`). -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- Input window 0's current staging buffer holds its block at every point, fetched there or not, for any proof
    data whose array is `V`'s and whose body leaves the block in place: unfetched, the block index has not moved. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

/-- Window 1's blocks may overhang its array in type, but its one block (index `(0, 0)`, 4096 rows of 5120) does not:
    no axis is cut at any point. -/
theorem clip0_1 (i : grid0.Coords) (a : Fin (cfg0.win 1).shape.rank) : (cfg0.win 1).clip i a = none := by
  match a with
  | ⟨0, _⟩ => exact (by decide : Pipeline.Clip.of 0 4096 5120 = none)
  | ⟨1, _⟩ => exact (by decide : Pipeline.Clip.of 0 4096 4096 = none)

/-- What window 1's staging buffer holds at every point: its one block, filling the whole buffer (nothing of the
    prior contents shows, no axis being cut). -/
def wblk0 (c : Dev nD) (t : Fin cfg0.N) : (cfg0.win 1).block.Idx → Elt F (cfg0.win 1).elt :=
  (cfg0.win 1).fill (cfg0.grid.coords t) (fun _ => Classical.arbitrary _) (iblk0 V c 1 t)

/-- Input window 1's current staging buffer holds that at every point, fetched there (the first point) or not, for
    any proof data whose array is `V`'s and whose body leaves it in place. -/
theorem before0_1_of {c : Dev nD} (dat : Dat τ (Elt F) Unit ℕ (UR sig nD τ) ℕ cfg0 c) (hA : dat.A 1 = V c (Pipeline.arrRef spec0 1))
    (hafter : ∀ t, dat.after 1 t = wblk0 V c t) (t : Fin cfg0.N) (d) : dat.before 1 t d = wblk0 V c t :=
  (dat.before_in_eq_fetched 1 rfl (fun _ => rfl)
      (fun t t' _ => funext fun a => (clip0_1 _ a).trans (clip0_1 _ a).symm)
      (fun t => by rw [hafter]; unfold wblk0; rw [Window.cut_fill]; unfold Dat.blockOf iblk0; rw [hA]) t d).trans
    (by unfold Dat.fetched Dat.blockOf wblk0 iblk0; rw [hA]; exact Pipeline.fill_of_clip_none (cfg := cfg0) 1 _ (clip0_1 _) _ _ _)

/-- Input window 2's current staging buffer holds its block at every point, fetched there or not, for any proof
    data whose array is `V`'s and whose body leaves the block in place: unfetched, the block index has not moved. -/
theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)

/-- Input window 3's current staging buffer holds its block at every point, fetched there or not, for any proof
    data whose array is `V`'s and whose body leaves the block in place: unfetched, the block index has not moved. -/
theorem before0_3_of {c : Dev nD} (dat : Dat τ (Elt F) Unit ℕ (UR sig nD τ) ℕ cfg0 c) (hA : dat.A 3 = V c (Pipeline.arrRef spec0 3))
    (hafter : ∀ t, dat.after 3 t = iblk0 V c 3 t) (t : Fin cfg0.N) (d) : dat.before 3 t d = iblk0 V c 3 t :=
  (dat.before_in_eq_fetched 3 rfl (fun _ => rfl) (fun _ _ _ => rfl) (fun t => by rw [hafter]; unfold Dat.blockOf iblk0; rw [hA]; try rfl) t d).trans
    (by unfold Dat.fetched Dat.blockOf iblk0; rw [hA]; try rfl)

/-- Input window 4's current staging buffer holds its block at every point, fetched there or not, for any proof
    data whose array is `V`'s and whose body leaves the block in place: unfetched, the block index has not moved. -/
theorem before0_4_of {c : Dev nD} (dat : Dat τ (Elt F) Unit ℕ (UR sig nD τ) ℕ cfg0 c) (hA : dat.A 4 = V c (Pipeline.arrRef spec0 4))
    (hafter : ∀ t, dat.after 4 t = iblk0 V c 4 t) (t : Fin cfg0.N) (d) : dat.before 4 t d = iblk0 V c 4 t :=
  (dat.before_in_eq_fetched 4 rfl (fun _ => rfl) (fun _ _ _ => rfl) (fun t => by rw [hafter]; unfold Dat.blockOf iblk0; rw [hA]; try rfl) t d).trans
    (by unfold Dat.fetched Dat.blockOf iblk0; rw [hA]; try rfl)

/-! ## The staging memrefs at a point, and the output's buffer after the body -/

/-- One staging buffer of the output window, through which its contents are stated (the choice does not matter:
    the stores cover the block). -/
abbrev VO0 : View sig .tc .vmem S64x4096 .f32 := (Memref.whole cc0_stg5_0 : Memref sig .tc .vmem S64x4096 .f32).view
abbrev ms0_0 (t : Fin cfg0.N) : Memref sig .tc .vmem S64x4096 .f32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S4096x4096 .bf16 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S64x128 .f32 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S64x128 .f32 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S128 .f32 := win0_4.stage (cfg0.slots t 4)
abbrev hs0_4 (t : Fin cfg0.N) : (ms0_4 t).IsWhole := hstage0_4 ((cfg0.slots t 4).cast nbuf0_4)
abbrev ms0_5 (t : Fin cfg0.N) : Memref sig .tc .vmem S64x4096 .f32 := win0_5.stage (cfg0.slots t 5)
abbrev hs0_5 (t : Fin cfg0.N) : (ms0_5 t).IsWhole := hstage0_5 ((cfg0.slots t 5).cast nbuf0_5)

/-- The pieces the body's stores leave — thirty-two blocks of 128 columns — tile the output block, so they cover it. -/
theorem cover0 (c : Dev nD) (i : grid0.Coords) (arg1 : Memref sig .tc .vmem S64x4096 .f32) (harg1 : arg1.IsWhole) (arg2 : Memref sig .tc .vmem S4096x4096 .bf16) (harg2 : arg2.IsWhole) (arg3 : Memref sig .tc .vmem S64x128 .f32) (harg3 : arg3.IsWhole) (arg4 : Memref sig .tc .vmem S64x128 .f32) (harg4 : arg4.IsWhole) (arg5 : Memref sig .tc .vmem S128 .f32) (harg5 : arg5.IsWhole) (arg6 : Memref sig .tc .vmem S64x4096 .f32) (harg6 : arg6.IsWhole)
    (x0 : Vec F S64x4096 .f32) (x1 : Vec F S4096x4096 .bf16) (x2 : Vec F S64x128 .f32) (x3 : Vec F S64x128 .f32) (x4 : Vec F S128 .f32) (y : S64x4096.Idx) :
    ∃ pc ∈ (qRun c i arg1 harg1 arg2 harg2 arg3 harg3 arg4 harg4 arg5 harg5 arg6 harg6 x0 x1 x2 x3 x4).1, y ∈ pc.1.set :=
  View.cover_of_tiledL (qRun c i arg1 harg1 arg2 harg2 arg3 harg3 arg4 harg4 arg5 harg5 arg6 harg6 x0 x1 x2 x3 x4).1 S64x128.size (by sl_kernel_rfl) y

/-- What the body leaves in the output's staging buffer at point `t`: the run's pieces, at the point's memrefs and
    the inputs' blocks, read back over contents that do not matter. -/
def out0 (c : Dev nD) (t : Fin cfg0.N) : Vec F S64x4096 .f32 :=
  VO0.read (Elt F) (VO0.writes (Elt F) VO0.junk
    (qRun c (grid0.coords t) (ms0_0 t) (hs0_0 t) (ms0_1 t) (hs0_1 t) (ms0_2 t) (hs0_2 t) (ms0_3 t) (hs0_3 t) (ms0_4 t) (hs0_4 t) (ms0_5 t) (hs0_5 t)
      (iblk0 V c 0 t) (wblk0 V c t) (iblk0 V c 2 t) (iblk0 V c 3 t) (iblk0 V c 4 t)).1)

/-! ## The pipeline's proof data -/

/-- The proof data of pipeline 0 on core `c`: the arrays as the region finds them (`V`); after the body at point
    `t` each input's buffer at what it held and the output's at `out0`; the invariant the scoped rest and the
    generator register, untouched; nothing owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => wblk0 V c t
    | ⟨2, _⟩ => iblk0 V c 2 t
    | ⟨3, _⟩ => iblk0 V c 3 t
    | ⟨4, _⟩ => iblk0 V c 4 t
    | ⟨5, _⟩ => out0 V c t
  Φ _ := Pipeline.ΦA spec0 c
  q _ := fullShare
  owed _ := 0

/-- The proof data's arrays are the region-entry contents. -/
theorem A_eq0 (c : Dev nD) (w : Fin cfg0.W) : (dat0 V c).A w = V c (Pipeline.arrRef spec0 w) := by
  dsimp only [dat0]

/-- What the body leaves, window by window. -/
theorem after0_0 (c : Dev nD) (t : Fin cfg0.N) : (dat0 V c).after 0 t = iblk0 V c 0 t := by dsimp only [dat0]
theorem after0_1 (c : Dev nD) (t : Fin cfg0.N) : (dat0 V c).after 1 t = wblk0 V c t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = iblk0 V c 3 t := by dsimp only [dat0]
theorem after0_4 (c : Dev nD) (t : Fin cfg0.N) : (dat0 V c).after 4 t = iblk0 V c 4 t := by dsimp only [dat0]
theorem after0_5 (c : Dev nD) (t : Fin cfg0.N) : (dat0 V c).after 5 t = out0 V c t := by dsimp only [dat0]

/-- Each input's current staging buffer holds its block at every point, fetched there or not. -/
theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = wblk0 V c t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d
theorem before0_3 (c : Dev nD) (t : Fin cfg0.N) (d) : (dat0 V c).before 3 t d = iblk0 V c 3 t :=
  before0_3_of V (dat0 V c) (A_eq0 V c 3) (after0_3 V c) t d
theorem before0_4 (c : Dev nD) (t : Fin cfg0.N) (d) : (dat0 V c).before 4 t d = iblk0 V c 4 t :=
  before0_4_of V (dat0 V c) (A_eq0 V c 4) (after0_4 V c) t d

end Region

end Cert.KernelIdeal.Fr

end
-- ==== Proof.KI.Body0.lean ====
/-
  Region 0's body obligation: at every point the body, handed each input's staging buffer at its block and the
  output's at anything, runs (the body's run, at the point's memrefs) to the inputs as they were and the output's
  buffer at the pieces its stores leave, which cover the block; the invariant and what the core owes pass through.
-/
import proofs.«167721_j61710090109455_2_alg».proof.Proof.KI.Data0

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Region
variable (V : (c : Dev nD) → (b : Ref sig .tc) → Buf (Elt F) ((c : Thread nD τ).loc b))

/-- What the body is called with at point `t` (the windows one by one), -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d))
    ∗ (∃ d, owns (c : Thread nD τ) (st0_4 t) fullShare ((dat0 V c).before 4 t d))
    ∗ (∃ d, owns (c : Thread nD τ) (st0_5 t) fullShare ((dat0 V c).before 5 t d)))

/-- and what it returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t)
    ∗ owns (c : Thread nD τ) (st0_4 t) fullShare ((dat0 V c).after 4 t)
    ∗ owns (c : Thread nD τ) (st0_5 t) fullShare ((dat0 V c).after 5 t))

set_option maxHeartbeats 1600000 in
/-- The body at any point: the inputs' memrefs hold their blocks, so the body's run applies; the output's buffer ends
    at the run's pieces over what it held, which read back as `out0` because the pieces cover the block. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2, before0_3, before0_4]
  rw [show (dat0 V c).Φ t.succ = (dat0 V c).Φ t.castSucc from rfl,
    show (dat0 V c).owesAt () t.succ = (dat0 V c).owesAt () t.castSucc from rfl,
    after0_0, after0_1, after0_2, after0_3, after0_4, after0_5]
  unfold out0
  iintro ⟨HΦ, Ho, ⟨%d0, H0⟩, ⟨%d1, H1⟩, ⟨%d2, H2⟩, ⟨%d3, H3⟩, ⟨%d4, H4⟩, ⟨%d5, H5⟩⟩
  iapply ((qRun c (grid0.coords t) _ _ _ _ _ _ _ _ _ _ _ _ (iblk0 V c 0 t) (wblk0 V c t) (iblk0 V c 2 t) (iblk0 V c 3 t) (iblk0 V c 4 t)).2 _)
  isplitl [H0]; · iexact H0
  isplitl [H1]; · iexact H1
  isplitl [H2]; · iexact H2
  isplitl [H3]; · iexact H3
  isplitl [H4]; · iexact H4
  isplitl [H5]; · iexists _; iexact H5
  iintro ⟨H0, H1, H2, H3, H4, ⟨%e5, H5⟩⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  unfold owns; iexists _; isplitr
  swap; · iexact H5
  ipureintro; exact View.read_writes_of_cover _ _ _ _ _ (cover0 c _ _ _ _ _ _ _ _ _ _ _ _ _ _ _ _ _ _)

/-- The library's body obligation, at every point. -/
theorem body_obligation0 (c : Dev nD) : BodyObligation (dat0 (F := F) V c) (defs₀ (F := F)) Variants.none () Set.univ := fun t => by
  rw [bigSep_W0, bigSep_W0]
  exact sound_body0 V c t

end Region

end Cert.KernelIdeal.Fr

end
-- ==== Proof.KI.KVRun.lean ====
/-
  The key/value kernel's body run once, on whole staging buffers: five whole loads (the token block, the weight
  rows, the sine and cosine blocks, the norm weight), then five stores into the output block — four heads of 128
  columns and the 512 value columns — which together tile it. The run names the list of pieces the stores leave.
-/
import proofs.«167721_j61710090109455_2_alg».proof.Proof.Gen.KernelIdeal.Launch
import proofs.«167721_j61710090109455_2_alg».proof.Proof.Gen.KernelIdeal.Skeleton
import proofs.«167721_j61710090109455_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
/-- The pieces the body's stores leave in the output block (last store first), with the proof that the body, on
    whole staging buffers holding `x0 … x4` and an output buffer holding anything, runs to the continuation with
    the inputs as they were and the output buffer at those pieces written over what it held. -/
noncomputable def kvRun (c : Dev nD) (i : grid1.Coords)
    (arg1 : Memref sig .tc .vmem S512x4096 .f32) (harg1 : arg1.IsWhole) (arg2 : Memref sig .tc .vmem S1024x4096 .bf16) (harg2 : arg2.IsWhole)
    (arg3 : Memref sig .tc .vmem S512x128 .f32) (harg3 : arg3.IsWhole) (arg4 : Memref sig .tc .vmem S512x128 .f32) (harg4 : arg4.IsWhole)
    (arg5 : Memref sig .tc .vmem S128 .f32) (harg5 : arg5.IsWhole) (arg6 : Memref sig .tc .vmem S512x1024 .f32) (harg6 : arg6.IsWhole)
    (x0 : Vec F S512x4096 .f32) (x1 : Vec F S1024x4096 .bf16) (x2 x3 : Vec F S512x128 .f32) (x4 : Vec F S128 .f32) :
    { L : List (View.Piece (Elt F) S512x1024 .f32) //
      ∀ (K : PUnit → sProp 𝕄),
        iprop(owns (c : Thread nD τ) arg1 fullShare x0 ∗ owns (c : Thread nD τ) arg2 fullShare x1 ∗ owns (c : Thread nD τ) arg3 fullShare x2
            ∗ owns (c : Thread nD τ) arg4 fullShare x3 ∗ owns (c : Thread nD τ) arg5 fullShare x4 ∗ (∃ d, owns (c : Thread nD τ) arg6 fullShare d)
            ∗ (iprop(owns (c : Thread nD τ) arg1 fullShare x0 ∗ owns (c : Thread nD τ) arg2 fullShare x1 ∗ owns (c : Thread nD τ) arg3 fullShare x2
                ∗ owns (c : Thread nD τ) arg4 fullShare x3 ∗ owns (c : Thread nD τ) arg5 fullShare x4
                ∗ (∃ f, arg6.view.loc (c : Thread nD τ) ↦[arg6.view.set]{fullShare} arg6.view.writes (Elt F) f L)) -∗ K ⟨⟩))
          ⊢ wp frame (wpE (defs₀ (F := F)) Variants.none c none) Set.univ
              (cc1__kv_kernel i arg1 harg1 arg2 harg2 arg3 harg3 arg4 harg4 arg5 harg5 arg6 harg6) K } := by
  refine ⟨?_, fun K => ?run⟩
  case run =>
    simp only [cc1__kv_kernel_eq_skeleton]; unfold cc1__kv_kernel_skel
    simp only [k1_part1_eq_skeleton, k1_part2_eq_skeleton]
    unfold owns
    iintro ⟨⟨%f0, %hf0, H0⟩, ⟨%f1, %hf1, H1⟩, ⟨%f2, %hf2, H2⟩, ⟨%f3, %hf3, H3⟩, ⟨%f4, %hf4, H4⟩, ⟨%d5, %f5, -, H5⟩, Hk⟩
    obtain rfl := harg1.eq_unread hf0
    obtain rfl := harg2.eq_unread hf1
    obtain rfl := harg3.eq_unread hf2
    obtain rfl := harg4.eq_unread hf3
    obtain rfl := harg5.eq_unread hf4
    sl_exec
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    iexists _; iexact H5

end Cert.KernelIdeal.Fr

end
-- ==== Proof.KI.Data1.lean ====
/-
  Region 1 of @main, the key/value kernel's pipeline, at any contents `V` of the core's buffers when the region is
  entered: each window's block at a point, what each input's staging buffer holds when the body runs (its block,
  fetched there or not), what the body's stores leave in the output's staging buffer (the pieces the body's run
  names, which tile the block, read back), and the pipeline's proof data over these.
-/
import proofs.«167721_j61710090109455_2_alg».proof.Proof.KI.KVRun

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Region
variable (V : (c : Dev nD) → (b : Ref sig .tc) → Buf (Elt F) ((c : Thread nD τ).loc b))

/-! ## The windows' blocks -/

/-- Window `w`'s block at point `t`, read off its array as the region finds it (`V`). -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- Input window 0's current staging buffer holds its block at every point, fetched there or not, for any proof
    data whose array is `V`'s and whose body leaves the block in place: unfetched, the block index has not moved. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)

/-- Input window 1's current staging buffer holds its block at every point, fetched there or not, for any proof
    data whose array is `V`'s and whose body leaves the block in place: unfetched, the block index has not moved. -/
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

/-- Input window 2's current staging buffer holds its block at every point, fetched there or not, for any proof
    data whose array is `V`'s and whose body leaves the block in place: unfetched, the block index has not moved. -/
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)

/-- Input window 3's current staging buffer holds its block at every point, fetched there or not, for any proof
    data whose array is `V`'s and whose body leaves the block in place: unfetched, the block index has not moved. -/
theorem before1_3_of {c : Dev nD} (dat : Dat τ (Elt F) Unit ℕ (UR sig nD τ) ℕ cfg1 c) (hA : dat.A 3 = V c (Pipeline.arrRef spec1 3))
    (hafter : ∀ t, dat.after 3 t = iblk1 V c 3 t) (t : Fin cfg1.N) (d) : dat.before 3 t d = iblk1 V c 3 t :=
  (dat.before_in_eq_fetched 3 rfl (fun _ => rfl) (fun _ _ _ => rfl) (fun t => by rw [hafter]; unfold Dat.blockOf iblk1; rw [hA]; try rfl) t d).trans
    (by unfold Dat.fetched Dat.blockOf iblk1; rw [hA]; try rfl)

/-- Input window 4's current staging buffer holds its block at every point, fetched there or not, for any proof
    data whose array is `V`'s and whose body leaves the block in place: unfetched, the block index has not moved. -/
theorem before1_4_of {c : Dev nD} (dat : Dat τ (Elt F) Unit ℕ (UR sig nD τ) ℕ cfg1 c) (hA : dat.A 4 = V c (Pipeline.arrRef spec1 4))
    (hafter : ∀ t, dat.after 4 t = iblk1 V c 4 t) (t : Fin cfg1.N) (d) : dat.before 4 t d = iblk1 V c 4 t :=
  (dat.before_in_eq_fetched 4 rfl (fun _ => rfl) (fun _ _ _ => rfl) (fun t => by rw [hafter]; unfold Dat.blockOf iblk1; rw [hA]; try rfl) t d).trans
    (by unfold Dat.fetched Dat.blockOf iblk1; rw [hA]; try rfl)

/-! ## The staging memrefs at a point, and the output's buffer after the body -/

/-- One staging buffer of the output window, through which its contents are stated (the choice does not matter:
    the stores cover the block). -/
abbrev VO1 : View sig .tc .vmem S512x1024 .f32 := (Memref.whole cc1_stg5_0 : Memref sig .tc .vmem S512x1024 .f32).view
abbrev ms1_0 (t : Fin cfg1.N) : Memref sig .tc .vmem S512x4096 .f32 := win1_0.stage (cfg1.slots t 0)
abbrev hs1_0 (t : Fin cfg1.N) : (ms1_0 t).IsWhole := hstage1_0 ((cfg1.slots t 0).cast nbuf1_0)
abbrev ms1_1 (t : Fin cfg1.N) : Memref sig .tc .vmem S1024x4096 .bf16 := win1_1.stage (cfg1.slots t 1)
abbrev hs1_1 (t : Fin cfg1.N) : (ms1_1 t).IsWhole := hstage1_1 ((cfg1.slots t 1).cast nbuf1_1)
abbrev ms1_2 (t : Fin cfg1.N) : Memref sig .tc .vmem S512x128 .f32 := win1_2.stage (cfg1.slots t 2)
abbrev hs1_2 (t : Fin cfg1.N) : (ms1_2 t).IsWhole := hstage1_2 ((cfg1.slots t 2).cast nbuf1_2)
abbrev ms1_3 (t : Fin cfg1.N) : Memref sig .tc .vmem S512x128 .f32 := win1_3.stage (cfg1.slots t 3)
abbrev hs1_3 (t : Fin cfg1.N) : (ms1_3 t).IsWhole := hstage1_3 ((cfg1.slots t 3).cast nbuf1_3)
abbrev ms1_4 (t : Fin cfg1.N) : Memref sig .tc .vmem S128 .f32 := win1_4.stage (cfg1.slots t 4)
abbrev hs1_4 (t : Fin cfg1.N) : (ms1_4 t).IsWhole := hstage1_4 ((cfg1.slots t 4).cast nbuf1_4)
abbrev ms1_5 (t : Fin cfg1.N) : Memref sig .tc .vmem S512x1024 .f32 := win1_5.stage (cfg1.slots t 5)
abbrev hs1_5 (t : Fin cfg1.N) : (ms1_5 t).IsWhole := hstage1_5 ((cfg1.slots t 5).cast nbuf1_5)

/-- The pieces the body's stores leave — four blocks of 128 columns and one of 512 — cut into blocks of 128 columns
    tile the output block, so they cover it. -/
theorem cover1 (c : Dev nD) (i : grid1.Coords) (arg1 : Memref sig .tc .vmem S512x4096 .f32) (harg1 : arg1.IsWhole) (arg2 : Memref sig .tc .vmem S1024x4096 .bf16) (harg2 : arg2.IsWhole) (arg3 : Memref sig .tc .vmem S512x128 .f32) (harg3 : arg3.IsWhole) (arg4 : Memref sig .tc .vmem S512x128 .f32) (harg4 : arg4.IsWhole) (arg5 : Memref sig .tc .vmem S128 .f32) (harg5 : arg5.IsWhole) (arg6 : Memref sig .tc .vmem S512x1024 .f32) (harg6 : arg6.IsWhole)
    (x0 : Vec F S512x4096 .f32) (x1 : Vec F S1024x4096 .bf16) (x2 : Vec F S512x128 .f32) (x3 : Vec F S512x128 .f32) (x4 : Vec F S128 .f32) (y : S512x1024.Idx) :
    ∃ pc ∈ (kvRun c i arg1 harg1 arg2 harg2 arg3 harg3 arg4 harg4 arg5 harg5 arg6 harg6 x0 x1 x2 x3 x4).1, y ∈ pc.1.set :=
  View.cover_of_tiledBy (kvRun c i arg1 harg1 arg2 harg2 arg3 harg3 arg4 harg4 arg5 harg5 arg6 harg6 x0 x1 x2 x3 x4).1 S512x128.size (by sl_kernel_rfl) y

/-- What the body leaves in the output's staging buffer at point `t`: the run's pieces, at the point's memrefs and
    the inputs' blocks, read back over contents that do not matter. -/
def out1 (c : Dev nD) (t : Fin cfg1.N) : Vec F S512x1024 .f32 :=
  VO1.read (Elt F) (VO1.writes (Elt F) VO1.junk
    (kvRun c (grid1.coords t) (ms1_0 t) (hs1_0 t) (ms1_1 t) (hs1_1 t) (ms1_2 t) (hs1_2 t) (ms1_3 t) (hs1_3 t) (ms1_4 t) (hs1_4 t) (ms1_5 t) (hs1_5 t)
      (iblk1 V c 0 t) (iblk1 V c 1 t) (iblk1 V c 2 t) (iblk1 V c 3 t) (iblk1 V c 4 t)).1)

/-! ## The pipeline's proof data -/

/-- The proof data of pipeline 1 on core `c`: the arrays as the region finds them (`V`); after the body at point
    `t` each input's buffer at what it held and the output's at `out1`; the invariant the scoped rest and the
    generator register, untouched; nothing owed; full shares. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => iblk1 V c 4 t
    | ⟨5, _⟩ => out1 V c t
  Φ _ := Pipeline.ΦA spec1 c
  q _ := fullShare
  owed _ := 0

/-- The proof data's arrays are the region-entry contents. -/
theorem A_eq1 (c : Dev nD) (w : Fin cfg1.W) : (dat1 V c).A w = V c (Pipeline.arrRef spec1 w) := by
  dsimp only [dat1]

/-- What the body leaves, window by window. -/
theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) : (dat1 V c).after 4 t = iblk1 V c 4 t := by dsimp only [dat1]
theorem after1_5 (c : Dev nD) (t : Fin cfg1.N) : (dat1 V c).after 5 t = out1 V c t := by dsimp only [dat1]

/-- Each input's current staging buffer holds its block at every point, fetched there or not. -/
theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d
theorem before1_3 (c : Dev nD) (t : Fin cfg1.N) (d) : (dat1 V c).before 3 t d = iblk1 V c 3 t :=
  before1_3_of V (dat1 V c) (A_eq1 V c 3) (after1_3 V c) t d
theorem before1_4 (c : Dev nD) (t : Fin cfg1.N) (d) : (dat1 V c).before 4 t d = iblk1 V c 4 t :=
  before1_4_of V (dat1 V c) (A_eq1 V c 4) (after1_4 V c) t d

end Region

end Cert.KernelIdeal.Fr

end
-- ==== Proof.KI.Body1.lean ====
/-
  Region 1's body obligation: at every point the body, handed each input's staging buffer at its block and the
  output's at anything, runs (the body's run, at the point's memrefs) to the inputs as they were and the output's
  buffer at the pieces its stores leave, which cover the block; the invariant and what the core owes pass through.
-/
import proofs.«167721_j61710090109455_2_alg».proof.Proof.KI.Data1

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Region
variable (V : (c : Dev nD) → (b : Ref sig .tc) → Buf (Elt F) ((c : Thread nD τ).loc b))

/-- What the body is called with at point `t` (the windows one by one), -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d))
    ∗ (∃ d, owns (c : Thread nD τ) (st1_4 t) fullShare ((dat1 V c).before 4 t d))
    ∗ (∃ d, owns (c : Thread nD τ) (st1_5 t) fullShare ((dat1 V c).before 5 t d)))

/-- and what it returns. -/
def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t)
    ∗ owns (c : Thread nD τ) (st1_3 t) fullShare ((dat1 V c).after 3 t)
    ∗ owns (c : Thread nD τ) (st1_4 t) fullShare ((dat1 V c).after 4 t)
    ∗ owns (c : Thread nD τ) (st1_5 t) fullShare ((dat1 V c).after 5 t))

set_option maxHeartbeats 1600000 in
/-- The body at any point: the inputs' memrefs hold their blocks, so the body's run applies; the output's buffer ends
    at the run's pieces over what it held, which read back as `out1` because the pieces cover the block. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3, before1_4]
  rw [show (dat1 V c).Φ t.succ = (dat1 V c).Φ t.castSucc from rfl,
    show (dat1 V c).owesAt () t.succ = (dat1 V c).owesAt () t.castSucc from rfl,
    after1_0, after1_1, after1_2, after1_3, after1_4, after1_5]
  unfold out1
  iintro ⟨HΦ, Ho, ⟨%d0, H0⟩, ⟨%d1, H1⟩, ⟨%d2, H2⟩, ⟨%d3, H3⟩, ⟨%d4, H4⟩, ⟨%d5, H5⟩⟩
  iapply ((kvRun c (grid1.coords t) _ _ _ _ _ _ _ _ _ _ _ _ (iblk1 V c 0 t) (iblk1 V c 1 t) (iblk1 V c 2 t) (iblk1 V c 3 t) (iblk1 V c 4 t)).2 _)
  isplitl [H0]; · iexact H0
  isplitl [H1]; · iexact H1
  isplitl [H2]; · iexact H2
  isplitl [H3]; · iexact H3
  isplitl [H4]; · iexact H4
  isplitl [H5]; · iexists _; iexact H5
  iintro ⟨H0, H1, H2, H3, H4, ⟨%e5, H5⟩⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  unfold owns; iexists _; isplitr
  swap; · iexact H5
  ipureintro; exact View.read_writes_of_cover _ _ _ _ _ (cover1 c _ _ _ _ _ _ _ _ _ _ _ _ _ _ _ _ _ _)

/-- The library's body obligation, at every point. -/
theorem body_obligation1 (c : Dev nD) : BodyObligation (dat1 (F := F) V c) (defs₀ (F := F)) Variants.none () Set.univ := fun t => by
  rw [bigSep_W1, bigSep_W1]
  exact sound_body1 V c t

end Region

end Cert.KernelIdeal.Fr

end
-- ==== Proof.KI.Boundary.lean ====
/-
  The buffers' contents at each boundary of @main's four segments — the conversion of the weights, the query
  kernel's region, the key/value kernel's region, the join of their results — as a fold from the launch memory:
  a host stretch's results by its operations, a region's arrays at what its write-backs leave. Each argument
  walks back through the fold to its launch contents; the result is the join of what the two regions leave; the
  second region is entered with the weights converted and everything else it reads as launched.
-/
import proofs.«167721_j61710090109455_2_alg».proof.Proof.KI.Body0
import proofs.«167721_j61710090109455_2_alg».proof.Proof.KI.Body1

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffer contents at each segment boundary -/

/-- Core `c`'s buffers at launch. -/
abbrev W0 : Dev nD → Valuation τ sig (Elt F) := fun c b => (s₀ m ρ).mem ((c : Dev nD), b)
/-- After the conversion of the weights (region 0's entry). -/
abbrev W1 : Dev nD → Valuation τ sig (Elt F) := fun c => StableHlo.after hostOps0 (W0 m ρ c)
/-- The same read at the TensorCore's references (what region 0's proof data take). -/
abbrev U1 : (c : Dev nD) → (b : Ref sig .tc) → Buf (Elt F) ((c : Thread nD τ).loc b) := fun c b => W1 m ρ c b
/-- At region 0's exit (region 1's entry): its arrays at what the pipeline leaves, every other buffer as entered. -/
def W2 (c : Dev nD) : Valuation τ sig (Elt F) :=
  Pipeline.withArrays spec0 c (W1 m ρ c) fun w => (dat0 (U1 m ρ) c).arrAt w cfg0.N
theorem W2_arr (c : Dev nD) (w : Fin cfg0.W) :
    W2 m ρ c (Proc.devRef .tc (Pipeline.arrRef spec0 w)) = (dat0 (U1 m ρ) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m ρ c (Proc.devRef .tc b) = W1 m ρ c (Proc.devRef .tc b) := by
  unfold W2; exact Pipeline.withArrays_of_ne spec0 c _ _ b hb
/-- The same read at the TensorCore's references (what region 1's proof data take). -/
abbrev U2 : (c : Dev nD) → (b : Ref sig .tc) → Buf (Elt F) ((c : Thread nD τ).loc b) := fun c b => W2 m ρ c b
theorem hF0 (c : Dev nD) (w : Fin cfg0.W) : (dat0 (U1 m ρ) c).arrAt w cfg0.N = U2 m ρ c (Pipeline.arrRef spec0 w) :=
  (W2_arr m ρ c w).symm
theorem hrest0 (c : Dev nD) : ∀ b, b ∉ Finset.univ.image (Pipeline.arrRef spec0) → U2 m ρ c b = U1 m ρ c b :=
  fun b hb => W2_of_ne m ρ c b fun w e => hb (Finset.mem_image.mpr ⟨w, Finset.mem_univ _, e⟩)

/-- At region 1's exit: its arrays at what the pipeline leaves, every other buffer as entered. -/
def W3 (c : Dev nD) : Valuation τ sig (Elt F) :=
  Pipeline.withArrays spec1 c (W2 m ρ c) fun w => (dat1 (U2 m ρ) c).arrAt w cfg1.N
theorem W3_arr (c : Dev nD) (w : Fin cfg1.W) :
    W3 m ρ c (Proc.devRef .tc (Pipeline.arrRef spec1 w)) = (dat1 (U2 m ρ) c).arrAt w cfg1.N := by
  unfold W3; exact Pipeline.withArrays_arr spec1 launch1.win.arr_inj c _ _ w
theorem W3_of_ne (c : Dev nD) (b : Ref sig .tc) (hb : ∀ w, Pipeline.arrRef spec1 w ≠ b) :
    W3 m ρ c (Proc.devRef .tc b) = W2 m ρ c (Proc.devRef .tc b) := by
  unfold W3; exact Pipeline.withArrays_of_ne spec1 c _ _ b hb
/-- The same read at the TensorCore's references (region 1's exit contents). -/
abbrev U3 : (c : Dev nD) → (b : Ref sig .tc) → Buf (Elt F) ((c : Thread nD τ).loc b) := fun c b => W3 m ρ c b
theorem hF1 (c : Dev nD) (w : Fin cfg1.W) : (dat1 (U2 m ρ) c).arrAt w cfg1.N = U3 m ρ c (Pipeline.arrRef spec1 w) :=
  (W3_arr m ρ c w).symm
theorem hrest1 (c : Dev nD) : ∀ b, b ∉ Finset.univ.image (Pipeline.arrRef spec1) → U3 m ρ c b = U2 m ρ c b :=
  fun b hb => W3_of_ne m ρ c b fun w e => hb (Finset.mem_image.mpr ⟨w, Finset.mem_univ _, e⟩)

/-- After the join of the two results: the contents @main returns with. -/
abbrev W4 : Dev nD → Valuation τ sig (Elt F) := fun c => StableHlo.after hostOps2 (W3 m ρ c)
/-- The last boundary's contents, by the name the run's statement uses. -/
abbrev Wfin : Dev nD → Valuation τ sig (Elt F) := W4 m ρ

/-! ## The arguments end as launched -/

theorem W4_main_arg0 (c : Dev nD) : W4 m ρ c (Proc.devRef .tc main_arg0) = m ((c : Thread nD τ).loc main_arg0) :=
  calc W4 m ρ c (Proc.devRef .tc main_arg0)
    _ = W3 m ρ c (Proc.devRef .tc main_arg0) := StableHlo.after_of_forall_not_mem (b := Proc.devRef .tc main_arg0) _ _ (List.forall_iff_forall_mem.mp (by
          simp only [hostOps2, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W2 m ρ c (Proc.devRef .tc main_arg0) := (W3_arr m ρ c 0).trans (((dat1 (U2 m ρ) c).arrAt_in 0 rfl _).trans (A_eq1 (U2 m ρ) c 0))
    _ = W1 m ρ c (Proc.devRef .tc main_arg0) := (W2_arr m ρ c 0).trans (((dat0 (U1 m ρ) c).arrAt_in 0 rfl _).trans (A_eq0 (U1 m ρ) c 0))
    _ = W0 m ρ c (Proc.devRef .tc main_arg0) := StableHlo.after_of_forall_not_mem (b := Proc.devRef .tc main_arg0) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg0) := rfl

theorem W4_main_arg1 (c : Dev nD) : W4 m ρ c (Proc.devRef .tc main_arg1) = m ((c : Thread nD τ).loc main_arg1) :=
  calc W4 m ρ c (Proc.devRef .tc main_arg1)
    _ = W3 m ρ c (Proc.devRef .tc main_arg1) := StableHlo.after_of_forall_not_mem (b := Proc.devRef .tc main_arg1) _ _ (List.forall_iff_forall_mem.mp (by
          simp only [hostOps2, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W2 m ρ c (Proc.devRef .tc main_arg1) := (W3_arr m ρ c 2).trans (((dat1 (U2 m ρ) c).arrAt_in 2 rfl _).trans (A_eq1 (U2 m ρ) c 2))
    _ = W1 m ρ c (Proc.devRef .tc main_arg1) := (W2_arr m ρ c 2).trans (((dat0 (U1 m ρ) c).arrAt_in 2 rfl _).trans (A_eq0 (U1 m ρ) c 2))
    _ = W0 m ρ c (Proc.devRef .tc main_arg1) := StableHlo.after_of_forall_not_mem (b := Proc.devRef .tc main_arg1) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg1) := rfl

theorem W4_main_arg2 (c : Dev nD) : W4 m ρ c (Proc.devRef .tc main_arg2) = m ((c : Thread nD τ).loc main_arg2) :=
  calc W4 m ρ c (Proc.devRef .tc main_arg2)
    _ = W3 m ρ c (Proc.devRef .tc main_arg2) := StableHlo.after_of_forall_not_mem (b := Proc.devRef .tc main_arg2) _ _ (List.forall_iff_forall_mem.mp (by
          simp only [hostOps2, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W2 m ρ c (Proc.devRef .tc main_arg2) := (W3_arr m ρ c 3).trans (((dat1 (U2 m ρ) c).arrAt_in 3 rfl _).trans (A_eq1 (U2 m ρ) c 3))
    _ = W1 m ρ c (Proc.devRef .tc main_arg2) := (W2_arr m ρ c 3).trans (((dat0 (U1 m ρ) c).arrAt_in 3 rfl _).trans (A_eq0 (U1 m ρ) c 3))
    _ = W0 m ρ c (Proc.devRef .tc main_arg2) := StableHlo.after_of_forall_not_mem (b := Proc.devRef .tc main_arg2) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg2) := rfl

theorem W4_main_arg3 (c : Dev nD) : W4 m ρ c (Proc.devRef .tc main_arg3) = m ((c : Thread nD τ).loc main_arg3) :=
  calc W4 m ρ c (Proc.devRef .tc main_arg3)
    _ = W3 m ρ c (Proc.devRef .tc main_arg3) := StableHlo.after_of_forall_not_mem (b := Proc.devRef .tc main_arg3) _ _ (List.forall_iff_forall_mem.mp (by
          simp only [hostOps2, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W2 m ρ c (Proc.devRef .tc main_arg3) := W3_of_ne m ρ c main_arg3 (by decide)
    _ = W1 m ρ c (Proc.devRef .tc main_arg3) := W2_of_ne m ρ c main_arg3 (by decide)
    _ = W0 m ρ c (Proc.devRef .tc main_arg3) := StableHlo.after_of_forall_not_mem (b := Proc.devRef .tc main_arg3) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg3) := rfl

theorem W4_main_arg4 (c : Dev nD) : W4 m ρ c (Proc.devRef .tc main_arg4) = m ((c : Thread nD τ).loc main_arg4) :=
  calc W4 m ρ c (Proc.devRef .tc main_arg4)
    _ = W3 m ρ c (Proc.devRef .tc main_arg4) := StableHlo.after_of_forall_not_mem (b := Proc.devRef .tc main_arg4) _ _ (List.forall_iff_forall_mem.mp (by
          simp only [hostOps2, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W2 m ρ c (Proc.devRef .tc main_arg4) := W3_of_ne m ρ c main_arg4 (by decide)
    _ = W1 m ρ c (Proc.devRef .tc main_arg4) := (W2_arr m ρ c 4).trans (((dat0 (U1 m ρ) c).arrAt_in 4 rfl _).trans (A_eq0 (U1 m ρ) c 4))
    _ = W0 m ρ c (Proc.devRef .tc main_arg4) := StableHlo.after_of_forall_not_mem (b := Proc.devRef .tc main_arg4) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg4) := rfl

theorem W4_main_arg5 (c : Dev nD) : W4 m ρ c (Proc.devRef .tc main_arg5) = m ((c : Thread nD τ).loc main_arg5) :=
  calc W4 m ρ c (Proc.devRef .tc main_arg5)
    _ = W3 m ρ c (Proc.devRef .tc main_arg5) := StableHlo.after_of_forall_not_mem (b := Proc.devRef .tc main_arg5) _ _ (List.forall_iff_forall_mem.mp (by
          simp only [hostOps2, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W2 m ρ c (Proc.devRef .tc main_arg5) := (W3_arr m ρ c 4).trans (((dat1 (U2 m ρ) c).arrAt_in 4 rfl _).trans (A_eq1 (U2 m ρ) c 4))
    _ = W1 m ρ c (Proc.devRef .tc main_arg5) := W2_of_ne m ρ c main_arg5 (by decide)
    _ = W0 m ρ c (Proc.devRef .tc main_arg5) := StableHlo.after_of_forall_not_mem (b := Proc.devRef .tc main_arg5) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg5) := rfl

/-! ## What the regions are entered with, and the result -/

/-- Region 0 is entered with the weights converted, -/
theorem U1_main_v0 (c : Dev nD) : U1 m ρ c main_v0 = truncf .bf16 (m ((c : Thread nD τ).loc main_arg3)) bitsLt_bf16_f32 := by
  show StableHlo.after hostOps0 (W0 m ρ c) (Proc.devRef .tc main_v0) = _
  after_results
/-- and so is region 1: the first region only reads them. -/
theorem U2_main_v0 (c : Dev nD) : U2 m ρ c main_v0 = truncf .bf16 (m ((c : Thread nD τ).loc main_arg3)) bitsLt_bf16_f32 :=
  ((W2_arr m ρ c 1).trans (((dat0 (U1 m ρ) c).arrAt_in 1 rfl _).trans (A_eq0 (U1 m ρ) c 1))).trans (U1_main_v0 m ρ c)
theorem U1_main_arg0 (c : Dev nD) : U1 m ρ c main_arg0 = m ((c : Thread nD τ).loc main_arg0) :=
  StableHlo.after_of_forall_not_mem (b := Proc.devRef .tc main_arg0) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
theorem U1_main_arg1 (c : Dev nD) : U1 m ρ c main_arg1 = m ((c : Thread nD τ).loc main_arg1) :=
  StableHlo.after_of_forall_not_mem (b := Proc.devRef .tc main_arg1) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
theorem U1_main_arg2 (c : Dev nD) : U1 m ρ c main_arg2 = m ((c : Thread nD τ).loc main_arg2) :=
  StableHlo.after_of_forall_not_mem (b := Proc.devRef .tc main_arg2) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
theorem U1_main_arg4 (c : Dev nD) : U1 m ρ c main_arg4 = m ((c : Thread nD τ).loc main_arg4) :=
  StableHlo.after_of_forall_not_mem (b := Proc.devRef .tc main_arg4) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
theorem U2_main_arg0 (c : Dev nD) : U2 m ρ c main_arg0 = m ((c : Thread nD τ).loc main_arg0) :=
  ((W2_arr m ρ c 0).trans (((dat0 (U1 m ρ) c).arrAt_in 0 rfl _).trans (A_eq0 (U1 m ρ) c 0))).trans (StableHlo.after_of_forall_not_mem (b := Proc.devRef .tc main_arg0) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide))))
theorem U2_main_arg1 (c : Dev nD) : U2 m ρ c main_arg1 = m ((c : Thread nD τ).loc main_arg1) :=
  ((W2_arr m ρ c 2).trans (((dat0 (U1 m ρ) c).arrAt_in 2 rfl _).trans (A_eq0 (U1 m ρ) c 2))).trans (StableHlo.after_of_forall_not_mem (b := Proc.devRef .tc main_arg1) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide))))
theorem U2_main_arg2 (c : Dev nD) : U2 m ρ c main_arg2 = m ((c : Thread nD τ).loc main_arg2) :=
  ((W2_arr m ρ c 3).trans (((dat0 (U1 m ρ) c).arrAt_in 3 rfl _).trans (A_eq0 (U1 m ρ) c 3))).trans (StableHlo.after_of_forall_not_mem (b := Proc.devRef .tc main_arg2) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide))))
theorem U2_main_arg5 (c : Dev nD) : U2 m ρ c main_arg5 = m ((c : Thread nD τ).loc main_arg5) :=
  (W2_of_ne m ρ c main_arg5 (by decide)).trans (StableHlo.after_of_forall_not_mem (b := Proc.devRef .tc main_arg5) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide))))

/-- The result is the join, along the columns, of what the two regions' write-backs leave in their result arrays. -/
theorem Wfin_main_v3 (c : Dev nD) :
    Wfin m ρ c (Proc.devRef .tc main_v3)
      = concatenate S16384x5120 1 [⟨S16384x4096, (dat0 (U1 m ρ) c).arrAt 5 cfg0.N⟩, ⟨S16384x1024, (dat1 (U2 m ρ) c).arrAt 5 cfg1.N⟩]
          concatenates_S16384x4096_S16384x1024_S16384x5120_d1 := by
  have h1 : W3 m ρ c (Proc.devRef .tc main_v1) = (dat0 (U1 m ρ) c).arrAt 5 cfg0.N :=
    (W3_of_ne m ρ c main_v1 (by decide)).trans (W2_arr m ρ c 5)
  have h2 : W3 m ρ c (Proc.devRef .tc main_v2) = (dat1 (U2 m ρ) c).arrAt 5 cfg1.N := W3_arr m ρ c 5
  show StableHlo.after hostOps2 (W3 m ρ c) (Proc.devRef .tc main_v3) = _
  after_results
  rw [h1, h2]

end Cert.KernelIdeal.Fr

end
-- ==== Proof.KI.Frame.lean ====
/-
  The run of @main as four segments over the thread state "every unscoped buffer at the boundary's contents, the
  generator register at some state, nothing owed": the two host stretches by their operations, the two kernel
  regions by their pipelines' proof data and body obligations. Every weakly fair execution terminates, and every
  final memory holds each unscoped buffer at the last boundary's contents.
-/
import proofs.«167721_j61710090109455_2_alg».proof.Proof.KI.Boundary

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The proof data family and the thread state -/

/-- The prefetched tables' admissible contents: no pipeline has a table. -/
abbrev adm : (p : Fin 2) → (pcfgs (F := F) p).Adm := fun p => (cfgs p).toPCfg_adm
/-- Every pipeline's proof data, each at its region's entry contents. -/
def pdats : (p : Fin 2) → (c : Dev nD) → Dat τ (Elt F) Unit ℕ (UR sig nD τ) ℕ (Pipeline.pin (pcfgs (F := F)) adm p) c
  | ⟨0, _⟩ => fun c => dat0 (U1 m ρ) c
  | ⟨1, _⟩ => fun c => dat1 (U2 m ρ) c
abbrev 𝒱₀ : Variants := Variants.none
/-- No core owes another anything: no level is assigned. -/
abbrev L : GSem nD τ sig → Finset Unit := fun _ => ∅
abbrev lv : GSem nD τ sig → Unit → ℕ := fun _ _ => 0
/-- What rides beside the buffers through every segment: the core's generator register at some state and its
    `owes`, at nothing. -/
abbrev R (c : Dev nD) : sProp 𝕄 := iprop((∃ r, prngReg c r) ∗ ∃ W, owes (c : Thread nD τ) (0 : CellTallies nD τ sig Unit) W)
/-- A host stretch as a segment over the unscoped references from the contents `W`, `R` riding along. -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

/-- No host operation allocates a buffer. -/
theorem hostOps0_fresh : (hostOps0 : List (HloOp τ sig (Elt F))).Forall fun op => op.fresh = ∅ := by
  simp only [List.Forall]; repeat' constructor
theorem hostOps2_fresh : (hostOps2 : List (HloOp τ sig (Elt F))).Forall fun op => op.fresh = ∅ := by
  simp only [List.Forall]; repeat' constructor
/-- The last thread state without the `owes`: every unscoped buffer at the last boundary's contents, the generator
    register at some state. -/
abbrev Tₙ (c : Dev nD) : sProp 𝕄 := iprop(StableHlo.held (c : Thread nD τ) (Pipeline.ucRefs τ sig) (W4 m ρ c) ∗ ∃ r, prngReg c r)

/-! ## The regions as segments -/

-- a library lemma stated over `pin pcs a p` unifies with the pinned configuration only when unification may unfold
-- plain definitions in a metavariable's type
set_option backward.isDefEq.respectTransparency.types false in
/-- REGION 0 (custom_call 0) over the thread state: entered from every unscoped buffer at `W1`, left at `W2`. Its
    arrays split out of the unscoped buffers and put back at the exit contents; the generator register into the
    invariant and out; nothing owed; no semaphore of the kernel's own. -/
def reg0 : Pipeline.RegionSeg (pcfgs (F := F)) adm (pdats m ρ) () defs₀ 𝒱₀ L lv 0 where
  win := launch0.win.to₀
  block_pos := launch0.block_pos
  stage_whole := launch0.stage_whole
  K := PEmpty
  osem k := k.elim
  ho := Pipeline.OwnSemFacts.none _
  hbody c := (body_obligation0 (U1 m ρ) c).loose
  hwaits := Pipeline.hwaits_of_owed_zero _ _ _ _ L lv 0 fun _ _ => rfl
  pre c := iprop(StableHlo.held (c : Thread nD τ) (Pipeline.ucRefs τ sig) (W1 m ρ c) ∗ R c)
  post c := iprop(StableHlo.held (c : Thread nD τ) (Pipeline.ucRefs τ sig) (W2 m ρ c) ∗ R c)
  X c := iprop(∃ r, prngReg c r)
  Y c := iprop(∃ r, prngReg c r)
  Z c := Pipeline.unscopedRest (Ix := Unit) (Name := ℕ) (U := UR sig nD τ) (Lvl := ℕ) spec0 c (U1 m ρ c)
  hentry c := by
    rw [Pipeline.ownSems0_none]
    have hsplit := Pipeline.arrays_of_unscopedBufs (p := 0) (pcfgs (F := F)) adm (pdats m ρ) launch0.win launch0.arr_whole c
      ((pdats m ρ 0 c).share_full fun _ => rfl) (U1 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m ρ 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m ρ) ((pdats m ρ 0 c).share_full fun _ => rfl)
      (U1 m ρ c) (U2 m ρ c) ((pdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

-- a library lemma stated over `pin pcs a p` unifies with the pinned configuration only when unification may unfold
-- plain definitions in a metavariable's type
set_option backward.isDefEq.respectTransparency.types false in
/-- REGION 1 (custom_call 1) over the thread state: entered from every unscoped buffer at `W2`, left at `W3`. Its
    arrays split out of the unscoped buffers and put back at the exit contents; the generator register into the
    invariant and out; nothing owed; no semaphore of the kernel's own. -/
def reg1 : Pipeline.RegionSeg (pcfgs (F := F)) adm (pdats m ρ) () defs₀ 𝒱₀ L lv 1 where
  win := launch1.win.to₀
  block_pos := launch1.block_pos
  stage_whole := launch1.stage_whole
  K := PEmpty
  osem k := k.elim
  ho := Pipeline.OwnSemFacts.none _
  hbody c := (body_obligation1 (U2 m ρ) c).loose
  hwaits := Pipeline.hwaits_of_owed_zero _ _ _ _ L lv 1 fun _ _ => rfl
  pre c := iprop(StableHlo.held (c : Thread nD τ) (Pipeline.ucRefs τ sig) (W2 m ρ c) ∗ R c)
  post c := iprop(StableHlo.held (c : Thread nD τ) (Pipeline.ucRefs τ sig) (W3 m ρ c) ∗ R c)
  X c := iprop(∃ r, prngReg c r)
  Y c := iprop(∃ r, prngReg c r)
  Z c := Pipeline.unscopedRest (Ix := Unit) (Name := ℕ) (U := UR sig nD τ) (Lvl := ℕ) spec1 c (U2 m ρ c)
  hentry c := by
    rw [Pipeline.ownSems0_none]
    have hsplit := Pipeline.arrays_of_unscopedBufs (p := 1) (pcfgs (F := F)) adm (pdats m ρ) launch1.win launch1.arr_whole c
      ((pdats m ρ 1 c).share_full fun _ => rfl) (U2 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m ρ 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m ρ) ((pdats m ρ 1 c).share_full fun _ => rfl)
      (U2 m ρ c) (U3 m ρ c) ((pdats m ρ 1 c).arrAt · cfg1.N) (hF1 m ρ c) (hrest1 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## @main as segments, and the launch -/

/-- @main's 4 segments in order. -/
abbrev segs : List (Pipeline.Seg (pcfgs (F := F)) adm (pdats m ρ) () defs₀ 𝒱₀ L lv) :=
  [ .host (hseg hostOps0 hostOps0_sub hostOps0_fresh (W0 m ρ)),
    .region (reg0 m ρ),
    .region (reg1 m ρ),
    .host (hseg hostOps2 hostOps2_sub hostOps2_fresh (W3 m ρ)) ]
/-- @main is the run of the segments. -/
theorem main_run (c : Dev nD) : main (F := F) c = Pipeline.Seg.run (segs m ρ) := (main_chain c).trans (by chain_rfl)

-- the launch theorem's implicit arguments are found by unifying its conclusion with this one, which takes unfolding plain
-- definitions in a metavariable's type
set_option backward.isDefEq.respectTransparency.types false in
/-- At the compiled mesh, from any memory with zero counters, every weakly fair execution of @main on the TensorCores
    terminates, nothing faulting, and every final memory holds every unscoped buffer at the last boundary's contents:
    the arguments as launched (`W4_main_argK`), the result at the join of the regions' results (`Wfin_main_v3`). -/
theorem run_main : θ_run defs (onTc (τ := τ) (main (F := F))) ⟨m, fun _ => 0, ρ⟩ (fun r => ∀ c : Dev nD,
      ∀ b ∈ Pipeline.ucRefs τ sig, r.2.mem (((c : Thread nD τ)).1, b) = Wfin m ρ c b) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun c => by
      show iprop(StableHlo.held (c : Thread nD τ) (Pipeline.ucRefs τ sig) (W4 m ρ c) ∗ R c)
        ⊢ iprop(Tₙ m ρ c ∗ ∃ W, owes (c : Thread nD τ) (0 : CellTallies nD τ sig Unit) W)
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W4 m ρ c b)
    (hfin := fun c s' => by
      iintro ⟨⟨Hh, -⟩, HSI⟩
      unfold StableHlo.held
      imodintro
      iapply (pointsTo_read_all (Pipeline.ucRefs τ sig) (fun b => (((c : Thread nD τ)).1, b)) (W4 m ρ c) s')
      isplitl [Hh] <;> iassumption)
    (hQ := fun s h => h)

/-- An unscoped TensorCore reference is among those the final memory is read at. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩

end Cert.KernelIdeal.Fr

end
-- ==== Proof.KI.FrameClaim.lean ====
/-
  The frame claim's post from the run's: the final memory holds every unscoped buffer at the last boundary's
  contents, and there each argument array holds what it was launched with.
-/
import proofs.«167721_j61710090109455_2_alg».proof.Proof.KI.Frame

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- Every weakly fair execution of @main terminates, nothing faulting, and every final memory has the six argument
    arrays as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  (θ_run defs _ _).mono (fun _ h c =>
    ⟨(h c _ (mem_uc main_arg0 (by decide))).trans (W4_main_arg0 m ρ c),
      (h c _ (mem_uc main_arg1 (by decide))).trans (W4_main_arg1 m ρ c),
      (h c _ (mem_uc main_arg2 (by decide))).trans (W4_main_arg2 m ρ c),
      (h c _ (mem_uc main_arg3 (by decide))).trans (W4_main_arg3 m ρ c),
      (h c _ (mem_uc main_arg4 (by decide))).trans (W4_main_arg4 m ρ c),
      (h c _ (mem_uc main_arg5 (by decide))).trans (W4_main_arg5 m ρ c)⟩) (run_main m ρ)

end Cert.KernelIdeal.Fr

end
-- ==== Proof.PayHead.lean ====
/-
  One attention head's row, as the kernels compute it, read at an index.

  A head is a block x of 128 columns. Its row p is scaled by the reciprocal root of the mean square of the row
  plus a stabiliser, multiplied by the weight g, and then rotated: the result at column d is
      r d · sin[p,d] + y d · cos[p,d],   y d = x[p,d] · rsqrt ((∑ d', x[p,d']²) / 128 + ε) · g d,
      r d = −y (d + 64) for d < 64,  r d = y (d − 64) otherwise.
  The kernels spell the negation as 0 − y, the row sum as a lane reduction kept as a column [n,1] and broadcast back
  over the 128 columns, the weight as a row [1,128] broadcast over the n rows, and the rotation as two column slices
  joined in the other order. The lemmas here read each of those steps at an index (p, d) and assemble them into the
  specification's function of the row  d' ↦ x[p,d'].
-/
import Idealize.ShloMosaic.PureOps.Ideal.Laws
import Idealize.ShloMosaic.Lib.ValueLayout
import proofs.«167721_j61710090109455_2_alg».proof.Proof.Spec

noncomputable section

namespace Cert.KernelPay

open Idealize.ShloMosaic Idealize.ShloMosaic.ValueIdx
open scoped BigOperators

/-! ## The keepdims layout forms read at an index -/

section Layout
variable {α : Type}

/-- A vector `[a]` cast to the column `[a, 1]` reads, at `(i, u)`, the vector at `i`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- A column `[a, 1]` broadcast over `b` columns reads, at `(p, c)`, the column at row `p`. -/
theorem broadcastTo_a1_ab_apply {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

end Layout

/-! ## The mean square under the root -/

/-- The column the kernels take the root of, at row `p`: the row's sum of squares over the float 128, plus the
stabiliser. The lane sum reads as a sum over the 128 columns, and the column form `[n, 1]` reads the vector at `p`. -/
theorem meanSq_apply {n : ℕ} (x : FVec Ideal ⟨2, ![n, 128]⟩ .f32)
    (hred : (⟨2, ![n, 128]⟩ : Shape).Reduces [1] ⟨1, ![n]⟩) (hφ : FKind.Formats .f32)
    (hacc : (0x00000000#32 : BitVec 32) = FKind.add.neutral .f32 hφ)
    (hsc : (⟨1, ![n]⟩ : Shape).ShapeCasts ⟨2, ![n, 1]⟩) (p : Fin n) (u : Fin 1) :
    addf (divf (shapeCast ⟨2, ![n, 1]⟩ (multiReduction .add [1] ⟨1, ![n]⟩ (mulf x x) 0x00000000#32 hred hφ hacc) hsc)
        (broadcast ⟨2, ![n, 1]⟩ (FloatOps.ofBits (F := Ideal) .f32 0x43000000#32)))
      (broadcast ⟨2, ![n, 1]⟩ (FloatOps.ofBits (F := Ideal) .f32 0x358637BD#32)) (ix2 p u)
    = Ideal.div (∑ d' : Fin 128, x (ix2 p d') * x (ix2 p d')) Spec.c128 + Spec.eps := by
  have hl : ∀ k : Fin 128, hred.lift (ix1 p) k = ix2 p k := fun k => funext fun c =>
    match c with
    | ⟨0, _⟩ => Fin.ext rfl
    | ⟨1, _⟩ => Fin.ext rfl
  rw [addf_apply, divf_apply, broadcast_apply, broadcast_apply, shapeCast_a_a1_apply,
    Ideal.multiReduction_add_single]
  show Ideal.div (∑ k : Fin 128, x (hred.lift (ix1 p) k) * x (hred.lift (ix1 p) k)) Spec.c128 + Spec.eps = _
  simp only [hl]

/-! ## The normalised, weighted row -/

/-- The head's block times the broadcast reciprocal root times the broadcast weight, at `(p, d)`. -/
theorem scaled_apply {n : ℕ} (x : FVec Ideal ⟨2, ![n, 128]⟩ .f32) (r : FVec Ideal ⟨2, ![n, 1]⟩ .f32)
    (v7 : FVec Ideal ⟨1, ![128]⟩ .f32)
    (hb1 : (⟨2, ![n, 1]⟩ : Shape).Broadcasts ⟨2, ![n, 128]⟩)
    (hsc : (⟨1, ![128]⟩ : Shape).ShapeCasts ⟨2, ![1, 128]⟩)
    (hb2 : (⟨2, ![1, 128]⟩ : Shape).Broadcasts ⟨2, ![n, 128]⟩) (p : Fin n) (d : Fin 128) :
    mulf (mulf x (broadcastTo ⟨2, ![n, 128]⟩ (rsqrt r) hb1))
        (broadcastTo ⟨2, ![n, 128]⟩ (shapeCast ⟨2, ![1, 128]⟩ v7 hsc) hb2) (ix2 p d)
    = x (ix2 p d) * Ideal.rsqrt (r (ix2 p (0 : Fin 1))) * v7 (ix1 d) := by
  rw [mulf_apply, mulf_apply, broadcastTo_a1_ab_apply, broadcastTo_1b_ab_apply, shapeCast_a_1a_apply]
  rfl

/-! ## The half-rotation -/

/-- The rotated sum at `(p, d)`: the join of `0 − (columns 64…127)` and `columns 0…63` reads the half-rotation of
the row, and the two products and the sum are pointwise. -/
theorem rot_apply {n : ℕ} (Y v5 v6 : FVec Ideal ⟨2, ![n, 128]⟩ .f32)
    (hs0 : (⟨2, ![n, 128]⟩ : Shape).Slices ![0, 0] ⟨2, ![n, 64]⟩)
    (hs64 : (⟨2, ![n, 128]⟩ : Shape).Slices ![0, 64] ⟨2, ![n, 64]⟩)
    (hc : Shape.Concatenates [(⟨2, ![n, 64]⟩ : Shape), ⟨2, ![n, 64]⟩] ⟨2, ![n, 128]⟩ 1)
    (p : Fin n) (d : Fin 128) :
    addf (mulf (concatenate ⟨2, ![n, 128]⟩ 1
          [⟨⟨2, ![n, 64]⟩, subf (broadcast ⟨2, ![n, 64]⟩ (FloatOps.ofBits (F := Ideal) .f32 0x00000000#32))
              (extractStridedSlice ⟨2, ![n, 64]⟩ ![0, 64] Y hs64)⟩,
           ⟨⟨2, ![n, 64]⟩, extractStridedSlice ⟨2, ![n, 64]⟩ ![0, 0] Y hs0⟩] hc) v5) (mulf Y v6) (ix2 p d)
    = Spec.rotHalf (fun d' => Y (ix2 p d')) d * v5 (ix2 p d) + Y (ix2 p d) * v6 (ix2 p d) := by
  rw [addf_apply, mulf_apply, mulf_apply]
  refine congrArg (fun z => z * v5 (ix2 p d) + Y (ix2 p d) * v6 (ix2 p d)) ?_
  unfold Spec.rotHalf
  by_cases hd : d.val < 64
  · rw [dif_pos hd]
    refine (concatenate_pair_apply_left (t := ⟨2, ![n, 128]⟩) (s₁ := ⟨2, ![n, 64]⟩) (s₂ := ⟨2, ![n, 64]⟩) (1 : Fin 2) _ _ hc (ix2 p d) rfl (ix2 p (⟨d.val, hd⟩ : Fin 64))
      (fun b => ?_)).trans ?_
    · match b with
      | ⟨0, _⟩ => rfl
      | ⟨1, _⟩ => rfl
    · rw [subf_apply, broadcast_apply,
        slice2_axis1_apply 64 Y hs64 p ⟨d.val, hd⟩ ⟨d.val + 64, by omega⟩ (Nat.add_comm _ _)]
      show Ideal.ofBits .f32 0x00000000#32 - _ = _
      rw [Ideal.ofBits_zero_f32, zero_sub]
  · rw [dif_neg hd]
    have hd' : d.val - 64 < 64 := by have := d.isLt; omega
    refine (concatenate_pair_apply_right (t := ⟨2, ![n, 128]⟩) (s₁ := ⟨2, ![n, 64]⟩) (s₂ := ⟨2, ![n, 64]⟩) (1 : Fin 2) _ _ hc (ix2 p d) rfl rfl
      (ix2 p (⟨d.val - 64, hd'⟩ : Fin 64)) (fun b hb => ?_) ?_).trans ?_
    · match b with
      | ⟨0, _⟩ => rfl
      | ⟨1, _⟩ => exact absurd rfl hb
    · show d.val - 64 + 64 = d.val
      omega
    · exact slice2_axis1_apply 0 Y hs0 p ⟨d.val - 64, hd'⟩ ⟨d.val - 64, by omega⟩ (Nat.zero_add _).symm

/-! ## A head's stored block -/

/-- When the weighted block's row `p` is the specification's normalised row of `X` with weight `g`, the rotated sum
at `(p, d)` is the specification's rotated row. -/
theorem rope_of_normed {n : ℕ} (Y v5 v6 : FVec Ideal ⟨2, ![n, 128]⟩ .f32)
    (hs0 : (⟨2, ![n, 128]⟩ : Shape).Slices ![0, 0] ⟨2, ![n, 64]⟩)
    (hs64 : (⟨2, ![n, 128]⟩ : Shape).Slices ![0, 64] ⟨2, ![n, 64]⟩)
    (hc : Shape.Concatenates [(⟨2, ![n, 64]⟩ : Shape), ⟨2, ![n, 64]⟩] ⟨2, ![n, 128]⟩ 1)
    (p : Fin n) (d : Fin 128) (X g : Fin 128 → EReal) (hY : ∀ d', Y (ix2 p d') = Spec.normed X g d') :
    addf (mulf (concatenate ⟨2, ![n, 128]⟩ 1
          [⟨⟨2, ![n, 64]⟩, subf (broadcast ⟨2, ![n, 64]⟩ (FloatOps.ofBits (F := Ideal) .f32 0x00000000#32))
              (extractStridedSlice ⟨2, ![n, 64]⟩ ![0, 64] Y hs64)⟩,
           ⟨⟨2, ![n, 64]⟩, extractStridedSlice ⟨2, ![n, 64]⟩ ![0, 0] Y hs0⟩] hc) v5) (mulf Y v6) (ix2 p d)
    = Spec.rope X (fun d => v5 (ix2 p d)) (fun d => v6 (ix2 p d)) g d := by
  rw [rot_apply, show (fun d' => Y (ix2 p d')) = Spec.normed X g from funext hY, hY d]
  rfl

/-- A head's stored block from its slice `x` of the projection and the column `r` under the root, when `r` at row
`p` is the row's mean square plus the stabiliser: the specification's function of the row `d' ↦ x[p, d']`. -/
theorem headTail_apply {n : ℕ} (x : FVec Ideal ⟨2, ![n, 128]⟩ .f32) (r : FVec Ideal ⟨2, ![n, 1]⟩ .f32)
    (v5 v6 : FVec Ideal ⟨2, ![n, 128]⟩ .f32) (v7 : FVec Ideal ⟨1, ![128]⟩ .f32)
    (hb1 : (⟨2, ![n, 1]⟩ : Shape).Broadcasts ⟨2, ![n, 128]⟩)
    (hsc : (⟨1, ![128]⟩ : Shape).ShapeCasts ⟨2, ![1, 128]⟩)
    (hb2 : (⟨2, ![1, 128]⟩ : Shape).Broadcasts ⟨2, ![n, 128]⟩)
    (hs0 : (⟨2, ![n, 128]⟩ : Shape).Slices ![0, 0] ⟨2, ![n, 64]⟩)
    (hs64 : (⟨2, ![n, 128]⟩ : Shape).Slices ![0, 64] ⟨2, ![n, 64]⟩)
    (hc : Shape.Concatenates [(⟨2, ![n, 64]⟩ : Shape), ⟨2, ![n, 64]⟩] ⟨2, ![n, 128]⟩ 1)
    (p : Fin n) (d : Fin 128)
    (hr : r (ix2 p (0 : Fin 1))
      = Ideal.div (∑ d' : Fin 128, x (ix2 p d') * x (ix2 p d')) Spec.c128 + Spec.eps) :
    addf (mulf (concatenate ⟨2, ![n, 128]⟩ 1
          [⟨⟨2, ![n, 64]⟩, subf (broadcast ⟨2, ![n, 64]⟩ (FloatOps.ofBits (F := Ideal) .f32 0x00000000#32))
              (extractStridedSlice ⟨2, ![n, 64]⟩ ![0, 64]
                (mulf (mulf x (broadcastTo ⟨2, ![n, 128]⟩ (rsqrt r) hb1))
                  (broadcastTo ⟨2, ![n, 128]⟩ (shapeCast ⟨2, ![1, 128]⟩ v7 hsc) hb2)) hs64)⟩,
           ⟨⟨2, ![n, 64]⟩, extractStridedSlice ⟨2, ![n, 64]⟩ ![0, 0]
                (mulf (mulf x (broadcastTo ⟨2, ![n, 128]⟩ (rsqrt r) hb1))
                  (broadcastTo ⟨2, ![n, 128]⟩ (shapeCast ⟨2, ![1, 128]⟩ v7 hsc) hb2)) hs0⟩] hc) v5)
        (mulf (mulf (mulf x (broadcastTo ⟨2, ![n, 128]⟩ (rsqrt r) hb1))
                  (broadcastTo ⟨2, ![n, 128]⟩ (shapeCast ⟨2, ![1, 128]⟩ v7 hsc) hb2)) v6) (ix2 p d)
    = Spec.rope (fun d' => x (ix2 p d')) (fun d => v5 (ix2 p d)) (fun d => v6 (ix2 p d)) (fun d => v7 (ix1 d)) d :=
  rope_of_normed _ v5 v6 hs0 hs64 hc p d _ _ fun d' => by
    rw [scaled_apply, hr]
    rfl

/-- The same with the column under the root computed from the slice itself. -/
theorem headFull_apply {n : ℕ} (x : FVec Ideal ⟨2, ![n, 128]⟩ .f32)
    (v5 v6 : FVec Ideal ⟨2, ![n, 128]⟩ .f32) (v7 : FVec Ideal ⟨1, ![128]⟩ .f32)
    (hred : (⟨2, ![n, 128]⟩ : Shape).Reduces [1] ⟨1, ![n]⟩) (hφ : FKind.Formats .f32)
    (hacc : (0x00000000#32 : BitVec 32) = FKind.add.neutral .f32 hφ)
    (hsc1 : (⟨1, ![n]⟩ : Shape).ShapeCasts ⟨2, ![n, 1]⟩)
    (hb1 : (⟨2, ![n, 1]⟩ : Shape).Broadcasts ⟨2, ![n, 128]⟩)
    (hsc : (⟨1, ![128]⟩ : Shape).ShapeCasts ⟨2, ![1, 128]⟩)
    (hb2 : (⟨2, ![1, 128]⟩ : Shape).Broadcasts ⟨2, ![n, 128]⟩)
    (hs0 : (⟨2, ![n, 128]⟩ : Shape).Slices ![0, 0] ⟨2, ![n, 64]⟩)
    (hs64 : (⟨2, ![n, 128]⟩ : Shape).Slices ![0, 64] ⟨2, ![n, 64]⟩)
    (hc : Shape.Concatenates [(⟨2, ![n, 64]⟩ : Shape), ⟨2, ![n, 64]⟩] ⟨2, ![n, 128]⟩ 1)
    (p : Fin n) (d : Fin 128) :
    addf (mulf (concatenate ⟨2, ![n, 128]⟩ 1
          [⟨⟨2, ![n, 64]⟩, subf (broadcast ⟨2, ![n, 64]⟩ (FloatOps.ofBits (F := Ideal) .f32 0x00000000#32))
              (extractStridedSlice ⟨2, ![n, 64]⟩ ![0, 64]
                (mulf (mulf x (broadcastTo ⟨2, ![n, 128]⟩ (rsqrt
                    (addf (divf (shapeCast ⟨2, ![n, 1]⟩ (multiReduction .add [1] ⟨1, ![n]⟩ (mulf x x) 0x00000000#32 hred hφ hacc) hsc1)
                        (broadcast ⟨2, ![n, 1]⟩ (FloatOps.ofBits (F := Ideal) .f32 0x43000000#32)))
                      (broadcast ⟨2, ![n, 1]⟩ (FloatOps.ofBits (F := Ideal) .f32 0x358637BD#32)))) hb1))
                  (broadcastTo ⟨2, ![n, 128]⟩ (shapeCast ⟨2, ![1, 128]⟩ v7 hsc) hb2)) hs64)⟩,
           ⟨⟨2, ![n, 64]⟩, extractStridedSlice ⟨2, ![n, 64]⟩ ![0, 0]
                (mulf (mulf x (broadcastTo ⟨2, ![n, 128]⟩ (rsqrt
                    (addf (divf (shapeCast ⟨2, ![n, 1]⟩ (multiReduction .add [1] ⟨1, ![n]⟩ (mulf x x) 0x00000000#32 hred hφ hacc) hsc1)
                        (broadcast ⟨2, ![n, 1]⟩ (FloatOps.ofBits (F := Ideal) .f32 0x43000000#32)))
                      (broadcast ⟨2, ![n, 1]⟩ (FloatOps.ofBits (F := Ideal) .f32 0x358637BD#32)))) hb1))
                  (broadcastTo ⟨2, ![n, 128]⟩ (shapeCast ⟨2, ![1, 128]⟩ v7 hsc) hb2)) hs0⟩] hc) v5)
        (mulf (mulf (mulf x (broadcastTo ⟨2, ![n, 128]⟩ (rsqrt
                    (addf (divf (shapeCast ⟨2, ![n, 1]⟩ (multiReduction .add [1] ⟨1, ![n]⟩ (mulf x x) 0x00000000#32 hred hφ hacc) hsc1)
                        (broadcast ⟨2, ![n, 1]⟩ (FloatOps.ofBits (F := Ideal) .f32 0x43000000#32)))
                      (broadcast ⟨2, ![n, 1]⟩ (FloatOps.ofBits (F := Ideal) .f32 0x358637BD#32)))) hb1))
                  (broadcastTo ⟨2, ![n, 128]⟩ (shapeCast ⟨2, ![1, 128]⟩ v7 hsc) hb2)) v6) (ix2 p d)
    = Spec.rope (fun d' => x (ix2 p d')) (fun d => v5 (ix2 p d)) (fun d => v6 (ix2 p d)) (fun d => v7 (ix1 d)) d :=
  headTail_apply x _ v5 v6 v7 hb1 hsc hb2 hs0 hs64 hc p d (meanSq_apply x hred hφ hacc hsc1 p 0)

end Cert.KernelPay

end
-- ==== Proof.PayQ.lean ====
/-
  The query kernel's 32 stored blocks read at an index.

  A block of 64 tokens (rows of v0) is multiplied against the 4096 query rows of the weight (v2); the product's
  4096 columns are 32 query heads of 128 columns, each normalised, weighted and rotated. Each stored block at
  (p, d) is the specification's function of token p's row of the product over the head's 128 columns.
-/
import proofs.«167721_j61710090109455_2_alg».proof.Proof.Gen.KernelIdeal.Skeleton
import proofs.«167721_j61710090109455_2_alg».proof.Proof.PayHead

noncomputable section

namespace Cert.KernelPay

open Idealize.ShloMosaic Idealize.ShloMosaic.ValueIdx Cert.KernelIdeal Cert.KernelIdeal.Gen
open scoped BigOperators

/-! ## The product at an index -/

theorem q_lhs0 (i : S64x4096.Idx) (q : dot_S64x4096_S4096x4096_S64x4096_1_1_0_0_n_n.contr.Idx) :
    (dot_S64x4096_S4096x4096_S64x4096_1_1_0_0_n_n.lhsIdx i q 0).val = (i 0).val := by
  unfold DotDims.lhsIdx
  rw [dif_neg (show ¬(0 : Fin S64x4096.rank) ∈ dot_S64x4096_S4096x4096_S64x4096_1_1_0_0_n_n.lhsBatch by decide),
    dif_pos (show (0 : Fin S64x4096.rank) ∈ dot_S64x4096_S4096x4096_S64x4096_1_1_0_0_n_n.lhsNonContracting by decide)]
  rfl
theorem q_lhs1 (i : S64x4096.Idx) (q : dot_S64x4096_S4096x4096_S64x4096_1_1_0_0_n_n.contr.Idx) :
    (dot_S64x4096_S4096x4096_S64x4096_1_1_0_0_n_n.lhsIdx i q 1).val = (q ⟨0, by decide⟩).val :=
  dot_S64x4096_S4096x4096_S64x4096_1_1_0_0_n_n.lhsIdx_val_of_single rfl i q
theorem q_rhs0 (i : S64x4096.Idx) (q : dot_S64x4096_S4096x4096_S64x4096_1_1_0_0_n_n.contr.Idx) :
    (dot_S64x4096_S4096x4096_S64x4096_1_1_0_0_n_n.rhsIdx i q 0).val = (i 1).val := by
  unfold DotDims.rhsIdx
  rw [dif_neg (show ¬(0 : Fin S4096x4096.rank) ∈ dot_S64x4096_S4096x4096_S64x4096_1_1_0_0_n_n.rhsBatch by decide),
    dif_pos (show (0 : Fin S4096x4096.rank) ∈ dot_S64x4096_S4096x4096_S64x4096_1_1_0_0_n_n.rhsNonContracting by decide)]
  rfl
theorem q_rhs1 (i : S64x4096.Idx) (q : dot_S64x4096_S4096x4096_S64x4096_1_1_0_0_n_n.contr.Idx) :
    (dot_S64x4096_S4096x4096_S64x4096_1_1_0_0_n_n.rhsIdx i q 1).val = (q ⟨0, by decide⟩).val :=
  dot_S64x4096_S4096x4096_S64x4096_1_1_0_0_n_n.rhsIdx_val_of_single rfl i q

/-- The product block at `(p, e)`: token `p`'s row against weight row `e` (the narrowing to bf16 is the identity
on the extended reals, and the accumulator is zero). -/
theorem q_mm_apply (v0 : Vec Ideal S64x4096 .f32) (v2 : Vec Ideal S4096x4096 .bf16) (p : Fin 64) (e : Fin 4096) :
    k0_pay2 v0 v2 (ix2 p e) = ∑ k : Fin 4096, v0 (ix2 p k) * v2 (ix2 e k) := by
  unfold k0_pay2
  show FloatOps.matmul (F := Ideal) (φ₁ := .bf16) (φ₂ := .bf16) dot_S64x4096_S4096x4096_S64x4096_1_1_0_0_n_n none
      (truncf .bf16 (v0 : FVec Ideal S64x4096 .f32) bitsLt_bf16_f32)
      (shapeCast S4096x4096 (v2 : FVec Ideal S4096x4096 .bf16) shapeCasts_S4096x4096_S4096x4096)
      (constant S64x4096 .f32 0x00000000#32) (ix2 p e) = _
  rw [shapeCast_self, Ideal.matmul_constant_zero_apply,
    ← Equiv.sum_comp (contrEquiv1 dot_S64x4096_S4096x4096_S64x4096_1_1_0_0_n_n 4096 rfl rfl).symm]
  refine Finset.sum_congr rfl fun k _ => ?_
  have hk := contrEquiv1_symm_val dot_S64x4096_S4096x4096_S64x4096_1_1_0_0_n_n 4096 rfl rfl k
  have el : dot_S64x4096_S4096x4096_S64x4096_1_1_0_0_n_n.lhsIdx (ix2 p e) ((contrEquiv1 dot_S64x4096_S4096x4096_S64x4096_1_1_0_0_n_n 4096 rfl rfl).symm k) = ix2 p k :=
    funext fun a => Fin.ext (by
      match a with
      | ⟨0, _⟩ => exact q_lhs0 _ _
      | ⟨1, _⟩ => exact (q_lhs1 _ _).trans hk)
  have er : dot_S64x4096_S4096x4096_S64x4096_1_1_0_0_n_n.rhsIdx (ix2 p e) ((contrEquiv1 dot_S64x4096_S4096x4096_S64x4096_1_1_0_0_n_n 4096 rfl rfl).symm k) = ix2 e k :=
    funext fun a => Fin.ext (by
      match a with
      | ⟨0, _⟩ => exact q_rhs0 _ _
      | ⟨1, _⟩ => exact (q_rhs1 _ _).trans hk)
  rw [el, er]
  rfl

/-- A 128-column slice of the product at `(p, d')`: token `p`'s row against weight row `off + d'`. -/
theorem q_slice_apply (v0 : Vec Ideal S64x4096 .f32) (v2 : Vec Ideal S4096x4096 .bf16) (off : Nat)
    (hoff : off + 128 ≤ 4096) (h : S64x4096.Slices ![0, off] S64x128) (p : Fin 64) (d' : Fin 128) :
    extractStridedSlice S64x128 ![0, off] (k0_pay2 v0 v2) h (ix2 p d')
      = ∑ k : Fin 4096, v0 (ix2 p k) * v2 (ix2 (⟨off + d'.val, by omega⟩ : Fin 4096) k) :=
  (slice2_axis1_eq off (k0_pay2 v0 v2) h p d').trans (q_mm_apply v0 v2 p _)

/-! ## The 32 query heads -/

/-- Query head 0 (columns 0…127 of the block). -/
theorem q_store0 (v0 : Vec Ideal S64x4096 .f32) (v2 : Vec Ideal S4096x4096 .bf16)
    (v5 v6 : Vec Ideal S64x128 .f32) (v7 : Vec Ideal S128 .f32) (p : Fin 64) (d : Fin 128) :
    k0_pay3 v0 v2 v5 v6 v7 (ix2 p d)
      = Spec.rope (fun d' => ∑ k : Fin 4096, v0 (ix2 p k) * v2 (ix2 (⟨0 + d'.val, by omega⟩ : Fin 4096) k))
          (fun d => v5 (ix2 p d)) (fun d => v6 (ix2 p d)) (fun d => v7 (ix1 d)) d := by
  have h := headFull_apply (n := 64)
      (extractStridedSlice S64x128 ![0, 0] (k0_pay2 v0 v2) slices_S64x4096_o0_0_S64x128)
      v5 v6 v7 reduces_S64x128_S64 (.inl rfl) rfl shapeCasts_S64_S64x1 broadcasts_S64x1_S64x128
      shapeCasts_S128_S1x128 broadcasts_S1x128_S64x128 slices_S64x128_o0_0_S64x64 slices_S64x128_o0_64_S64x64
      concatenates_S64x64_S64x64_S64x128_d1 p d
  unfold k0_pay3
  refine h.trans ?_
  exact congrArg (fun X => Spec.rope X (fun d => v5 (ix2 p d)) (fun d => v6 (ix2 p d)) (fun d => v7 (ix1 d)) d)
    (funext fun d' => q_slice_apply v0 v2 0 (by norm_num) _ p d')

/-- Query head 1 (columns 128…255): its slice of the product and the column under the root are computed in
the part before and passed along. -/
theorem q_store1 (v0 : Vec Ideal S64x4096 .f32) (v2 : Vec Ideal S4096x4096 .bf16)
    (v5 v6 : Vec Ideal S64x128 .f32) (v7 : Vec Ideal S128 .f32) (p : Fin 64) (d : Fin 128) :
    k0_pay6 v5 v6 v7 (k0_pay4 v0 v2) (k0_pay5 v0 v2) (ix2 p d)
      = Spec.rope (fun d' => ∑ k : Fin 4096, v0 (ix2 p k) * v2 (ix2 (⟨128 + d'.val, by omega⟩ : Fin 4096) k))
          (fun d => v5 (ix2 p d)) (fun d => v6 (ix2 p d)) (fun d => v7 (ix1 d)) d := by
  have hr : k0_pay5 v0 v2 (ix2 p (0 : Fin 1))
      = Ideal.div (∑ d' : Fin 128, k0_pay4 v0 v2 (ix2 p d') * k0_pay4 v0 v2 (ix2 p d')) Spec.c128
        + Spec.eps := by
    have h := meanSq_apply (n := 64) (k0_pay4 v0 v2) reduces_S64x128_S64 (.inl rfl) rfl shapeCasts_S64_S64x1 p 0
    unfold k0_pay5
    exact h
  have h := headTail_apply (n := 64) (k0_pay4 v0 v2) (k0_pay5 v0 v2) v5 v6 v7 broadcasts_S64x1_S64x128
      shapeCasts_S128_S1x128 broadcasts_S1x128_S64x128 slices_S64x128_o0_0_S64x64 slices_S64x128_o0_64_S64x64
      concatenates_S64x64_S64x64_S64x128_d1 p d hr
  unfold k0_pay6
  refine h.trans ?_
  exact congrArg (fun X => Spec.rope X (fun d => v5 (ix2 p d)) (fun d => v6 (ix2 p d)) (fun d => v7 (ix1 d)) d)
    (funext fun d' => by
      unfold k0_pay4
      exact q_slice_apply v0 v2 128 (by norm_num) _ p d')

/-- Query head 2 (columns 256…383 of the block). -/
theorem q_store2 (v0 : Vec Ideal S64x4096 .f32) (v2 : Vec Ideal S4096x4096 .bf16)
    (v5 v6 : Vec Ideal S64x128 .f32) (v7 : Vec Ideal S128 .f32) (p : Fin 64) (d : Fin 128) :
    k0_pay7 (k0_pay2 v0 v2) v5 v6 v7 (ix2 p d)
      = Spec.rope (fun d' => ∑ k : Fin 4096, v0 (ix2 p k) * v2 (ix2 (⟨256 + d'.val, by omega⟩ : Fin 4096) k))
          (fun d => v5 (ix2 p d)) (fun d => v6 (ix2 p d)) (fun d => v7 (ix1 d)) d := by
  have h := headFull_apply (n := 64)
      (extractStridedSlice S64x128 ![0, 256] (k0_pay2 v0 v2) slices_S64x4096_o0_256_S64x128)
      v5 v6 v7 reduces_S64x128_S64 (.inl rfl) rfl shapeCasts_S64_S64x1 broadcasts_S64x1_S64x128
      shapeCasts_S128_S1x128 broadcasts_S1x128_S64x128 slices_S64x128_o0_0_S64x64 slices_S64x128_o0_64_S64x64
      concatenates_S64x64_S64x64_S64x128_d1 p d
  unfold k0_pay7
  refine h.trans ?_
  exact congrArg (fun X => Spec.rope X (fun d => v5 (ix2 p d)) (fun d => v6 (ix2 p d)) (fun d => v7 (ix1 d)) d)
    (funext fun d' => q_slice_apply v0 v2 256 (by norm_num) _ p d')

/-- Query head 3 (columns 384…511): its slice of the product and the column under the root are computed in
the part before and passed along. -/
theorem q_store3 (v0 : Vec Ideal S64x4096 .f32) (v2 : Vec Ideal S4096x4096 .bf16)
    (v5 v6 : Vec Ideal S64x128 .f32) (v7 : Vec Ideal S128 .f32) (p : Fin 64) (d : Fin 128) :
    k0_pay10 v5 v6 v7 (k0_pay8 (k0_pay2 v0 v2)) (k0_pay9 (k0_pay2 v0 v2)) (ix2 p d)
      = Spec.rope (fun d' => ∑ k : Fin 4096, v0 (ix2 p k) * v2 (ix2 (⟨384 + d'.val, by omega⟩ : Fin 4096) k))
          (fun d => v5 (ix2 p d)) (fun d => v6 (ix2 p d)) (fun d => v7 (ix1 d)) d := by
  have hr : k0_pay9 (k0_pay2 v0 v2) (ix2 p (0 : Fin 1))
      = Ideal.div (∑ d' : Fin 128, k0_pay8 (k0_pay2 v0 v2) (ix2 p d') * k0_pay8 (k0_pay2 v0 v2) (ix2 p d')) Spec.c128
        + Spec.eps := by
    have h := meanSq_apply (n := 64) (k0_pay8 (k0_pay2 v0 v2)) reduces_S64x128_S64 (.inl rfl) rfl shapeCasts_S64_S64x1 p 0
    unfold k0_pay9
    exact h
  have h := headTail_apply (n := 64) (k0_pay8 (k0_pay2 v0 v2)) (k0_pay9 (k0_pay2 v0 v2)) v5 v6 v7 broadcasts_S64x1_S64x128
      shapeCasts_S128_S1x128 broadcasts_S1x128_S64x128 slices_S64x128_o0_0_S64x64 slices_S64x128_o0_64_S64x64
      concatenates_S64x64_S64x64_S64x128_d1 p d hr
  unfold k0_pay10
  refine h.trans ?_
  exact congrArg (fun X => Spec.rope X (fun d => v5 (ix2 p d)) (fun d => v6 (ix2 p d)) (fun d => v7 (ix1 d)) d)
    (funext fun d' => by
      unfold k0_pay8
      exact q_slice_apply v0 v2 384 (by norm_num) _ p d')

/-- Query head 4 (columns 512…639 of the block). -/
theorem q_store4 (v0 : Vec Ideal S64x4096 .f32) (v2 : Vec Ideal S4096x4096 .bf16)
    (v5 v6 : Vec Ideal S64x128 .f32) (v7 : Vec Ideal S128 .f32) (p : Fin 64) (d : Fin 128) :
    k0_pay11 (k0_pay2 v0 v2) v5 v6 v7 (ix2 p d)
      = Spec.rope (fun d' => ∑ k : Fin 4096, v0 (ix2 p k) * v2 (ix2 (⟨512 + d'.val, by omega⟩ : Fin 4096) k))
          (fun d => v5 (ix2 p d)) (fun d => v6 (ix2 p d)) (fun d => v7 (ix1 d)) d := by
  have h := headFull_apply (n := 64)
      (extractStridedSlice S64x128 ![0, 512] (k0_pay2 v0 v2) slices_S64x4096_o0_512_S64x128)
      v5 v6 v7 reduces_S64x128_S64 (.inl rfl) rfl shapeCasts_S64_S64x1 broadcasts_S64x1_S64x128
      shapeCasts_S128_S1x128 broadcasts_S1x128_S64x128 slices_S64x128_o0_0_S64x64 slices_S64x128_o0_64_S64x64
      concatenates_S64x64_S64x64_S64x128_d1 p d
  unfold k0_pay11
  refine h.trans ?_
  exact congrArg (fun X => Spec.rope X (fun d => v5 (ix2 p d)) (fun d => v6 (ix2 p d)) (fun d => v7 (ix1 d)) d)
    (funext fun d' => q_slice_apply v0 v2 512 (by norm_num) _ p d')

/-- Query head 5 (columns 640…767): its slice of the product and the column under the root are computed in
the part before and passed along. -/
theorem q_store5 (v0 : Vec Ideal S64x4096 .f32) (v2 : Vec Ideal S4096x4096 .bf16)
    (v5 v6 : Vec Ideal S64x128 .f32) (v7 : Vec Ideal S128 .f32) (p : Fin 64) (d : Fin 128) :
    k0_pay14 v5 v6 v7 (k0_pay12 (k0_pay2 v0 v2)) (k0_pay13 (k0_pay2 v0 v2)) (ix2 p d)
      = Spec.rope (fun d' => ∑ k : Fin 4096, v0 (ix2 p k) * v2 (ix2 (⟨640 + d'.val, by omega⟩ : Fin 4096) k))
          (fun d => v5 (ix2 p d)) (fun d => v6 (ix2 p d)) (fun d => v7 (ix1 d)) d := by
  have hr : k0_pay13 (k0_pay2 v0 v2) (ix2 p (0 : Fin 1))
      = Ideal.div (∑ d' : Fin 128, k0_pay12 (k0_pay2 v0 v2) (ix2 p d') * k0_pay12 (k0_pay2 v0 v2) (ix2 p d')) Spec.c128
        + Spec.eps := by
    have h := meanSq_apply (n := 64) (k0_pay12 (k0_pay2 v0 v2)) reduces_S64x128_S64 (.inl rfl) rfl shapeCasts_S64_S64x1 p 0
    unfold k0_pay13
    exact h
  have h := headTail_apply (n := 64) (k0_pay12 (k0_pay2 v0 v2)) (k0_pay13 (k0_pay2 v0 v2)) v5 v6 v7 broadcasts_S64x1_S64x128
      shapeCasts_S128_S1x128 broadcasts_S1x128_S64x128 slices_S64x128_o0_0_S64x64 slices_S64x128_o0_64_S64x64
      concatenates_S64x64_S64x64_S64x128_d1 p d hr
  unfold k0_pay14
  refine h.trans ?_
  exact congrArg (fun X => Spec.rope X (fun d => v5 (ix2 p d)) (fun d => v6 (ix2 p d)) (fun d => v7 (ix1 d)) d)
    (funext fun d' => by
      unfold k0_pay12
      exact q_slice_apply v0 v2 640 (by norm_num) _ p d')

/-- Query head 6 (columns 768…895 of the block). -/
theorem q_store6 (v0 : Vec Ideal S64x4096 .f32) (v2 : Vec Ideal S4096x4096 .bf16)
    (v5 v6 : Vec Ideal S64x128 .f32) (v7 : Vec Ideal S128 .f32) (p : Fin 64) (d : Fin 128) :
    k0_pay15 (k0_pay2 v0 v2) v5 v6 v7 (ix2 p d)
      = Spec.rope (fun d' => ∑ k : Fin 4096, v0 (ix2 p k) * v2 (ix2 (⟨768 + d'.val, by omega⟩ : Fin 4096) k))
          (fun d => v5 (ix2 p d)) (fun d => v6 (ix2 p d)) (fun d => v7 (ix1 d)) d := by
  have h := headFull_apply (n := 64)
      (extractStridedSlice S64x128 ![0, 768] (k0_pay2 v0 v2) slices_S64x4096_o0_768_S64x128)
      v5 v6 v7 reduces_S64x128_S64 (.inl rfl) rfl shapeCasts_S64_S64x1 broadcasts_S64x1_S64x128
      shapeCasts_S128_S1x128 broadcasts_S1x128_S64x128 slices_S64x128_o0_0_S64x64 slices_S64x128_o0_64_S64x64
      concatenates_S64x64_S64x64_S64x128_d1 p d
  unfold k0_pay15
  refine h.trans ?_
  exact congrArg (fun X => Spec.rope X (fun d => v5 (ix2 p d)) (fun d => v6 (ix2 p d)) (fun d => v7 (ix1 d)) d)
    (funext fun d' => q_slice_apply v0 v2 768 (by norm_num) _ p d')

/-- Query head 7 (columns 896…1023): its slice of the product and the column under the root are computed in
the part before and passed along. -/
theorem q_store7 (v0 : Vec Ideal S64x4096 .f32) (v2 : Vec Ideal S4096x4096 .bf16)
    (v5 v6 : Vec Ideal S64x128 .f32) (v7 : Vec Ideal S128 .f32) (p : Fin 64) (d : Fin 128) :
    k0_pay18 v5 v6 v7 (k0_pay16 (k0_pay2 v0 v2)) (k0_pay17 (k0_pay2 v0 v2)) (ix2 p d)
      = Spec.rope (fun d' => ∑ k : Fin 4096, v0 (ix2 p k) * v2 (ix2 (⟨896 + d'.val, by omega⟩ : Fin 4096) k))
          (fun d => v5 (ix2 p d)) (fun d => v6 (ix2 p d)) (fun d => v7 (ix1 d)) d := by
  have hr : k0_pay17 (k0_pay2 v0 v2) (ix2 p (0 : Fin 1))
      = Ideal.div (∑ d' : Fin 128, k0_pay16 (k0_pay2 v0 v2) (ix2 p d') * k0_pay16 (k0_pay2 v0 v2) (ix2 p d')) Spec.c128
        + Spec.eps := by
    have h := meanSq_apply (n := 64) (k0_pay16 (k0_pay2 v0 v2)) reduces_S64x128_S64 (.inl rfl) rfl shapeCasts_S64_S64x1 p 0
    unfold k0_pay17
    exact h
  have h := headTail_apply (n := 64) (k0_pay16 (k0_pay2 v0 v2)) (k0_pay17 (k0_pay2 v0 v2)) v5 v6 v7 broadcasts_S64x1_S64x128
      shapeCasts_S128_S1x128 broadcasts_S1x128_S64x128 slices_S64x128_o0_0_S64x64 slices_S64x128_o0_64_S64x64
      concatenates_S64x64_S64x64_S64x128_d1 p d hr
  unfold k0_pay18
  refine h.trans ?_
  exact congrArg (fun X => Spec.rope X (fun d => v5 (ix2 p d)) (fun d => v6 (ix2 p d)) (fun d => v7 (ix1 d)) d)
    (funext fun d' => by
      unfold k0_pay16
      exact q_slice_apply v0 v2 896 (by norm_num) _ p d')

/-- Query head 8 (columns 1024…1151 of the block). -/
theorem q_store8 (v0 : Vec Ideal S64x4096 .f32) (v2 : Vec Ideal S4096x4096 .bf16)
    (v5 v6 : Vec Ideal S64x128 .f32) (v7 : Vec Ideal S128 .f32) (p : Fin 64) (d : Fin 128) :
    k0_pay19 (k0_pay2 v0 v2) v5 v6 v7 (ix2 p d)
      = Spec.rope (fun d' => ∑ k : Fin 4096, v0 (ix2 p k) * v2 (ix2 (⟨1024 + d'.val, by omega⟩ : Fin 4096) k))
          (fun d => v5 (ix2 p d)) (fun d => v6 (ix2 p d)) (fun d => v7 (ix1 d)) d := by
  have h := headFull_apply (n := 64)
      (extractStridedSlice S64x128 ![0, 1024] (k0_pay2 v0 v2) slices_S64x4096_o0_1024_S64x128)
      v5 v6 v7 reduces_S64x128_S64 (.inl rfl) rfl shapeCasts_S64_S64x1 broadcasts_S64x1_S64x128
      shapeCasts_S128_S1x128 broadcasts_S1x128_S64x128 slices_S64x128_o0_0_S64x64 slices_S64x128_o0_64_S64x64
      concatenates_S64x64_S64x64_S64x128_d1 p d
  unfold k0_pay19
  refine h.trans ?_
  exact congrArg (fun X => Spec.rope X (fun d => v5 (ix2 p d)) (fun d => v6 (ix2 p d)) (fun d => v7 (ix1 d)) d)
    (funext fun d' => q_slice_apply v0 v2 1024 (by norm_num) _ p d')

/-- Query head 9 (columns 1152…1279): its slice of the product and the column under the root are computed in
the part before and passed along. -/
theorem q_store9 (v0 : Vec Ideal S64x4096 .f32) (v2 : Vec Ideal S4096x4096 .bf16)
    (v5 v6 : Vec Ideal S64x128 .f32) (v7 : Vec Ideal S128 .f32) (p : Fin 64) (d : Fin 128) :
    k0_pay22 v5 v6 v7 (k0_pay20 (k0_pay2 v0 v2)) (k0_pay21 (k0_pay2 v0 v2)) (ix2 p d)
      = Spec.rope (fun d' => ∑ k : Fin 4096, v0 (ix2 p k) * v2 (ix2 (⟨1152 + d'.val, by omega⟩ : Fin 4096) k))
          (fun d => v5 (ix2 p d)) (fun d => v6 (ix2 p d)) (fun d => v7 (ix1 d)) d := by
  have hr : k0_pay21 (k0_pay2 v0 v2) (ix2 p (0 : Fin 1))
      = Ideal.div (∑ d' : Fin 128, k0_pay20 (k0_pay2 v0 v2) (ix2 p d') * k0_pay20 (k0_pay2 v0 v2) (ix2 p d')) Spec.c128
        + Spec.eps := by
    have h := meanSq_apply (n := 64) (k0_pay20 (k0_pay2 v0 v2)) reduces_S64x128_S64 (.inl rfl) rfl shapeCasts_S64_S64x1 p 0
    unfold k0_pay21
    exact h
  have h := headTail_apply (n := 64) (k0_pay20 (k0_pay2 v0 v2)) (k0_pay21 (k0_pay2 v0 v2)) v5 v6 v7 broadcasts_S64x1_S64x128
      shapeCasts_S128_S1x128 broadcasts_S1x128_S64x128 slices_S64x128_o0_0_S64x64 slices_S64x128_o0_64_S64x64
      concatenates_S64x64_S64x64_S64x128_d1 p d hr
  unfold k0_pay22
  refine h.trans ?_
  exact congrArg (fun X => Spec.rope X (fun d => v5 (ix2 p d)) (fun d => v6 (ix2 p d)) (fun d => v7 (ix1 d)) d)
    (funext fun d' => by
      unfold k0_pay20
      exact q_slice_apply v0 v2 1152 (by norm_num) _ p d')

/-- Query head 10 (columns 1280…1407 of the block). -/
theorem q_store10 (v0 : Vec Ideal S64x4096 .f32) (v2 : Vec Ideal S4096x4096 .bf16)
    (v5 v6 : Vec Ideal S64x128 .f32) (v7 : Vec Ideal S128 .f32) (p : Fin 64) (d : Fin 128) :
    k0_pay23 (k0_pay2 v0 v2) v5 v6 v7 (ix2 p d)
      = Spec.rope (fun d' => ∑ k : Fin 4096, v0 (ix2 p k) * v2 (ix2 (⟨1280 + d'.val, by omega⟩ : Fin 4096) k))
          (fun d => v5 (ix2 p d)) (fun d => v6 (ix2 p d)) (fun d => v7 (ix1 d)) d := by
  have h := headFull_apply (n := 64)
      (extractStridedSlice S64x128 ![0, 1280] (k0_pay2 v0 v2) slices_S64x4096_o0_1280_S64x128)
      v5 v6 v7 reduces_S64x128_S64 (.inl rfl) rfl shapeCasts_S64_S64x1 broadcasts_S64x1_S64x128
      shapeCasts_S128_S1x128 broadcasts_S1x128_S64x128 slices_S64x128_o0_0_S64x64 slices_S64x128_o0_64_S64x64
      concatenates_S64x64_S64x64_S64x128_d1 p d
  unfold k0_pay23
  refine h.trans ?_
  exact congrArg (fun X => Spec.rope X (fun d => v5 (ix2 p d)) (fun d => v6 (ix2 p d)) (fun d => v7 (ix1 d)) d)
    (funext fun d' => q_slice_apply v0 v2 1280 (by norm_num) _ p d')

/-- Query head 11 (columns 1408…1535): its slice of the product and the column under the root are computed in
the part before and passed along. -/
theorem q_store11 (v0 : Vec Ideal S64x4096 .f32) (v2 : Vec Ideal S4096x4096 .bf16)
    (v5 v6 : Vec Ideal S64x128 .f32) (v7 : Vec Ideal S128 .f32) (p : Fin 64) (d : Fin 128) :
    k0_pay26 v5 v6 v7 (k0_pay24 (k0_pay2 v0 v2)) (k0_pay25 (k0_pay2 v0 v2)) (ix2 p d)
      = Spec.rope (fun d' => ∑ k : Fin 4096, v0 (ix2 p k) * v2 (ix2 (⟨1408 + d'.val, by omega⟩ : Fin 4096) k))
          (fun d => v5 (ix2 p d)) (fun d => v6 (ix2 p d)) (fun d => v7 (ix1 d)) d := by
  have hr : k0_pay25 (k0_pay2 v0 v2) (ix2 p (0 : Fin 1))
      = Ideal.div (∑ d' : Fin 128, k0_pay24 (k0_pay2 v0 v2) (ix2 p d') * k0_pay24 (k0_pay2 v0 v2) (ix2 p d')) Spec.c128
        + Spec.eps := by
    have h := meanSq_apply (n := 64) (k0_pay24 (k0_pay2 v0 v2)) reduces_S64x128_S64 (.inl rfl) rfl shapeCasts_S64_S64x1 p 0
    unfold k0_pay25
    exact h
  have h := headTail_apply (n := 64) (k0_pay24 (k0_pay2 v0 v2)) (k0_pay25 (k0_pay2 v0 v2)) v5 v6 v7 broadcasts_S64x1_S64x128
      shapeCasts_S128_S1x128 broadcasts_S1x128_S64x128 slices_S64x128_o0_0_S64x64 slices_S64x128_o0_64_S64x64
      concatenates_S64x64_S64x64_S64x128_d1 p d hr
  unfold k0_pay26
  refine h.trans ?_
  exact congrArg (fun X => Spec.rope X (fun d => v5 (ix2 p d)) (fun d => v6 (ix2 p d)) (fun d => v7 (ix1 d)) d)
    (funext fun d' => by
      unfold k0_pay24
      exact q_slice_apply v0 v2 1408 (by norm_num) _ p d')

/-- Query head 12 (columns 1536…1663 of the block). -/
theorem q_store12 (v0 : Vec Ideal S64x4096 .f32) (v2 : Vec Ideal S4096x4096 .bf16)
    (v5 v6 : Vec Ideal S64x128 .f32) (v7 : Vec Ideal S128 .f32) (p : Fin 64) (d : Fin 128) :
    k0_pay27 (k0_pay2 v0 v2) v5 v6 v7 (ix2 p d)
      = Spec.rope (fun d' => ∑ k : Fin 4096, v0 (ix2 p k) * v2 (ix2 (⟨1536 + d'.val, by omega⟩ : Fin 4096) k))
          (fun d => v5 (ix2 p d)) (fun d => v6 (ix2 p d)) (fun d => v7 (ix1 d)) d := by
  have h := headFull_apply (n := 64)
      (extractStridedSlice S64x128 ![0, 1536] (k0_pay2 v0 v2) slices_S64x4096_o0_1536_S64x128)
      v5 v6 v7 reduces_S64x128_S64 (.inl rfl) rfl shapeCasts_S64_S64x1 broadcasts_S64x1_S64x128
      shapeCasts_S128_S1x128 broadcasts_S1x128_S64x128 slices_S64x128_o0_0_S64x64 slices_S64x128_o0_64_S64x64
      concatenates_S64x64_S64x64_S64x128_d1 p d
  unfold k0_pay27
  refine h.trans ?_
  exact congrArg (fun X => Spec.rope X (fun d => v5 (ix2 p d)) (fun d => v6 (ix2 p d)) (fun d => v7 (ix1 d)) d)
    (funext fun d' => q_slice_apply v0 v2 1536 (by norm_num) _ p d')

/-- Query head 13 (columns 1664…1791): its slice of the product and the column under the root are computed in
the part before and passed along. -/
theorem q_store13 (v0 : Vec Ideal S64x4096 .f32) (v2 : Vec Ideal S4096x4096 .bf16)
    (v5 v6 : Vec Ideal S64x128 .f32) (v7 : Vec Ideal S128 .f32) (p : Fin 64) (d : Fin 128) :
    k0_pay30 v5 v6 v7 (k0_pay28 (k0_pay2 v0 v2)) (k0_pay29 (k0_pay2 v0 v2)) (ix2 p d)
      = Spec.rope (fun d' => ∑ k : Fin 4096, v0 (ix2 p k) * v2 (ix2 (⟨1664 + d'.val, by omega⟩ : Fin 4096) k))
          (fun d => v5 (ix2 p d)) (fun d => v6 (ix2 p d)) (fun d => v7 (ix1 d)) d := by
  have hr : k0_pay29 (k0_pay2 v0 v2) (ix2 p (0 : Fin 1))
      = Ideal.div (∑ d' : Fin 128, k0_pay28 (k0_pay2 v0 v2) (ix2 p d') * k0_pay28 (k0_pay2 v0 v2) (ix2 p d')) Spec.c128
        + Spec.eps := by
    have h := meanSq_apply (n := 64) (k0_pay28 (k0_pay2 v0 v2)) reduces_S64x128_S64 (.inl rfl) rfl shapeCasts_S64_S64x1 p 0
    unfold k0_pay29
    exact h
  have h := headTail_apply (n := 64) (k0_pay28 (k0_pay2 v0 v2)) (k0_pay29 (k0_pay2 v0 v2)) v5 v6 v7 broadcasts_S64x1_S64x128
      shapeCasts_S128_S1x128 broadcasts_S1x128_S64x128 slices_S64x128_o0_0_S64x64 slices_S64x128_o0_64_S64x64
      concatenates_S64x64_S64x64_S64x128_d1 p d hr
  unfold k0_pay30
  refine h.trans ?_
  exact congrArg (fun X => Spec.rope X (fun d => v5 (ix2 p d)) (fun d => v6 (ix2 p d)) (fun d => v7 (ix1 d)) d)
    (funext fun d' => by
      unfold k0_pay28
      exact q_slice_apply v0 v2 1664 (by norm_num) _ p d')

/-- Query head 14 (columns 1792…1919 of the block). -/
theorem q_store14 (v0 : Vec Ideal S64x4096 .f32) (v2 : Vec Ideal S4096x4096 .bf16)
    (v5 v6 : Vec Ideal S64x128 .f32) (v7 : Vec Ideal S128 .f32) (p : Fin 64) (d : Fin 128) :
    k0_pay31 (k0_pay2 v0 v2) v5 v6 v7 (ix2 p d)
      = Spec.rope (fun d' => ∑ k : Fin 4096, v0 (ix2 p k) * v2 (ix2 (⟨1792 + d'.val, by omega⟩ : Fin 4096) k))
          (fun d => v5 (ix2 p d)) (fun d => v6 (ix2 p d)) (fun d => v7 (ix1 d)) d := by
  have h := headFull_apply (n := 64)
      (extractStridedSlice S64x128 ![0, 1792] (k0_pay2 v0 v2) slices_S64x4096_o0_1792_S64x128)
      v5 v6 v7 reduces_S64x128_S64 (.inl rfl) rfl shapeCasts_S64_S64x1 broadcasts_S64x1_S64x128
      shapeCasts_S128_S1x128 broadcasts_S1x128_S64x128 slices_S64x128_o0_0_S64x64 slices_S64x128_o0_64_S64x64
      concatenates_S64x64_S64x64_S64x128_d1 p d
  unfold k0_pay31
  refine h.trans ?_
  exact congrArg (fun X => Spec.rope X (fun d => v5 (ix2 p d)) (fun d => v6 (ix2 p d)) (fun d => v7 (ix1 d)) d)
    (funext fun d' => q_slice_apply v0 v2 1792 (by norm_num) _ p d')

/-- Query head 15 (columns 1920…2047): its slice of the product and the column under the root are computed in
the part before and passed along. -/
theorem q_store15 (v0 : Vec Ideal S64x4096 .f32) (v2 : Vec Ideal S4096x4096 .bf16)
    (v5 v6 : Vec Ideal S64x128 .f32) (v7 : Vec Ideal S128 .f32) (p : Fin 64) (d : Fin 128) :
    k0_pay34 v5 v6 v7 (k0_pay32 (k0_pay2 v0 v2)) (k0_pay33 (k0_pay2 v0 v2)) (ix2 p d)
      = Spec.rope (fun d' => ∑ k : Fin 4096, v0 (ix2 p k) * v2 (ix2 (⟨1920 + d'.val, by omega⟩ : Fin 4096) k))
          (fun d => v5 (ix2 p d)) (fun d => v6 (ix2 p d)) (fun d => v7 (ix1 d)) d := by
  have hr : k0_pay33 (k0_pay2 v0 v2) (ix2 p (0 : Fin 1))
      = Ideal.div (∑ d' : Fin 128, k0_pay32 (k0_pay2 v0 v2) (ix2 p d') * k0_pay32 (k0_pay2 v0 v2) (ix2 p d')) Spec.c128
        + Spec.eps := by
    have h := meanSq_apply (n := 64) (k0_pay32 (k0_pay2 v0 v2)) reduces_S64x128_S64 (.inl rfl) rfl shapeCasts_S64_S64x1 p 0
    unfold k0_pay33
    exact h
  have h := headTail_apply (n := 64) (k0_pay32 (k0_pay2 v0 v2)) (k0_pay33 (k0_pay2 v0 v2)) v5 v6 v7 broadcasts_S64x1_S64x128
      shapeCasts_S128_S1x128 broadcasts_S1x128_S64x128 slices_S64x128_o0_0_S64x64 slices_S64x128_o0_64_S64x64
      concatenates_S64x64_S64x64_S64x128_d1 p d hr
  unfold k0_pay34
  refine h.trans ?_
  exact congrArg (fun X => Spec.rope X (fun d => v5 (ix2 p d)) (fun d => v6 (ix2 p d)) (fun d => v7 (ix1 d)) d)
    (funext fun d' => by
      unfold k0_pay32
      exact q_slice_apply v0 v2 1920 (by norm_num) _ p d')

/-- Query head 16 (columns 2048…2175 of the block). -/
theorem q_store16 (v0 : Vec Ideal S64x4096 .f32) (v2 : Vec Ideal S4096x4096 .bf16)
    (v5 v6 : Vec Ideal S64x128 .f32) (v7 : Vec Ideal S128 .f32) (p : Fin 64) (d : Fin 128) :
    k0_pay35 (k0_pay2 v0 v2) v5 v6 v7 (ix2 p d)
      = Spec.rope (fun d' => ∑ k : Fin 4096, v0 (ix2 p k) * v2 (ix2 (⟨2048 + d'.val, by omega⟩ : Fin 4096) k))
          (fun d => v5 (ix2 p d)) (fun d => v6 (ix2 p d)) (fun d => v7 (ix1 d)) d := by
  have h := headFull_apply (n := 64)
      (extractStridedSlice S64x128 ![0, 2048] (k0_pay2 v0 v2) slices_S64x4096_o0_2048_S64x128)
      v5 v6 v7 reduces_S64x128_S64 (.inl rfl) rfl shapeCasts_S64_S64x1 broadcasts_S64x1_S64x128
      shapeCasts_S128_S1x128 broadcasts_S1x128_S64x128 slices_S64x128_o0_0_S64x64 slices_S64x128_o0_64_S64x64
      concatenates_S64x64_S64x64_S64x128_d1 p d
  unfold k0_pay35
  refine h.trans ?_
  exact congrArg (fun X => Spec.rope X (fun d => v5 (ix2 p d)) (fun d => v6 (ix2 p d)) (fun d => v7 (ix1 d)) d)
    (funext fun d' => q_slice_apply v0 v2 2048 (by norm_num) _ p d')

/-- Query head 17 (columns 2176…2303): its slice of the product and the column under the root are computed in
the part before and passed along. -/
theorem q_store17 (v0 : Vec Ideal S64x4096 .f32) (v2 : Vec Ideal S4096x4096 .bf16)
    (v5 v6 : Vec Ideal S64x128 .f32) (v7 : Vec Ideal S128 .f32) (p : Fin 64) (d : Fin 128) :
    k0_pay38 v5 v6 v7 (k0_pay36 (k0_pay2 v0 v2)) (k0_pay37 (k0_pay2 v0 v2)) (ix2 p d)
      = Spec.rope (fun d' => ∑ k : Fin 4096, v0 (ix2 p k) * v2 (ix2 (⟨2176 + d'.val, by omega⟩ : Fin 4096) k))
          (fun d => v5 (ix2 p d)) (fun d => v6 (ix2 p d)) (fun d => v7 (ix1 d)) d := by
  have hr : k0_pay37 (k0_pay2 v0 v2) (ix2 p (0 : Fin 1))
      = Ideal.div (∑ d' : Fin 128, k0_pay36 (k0_pay2 v0 v2) (ix2 p d') * k0_pay36 (k0_pay2 v0 v2) (ix2 p d')) Spec.c128
        + Spec.eps := by
    have h := meanSq_apply (n := 64) (k0_pay36 (k0_pay2 v0 v2)) reduces_S64x128_S64 (.inl rfl) rfl shapeCasts_S64_S64x1 p 0
    unfold k0_pay37
    exact h
  have h := headTail_apply (n := 64) (k0_pay36 (k0_pay2 v0 v2)) (k0_pay37 (k0_pay2 v0 v2)) v5 v6 v7 broadcasts_S64x1_S64x128
      shapeCasts_S128_S1x128 broadcasts_S1x128_S64x128 slices_S64x128_o0_0_S64x64 slices_S64x128_o0_64_S64x64
      concatenates_S64x64_S64x64_S64x128_d1 p d hr
  unfold k0_pay38
  refine h.trans ?_
  exact congrArg (fun X => Spec.rope X (fun d => v5 (ix2 p d)) (fun d => v6 (ix2 p d)) (fun d => v7 (ix1 d)) d)
    (funext fun d' => by
      unfold k0_pay36
      exact q_slice_apply v0 v2 2176 (by norm_num) _ p d')

/-- Query head 18 (columns 2304…2431 of the block). -/
theorem q_store18 (v0 : Vec Ideal S64x4096 .f32) (v2 : Vec Ideal S4096x4096 .bf16)
    (v5 v6 : Vec Ideal S64x128 .f32) (v7 : Vec Ideal S128 .f32) (p : Fin 64) (d : Fin 128) :
    k0_pay39 (k0_pay2 v0 v2) v5 v6 v7 (ix2 p d)
      = Spec.rope (fun d' => ∑ k : Fin 4096, v0 (ix2 p k) * v2 (ix2 (⟨2304 + d'.val, by omega⟩ : Fin 4096) k))
          (fun d => v5 (ix2 p d)) (fun d => v6 (ix2 p d)) (fun d => v7 (ix1 d)) d := by
  have h := headFull_apply (n := 64)
      (extractStridedSlice S64x128 ![0, 2304] (k0_pay2 v0 v2) slices_S64x4096_o0_2304_S64x128)
      v5 v6 v7 reduces_S64x128_S64 (.inl rfl) rfl shapeCasts_S64_S64x1 broadcasts_S64x1_S64x128
      shapeCasts_S128_S1x128 broadcasts_S1x128_S64x128 slices_S64x128_o0_0_S64x64 slices_S64x128_o0_64_S64x64
      concatenates_S64x64_S64x64_S64x128_d1 p d
  unfold k0_pay39
  refine h.trans ?_
  exact congrArg (fun X => Spec.rope X (fun d => v5 (ix2 p d)) (fun d => v6 (ix2 p d)) (fun d => v7 (ix1 d)) d)
    (funext fun d' => q_slice_apply v0 v2 2304 (by norm_num) _ p d')

/-- Query head 19 (columns 2432…2559): its slice of the product and the column under the root are computed in
the part before and passed along. -/
theorem q_store19 (v0 : Vec Ideal S64x4096 .f32) (v2 : Vec Ideal S4096x4096 .bf16)
    (v5 v6 : Vec Ideal S64x128 .f32) (v7 : Vec Ideal S128 .f32) (p : Fin 64) (d : Fin 128) :
    k0_pay42 v5 v6 v7 (k0_pay40 (k0_pay2 v0 v2)) (k0_pay41 (k0_pay2 v0 v2)) (ix2 p d)
      = Spec.rope (fun d' => ∑ k : Fin 4096, v0 (ix2 p k) * v2 (ix2 (⟨2432 + d'.val, by omega⟩ : Fin 4096) k))
          (fun d => v5 (ix2 p d)) (fun d => v6 (ix2 p d)) (fun d => v7 (ix1 d)) d := by
  have hr : k0_pay41 (k0_pay2 v0 v2) (ix2 p (0 : Fin 1))
      = Ideal.div (∑ d' : Fin 128, k0_pay40 (k0_pay2 v0 v2) (ix2 p d') * k0_pay40 (k0_pay2 v0 v2) (ix2 p d')) Spec.c128
        + Spec.eps := by
    have h := meanSq_apply (n := 64) (k0_pay40 (k0_pay2 v0 v2)) reduces_S64x128_S64 (.inl rfl) rfl shapeCasts_S64_S64x1 p 0
    unfold k0_pay41
    exact h
  have h := headTail_apply (n := 64) (k0_pay40 (k0_pay2 v0 v2)) (k0_pay41 (k0_pay2 v0 v2)) v5 v6 v7 broadcasts_S64x1_S64x128
      shapeCasts_S128_S1x128 broadcasts_S1x128_S64x128 slices_S64x128_o0_0_S64x64 slices_S64x128_o0_64_S64x64
      concatenates_S64x64_S64x64_S64x128_d1 p d hr
  unfold k0_pay42
  refine h.trans ?_
  exact congrArg (fun X => Spec.rope X (fun d => v5 (ix2 p d)) (fun d => v6 (ix2 p d)) (fun d => v7 (ix1 d)) d)
    (funext fun d' => by
      unfold k0_pay40
      exact q_slice_apply v0 v2 2432 (by norm_num) _ p d')

/-- Query head 20 (columns 2560…2687 of the block). -/
theorem q_store20 (v0 : Vec Ideal S64x4096 .f32) (v2 : Vec Ideal S4096x4096 .bf16)
    (v5 v6 : Vec Ideal S64x128 .f32) (v7 : Vec Ideal S128 .f32) (p : Fin 64) (d : Fin 128) :
    k0_pay43 (k0_pay2 v0 v2) v5 v6 v7 (ix2 p d)
      = Spec.rope (fun d' => ∑ k : Fin 4096, v0 (ix2 p k) * v2 (ix2 (⟨2560 + d'.val, by omega⟩ : Fin 4096) k))
          (fun d => v5 (ix2 p d)) (fun d => v6 (ix2 p d)) (fun d => v7 (ix1 d)) d := by
  have h := headFull_apply (n := 64)
      (extractStridedSlice S64x128 ![0, 2560] (k0_pay2 v0 v2) slices_S64x4096_o0_2560_S64x128)
      v5 v6 v7 reduces_S64x128_S64 (.inl rfl) rfl shapeCasts_S64_S64x1 broadcasts_S64x1_S64x128
      shapeCasts_S128_S1x128 broadcasts_S1x128_S64x128 slices_S64x128_o0_0_S64x64 slices_S64x128_o0_64_S64x64
      concatenates_S64x64_S64x64_S64x128_d1 p d
  unfold k0_pay43
  refine h.trans ?_
  exact congrArg (fun X => Spec.rope X (fun d => v5 (ix2 p d)) (fun d => v6 (ix2 p d)) (fun d => v7 (ix1 d)) d)
    (funext fun d' => q_slice_apply v0 v2 2560 (by norm_num) _ p d')

/-- Query head 21 (columns 2688…2815): its slice of the product and the column under the root are computed in
the part before and passed along. -/
theorem q_store21 (v0 : Vec Ideal S64x4096 .f32) (v2 : Vec Ideal S4096x4096 .bf16)
    (v5 v6 : Vec Ideal S64x128 .f32) (v7 : Vec Ideal S128 .f32) (p : Fin 64) (d : Fin 128) :
    k0_pay46 v5 v6 v7 (k0_pay44 (k0_pay2 v0 v2)) (k0_pay45 (k0_pay2 v0 v2)) (ix2 p d)
      = Spec.rope (fun d' => ∑ k : Fin 4096, v0 (ix2 p k) * v2 (ix2 (⟨2688 + d'.val, by omega⟩ : Fin 4096) k))
          (fun d => v5 (ix2 p d)) (fun d => v6 (ix2 p d)) (fun d => v7 (ix1 d)) d := by
  have hr : k0_pay45 (k0_pay2 v0 v2) (ix2 p (0 : Fin 1))
      = Ideal.div (∑ d' : Fin 128, k0_pay44 (k0_pay2 v0 v2) (ix2 p d') * k0_pay44 (k0_pay2 v0 v2) (ix2 p d')) Spec.c128
        + Spec.eps := by
    have h := meanSq_apply (n := 64) (k0_pay44 (k0_pay2 v0 v2)) reduces_S64x128_S64 (.inl rfl) rfl shapeCasts_S64_S64x1 p 0
    unfold k0_pay45
    exact h
  have h := headTail_apply (n := 64) (k0_pay44 (k0_pay2 v0 v2)) (k0_pay45 (k0_pay2 v0 v2)) v5 v6 v7 broadcasts_S64x1_S64x128
      shapeCasts_S128_S1x128 broadcasts_S1x128_S64x128 slices_S64x128_o0_0_S64x64 slices_S64x128_o0_64_S64x64
      concatenates_S64x64_S64x64_S64x128_d1 p d hr
  unfold k0_pay46
  refine h.trans ?_
  exact congrArg (fun X => Spec.rope X (fun d => v5 (ix2 p d)) (fun d => v6 (ix2 p d)) (fun d => v7 (ix1 d)) d)
    (funext fun d' => by
      unfold k0_pay44
      exact q_slice_apply v0 v2 2688 (by norm_num) _ p d')

/-- Query head 22 (columns 2816…2943 of the block). -/
theorem q_store22 (v0 : Vec Ideal S64x4096 .f32) (v2 : Vec Ideal S4096x4096 .bf16)
    (v5 v6 : Vec Ideal S64x128 .f32) (v7 : Vec Ideal S128 .f32) (p : Fin 64) (d : Fin 128) :
    k0_pay47 (k0_pay2 v0 v2) v5 v6 v7 (ix2 p d)
      = Spec.rope (fun d' => ∑ k : Fin 4096, v0 (ix2 p k) * v2 (ix2 (⟨2816 + d'.val, by omega⟩ : Fin 4096) k))
          (fun d => v5 (ix2 p d)) (fun d => v6 (ix2 p d)) (fun d => v7 (ix1 d)) d := by
  have h := headFull_apply (n := 64)
      (extractStridedSlice S64x128 ![0, 2816] (k0_pay2 v0 v2) slices_S64x4096_o0_2816_S64x128)
      v5 v6 v7 reduces_S64x128_S64 (.inl rfl) rfl shapeCasts_S64_S64x1 broadcasts_S64x1_S64x128
      shapeCasts_S128_S1x128 broadcasts_S1x128_S64x128 slices_S64x128_o0_0_S64x64 slices_S64x128_o0_64_S64x64
      concatenates_S64x64_S64x64_S64x128_d1 p d
  unfold k0_pay47
  refine h.trans ?_
  exact congrArg (fun X => Spec.rope X (fun d => v5 (ix2 p d)) (fun d => v6 (ix2 p d)) (fun d => v7 (ix1 d)) d)
    (funext fun d' => q_slice_apply v0 v2 2816 (by norm_num) _ p d')

/-- Query head 23 (columns 2944…3071): its slice of the product and the column under the root are computed in
the part before and passed along. -/
theorem q_store23 (v0 : Vec Ideal S64x4096 .f32) (v2 : Vec Ideal S4096x4096 .bf16)
    (v5 v6 : Vec Ideal S64x128 .f32) (v7 : Vec Ideal S128 .f32) (p : Fin 64) (d : Fin 128) :
    k0_pay50 v5 v6 v7 (k0_pay48 (k0_pay2 v0 v2)) (k0_pay49 (k0_pay2 v0 v2)) (ix2 p d)
      = Spec.rope (fun d' => ∑ k : Fin 4096, v0 (ix2 p k) * v2 (ix2 (⟨2944 + d'.val, by omega⟩ : Fin 4096) k))
          (fun d => v5 (ix2 p d)) (fun d => v6 (ix2 p d)) (fun d => v7 (ix1 d)) d := by
  have hr : k0_pay49 (k0_pay2 v0 v2) (ix2 p (0 : Fin 1))
      = Ideal.div (∑ d' : Fin 128, k0_pay48 (k0_pay2 v0 v2) (ix2 p d') * k0_pay48 (k0_pay2 v0 v2) (ix2 p d')) Spec.c128
        + Spec.eps := by
    have h := meanSq_apply (n := 64) (k0_pay48 (k0_pay2 v0 v2)) reduces_S64x128_S64 (.inl rfl) rfl shapeCasts_S64_S64x1 p 0
    unfold k0_pay49
    exact h
  have h := headTail_apply (n := 64) (k0_pay48 (k0_pay2 v0 v2)) (k0_pay49 (k0_pay2 v0 v2)) v5 v6 v7 broadcasts_S64x1_S64x128
      shapeCasts_S128_S1x128 broadcasts_S1x128_S64x128 slices_S64x128_o0_0_S64x64 slices_S64x128_o0_64_S64x64
      concatenates_S64x64_S64x64_S64x128_d1 p d hr
  unfold k0_pay50
  refine h.trans ?_
  exact congrArg (fun X => Spec.rope X (fun d => v5 (ix2 p d)) (fun d => v6 (ix2 p d)) (fun d => v7 (ix1 d)) d)
    (funext fun d' => by
      unfold k0_pay48
      exact q_slice_apply v0 v2 2944 (by norm_num) _ p d')

/-- Query head 24 (columns 3072…3199 of the block). -/
theorem q_store24 (v0 : Vec Ideal S64x4096 .f32) (v2 : Vec Ideal S4096x4096 .bf16)
    (v5 v6 : Vec Ideal S64x128 .f32) (v7 : Vec Ideal S128 .f32) (p : Fin 64) (d : Fin 128) :
    k0_pay51 (k0_pay2 v0 v2) v5 v6 v7 (ix2 p d)
      = Spec.rope (fun d' => ∑ k : Fin 4096, v0 (ix2 p k) * v2 (ix2 (⟨3072 + d'.val, by omega⟩ : Fin 4096) k))
          (fun d => v5 (ix2 p d)) (fun d => v6 (ix2 p d)) (fun d => v7 (ix1 d)) d := by
  have h := headFull_apply (n := 64)
      (extractStridedSlice S64x128 ![0, 3072] (k0_pay2 v0 v2) slices_S64x4096_o0_3072_S64x128)
      v5 v6 v7 reduces_S64x128_S64 (.inl rfl) rfl shapeCasts_S64_S64x1 broadcasts_S64x1_S64x128
      shapeCasts_S128_S1x128 broadcasts_S1x128_S64x128 slices_S64x128_o0_0_S64x64 slices_S64x128_o0_64_S64x64
      concatenates_S64x64_S64x64_S64x128_d1 p d
  unfold k0_pay51
  refine h.trans ?_
  exact congrArg (fun X => Spec.rope X (fun d => v5 (ix2 p d)) (fun d => v6 (ix2 p d)) (fun d => v7 (ix1 d)) d)
    (funext fun d' => q_slice_apply v0 v2 3072 (by norm_num) _ p d')

/-- Query head 25 (columns 3200…3327): its slice of the product and the column under the root are computed in
the part before and passed along. -/
theorem q_store25 (v0 : Vec Ideal S64x4096 .f32) (v2 : Vec Ideal S4096x4096 .bf16)
    (v5 v6 : Vec Ideal S64x128 .f32) (v7 : Vec Ideal S128 .f32) (p : Fin 64) (d : Fin 128) :
    k0_pay54 v5 v6 v7 (k0_pay52 (k0_pay2 v0 v2)) (k0_pay53 (k0_pay2 v0 v2)) (ix2 p d)
      = Spec.rope (fun d' => ∑ k : Fin 4096, v0 (ix2 p k) * v2 (ix2 (⟨3200 + d'.val, by omega⟩ : Fin 4096) k))
          (fun d => v5 (ix2 p d)) (fun d => v6 (ix2 p d)) (fun d => v7 (ix1 d)) d := by
  have hr : k0_pay53 (k0_pay2 v0 v2) (ix2 p (0 : Fin 1))
      = Ideal.div (∑ d' : Fin 128, k0_pay52 (k0_pay2 v0 v2) (ix2 p d') * k0_pay52 (k0_pay2 v0 v2) (ix2 p d')) Spec.c128
        + Spec.eps := by
    have h := meanSq_apply (n := 64) (k0_pay52 (k0_pay2 v0 v2)) reduces_S64x128_S64 (.inl rfl) rfl shapeCasts_S64_S64x1 p 0
    unfold k0_pay53
    exact h
  have h := headTail_apply (n := 64) (k0_pay52 (k0_pay2 v0 v2)) (k0_pay53 (k0_pay2 v0 v2)) v5 v6 v7 broadcasts_S64x1_S64x128
      shapeCasts_S128_S1x128 broadcasts_S1x128_S64x128 slices_S64x128_o0_0_S64x64 slices_S64x128_o0_64_S64x64
      concatenates_S64x64_S64x64_S64x128_d1 p d hr
  unfold k0_pay54
  refine h.trans ?_
  exact congrArg (fun X => Spec.rope X (fun d => v5 (ix2 p d)) (fun d => v6 (ix2 p d)) (fun d => v7 (ix1 d)) d)
    (funext fun d' => by
      unfold k0_pay52
      exact q_slice_apply v0 v2 3200 (by norm_num) _ p d')

/-- Query head 26 (columns 3328…3455 of the block). -/
theorem q_store26 (v0 : Vec Ideal S64x4096 .f32) (v2 : Vec Ideal S4096x4096 .bf16)
    (v5 v6 : Vec Ideal S64x128 .f32) (v7 : Vec Ideal S128 .f32) (p : Fin 64) (d : Fin 128) :
    k0_pay55 (k0_pay2 v0 v2) v5 v6 v7 (ix2 p d)
      = Spec.rope (fun d' => ∑ k : Fin 4096, v0 (ix2 p k) * v2 (ix2 (⟨3328 + d'.val, by omega⟩ : Fin 4096) k))
          (fun d => v5 (ix2 p d)) (fun d => v6 (ix2 p d)) (fun d => v7 (ix1 d)) d := by
  have h := headFull_apply (n := 64)
      (extractStridedSlice S64x128 ![0, 3328] (k0_pay2 v0 v2) slices_S64x4096_o0_3328_S64x128)
      v5 v6 v7 reduces_S64x128_S64 (.inl rfl) rfl shapeCasts_S64_S64x1 broadcasts_S64x1_S64x128
      shapeCasts_S128_S1x128 broadcasts_S1x128_S64x128 slices_S64x128_o0_0_S64x64 slices_S64x128_o0_64_S64x64
      concatenates_S64x64_S64x64_S64x128_d1 p d
  unfold k0_pay55
  refine h.trans ?_
  exact congrArg (fun X => Spec.rope X (fun d => v5 (ix2 p d)) (fun d => v6 (ix2 p d)) (fun d => v7 (ix1 d)) d)
    (funext fun d' => q_slice_apply v0 v2 3328 (by norm_num) _ p d')

/-- Query head 27 (columns 3456…3583): its slice of the product and the column under the root are computed in
the part before and passed along. -/
theorem q_store27 (v0 : Vec Ideal S64x4096 .f32) (v2 : Vec Ideal S4096x4096 .bf16)
    (v5 v6 : Vec Ideal S64x128 .f32) (v7 : Vec Ideal S128 .f32) (p : Fin 64) (d : Fin 128) :
    k0_pay58 v5 v6 v7 (k0_pay56 (k0_pay2 v0 v2)) (k0_pay57 (k0_pay2 v0 v2)) (ix2 p d)
      = Spec.rope (fun d' => ∑ k : Fin 4096, v0 (ix2 p k) * v2 (ix2 (⟨3456 + d'.val, by omega⟩ : Fin 4096) k))
          (fun d => v5 (ix2 p d)) (fun d => v6 (ix2 p d)) (fun d => v7 (ix1 d)) d := by
  have hr : k0_pay57 (k0_pay2 v0 v2) (ix2 p (0 : Fin 1))
      = Ideal.div (∑ d' : Fin 128, k0_pay56 (k0_pay2 v0 v2) (ix2 p d') * k0_pay56 (k0_pay2 v0 v2) (ix2 p d')) Spec.c128
        + Spec.eps := by
    have h := meanSq_apply (n := 64) (k0_pay56 (k0_pay2 v0 v2)) reduces_S64x128_S64 (.inl rfl) rfl shapeCasts_S64_S64x1 p 0
    unfold k0_pay57
    exact h
  have h := headTail_apply (n := 64) (k0_pay56 (k0_pay2 v0 v2)) (k0_pay57 (k0_pay2 v0 v2)) v5 v6 v7 broadcasts_S64x1_S64x128
      shapeCasts_S128_S1x128 broadcasts_S1x128_S64x128 slices_S64x128_o0_0_S64x64 slices_S64x128_o0_64_S64x64
      concatenates_S64x64_S64x64_S64x128_d1 p d hr
  unfold k0_pay58
  refine h.trans ?_
  exact congrArg (fun X => Spec.rope X (fun d => v5 (ix2 p d)) (fun d => v6 (ix2 p d)) (fun d => v7 (ix1 d)) d)
    (funext fun d' => by
      unfold k0_pay56
      exact q_slice_apply v0 v2 3456 (by norm_num) _ p d')

/-- Query head 28 (columns 3584…3711 of the block). -/
theorem q_store28 (v0 : Vec Ideal S64x4096 .f32) (v2 : Vec Ideal S4096x4096 .bf16)
    (v5 v6 : Vec Ideal S64x128 .f32) (v7 : Vec Ideal S128 .f32) (p : Fin 64) (d : Fin 128) :
    k0_pay59 (k0_pay2 v0 v2) v5 v6 v7 (ix2 p d)
      = Spec.rope (fun d' => ∑ k : Fin 4096, v0 (ix2 p k) * v2 (ix2 (⟨3584 + d'.val, by omega⟩ : Fin 4096) k))
          (fun d => v5 (ix2 p d)) (fun d => v6 (ix2 p d)) (fun d => v7 (ix1 d)) d := by
  have h := headFull_apply (n := 64)
      (extractStridedSlice S64x128 ![0, 3584] (k0_pay2 v0 v2) slices_S64x4096_o0_3584_S64x128)
      v5 v6 v7 reduces_S64x128_S64 (.inl rfl) rfl shapeCasts_S64_S64x1 broadcasts_S64x1_S64x128
      shapeCasts_S128_S1x128 broadcasts_S1x128_S64x128 slices_S64x128_o0_0_S64x64 slices_S64x128_o0_64_S64x64
      concatenates_S64x64_S64x64_S64x128_d1 p d
  unfold k0_pay59
  refine h.trans ?_
  exact congrArg (fun X => Spec.rope X (fun d => v5 (ix2 p d)) (fun d => v6 (ix2 p d)) (fun d => v7 (ix1 d)) d)
    (funext fun d' => q_slice_apply v0 v2 3584 (by norm_num) _ p d')

/-- Query head 29 (columns 3712…3839): its slice of the product and the column under the root are computed in
the part before and passed along. -/
theorem q_store29 (v0 : Vec Ideal S64x4096 .f32) (v2 : Vec Ideal S4096x4096 .bf16)
    (v5 v6 : Vec Ideal S64x128 .f32) (v7 : Vec Ideal S128 .f32) (p : Fin 64) (d : Fin 128) :
    k0_pay62 v5 v6 v7 (k0_pay60 (k0_pay2 v0 v2)) (k0_pay61 (k0_pay2 v0 v2)) (ix2 p d)
      = Spec.rope (fun d' => ∑ k : Fin 4096, v0 (ix2 p k) * v2 (ix2 (⟨3712 + d'.val, by omega⟩ : Fin 4096) k))
          (fun d => v5 (ix2 p d)) (fun d => v6 (ix2 p d)) (fun d => v7 (ix1 d)) d := by
  have hr : k0_pay61 (k0_pay2 v0 v2) (ix2 p (0 : Fin 1))
      = Ideal.div (∑ d' : Fin 128, k0_pay60 (k0_pay2 v0 v2) (ix2 p d') * k0_pay60 (k0_pay2 v0 v2) (ix2 p d')) Spec.c128
        + Spec.eps := by
    have h := meanSq_apply (n := 64) (k0_pay60 (k0_pay2 v0 v2)) reduces_S64x128_S64 (.inl rfl) rfl shapeCasts_S64_S64x1 p 0
    unfold k0_pay61
    exact h
  have h := headTail_apply (n := 64) (k0_pay60 (k0_pay2 v0 v2)) (k0_pay61 (k0_pay2 v0 v2)) v5 v6 v7 broadcasts_S64x1_S64x128
      shapeCasts_S128_S1x128 broadcasts_S1x128_S64x128 slices_S64x128_o0_0_S64x64 slices_S64x128_o0_64_S64x64
      concatenates_S64x64_S64x64_S64x128_d1 p d hr
  unfold k0_pay62
  refine h.trans ?_
  exact congrArg (fun X => Spec.rope X (fun d => v5 (ix2 p d)) (fun d => v6 (ix2 p d)) (fun d => v7 (ix1 d)) d)
    (funext fun d' => by
      unfold k0_pay60
      exact q_slice_apply v0 v2 3712 (by norm_num) _ p d')

/-- Query head 30 (columns 3840…3967 of the block). -/
theorem q_store30 (v0 : Vec Ideal S64x4096 .f32) (v2 : Vec Ideal S4096x4096 .bf16)
    (v5 v6 : Vec Ideal S64x128 .f32) (v7 : Vec Ideal S128 .f32) (p : Fin 64) (d : Fin 128) :
    k0_pay63 (k0_pay2 v0 v2) v5 v6 v7 (ix2 p d)
      = Spec.rope (fun d' => ∑ k : Fin 4096, v0 (ix2 p k) * v2 (ix2 (⟨3840 + d'.val, by omega⟩ : Fin 4096) k))
          (fun d => v5 (ix2 p d)) (fun d => v6 (ix2 p d)) (fun d => v7 (ix1 d)) d := by
  have h := headFull_apply (n := 64)
      (extractStridedSlice S64x128 ![0, 3840] (k0_pay2 v0 v2) slices_S64x4096_o0_3840_S64x128)
      v5 v6 v7 reduces_S64x128_S64 (.inl rfl) rfl shapeCasts_S64_S64x1 broadcasts_S64x1_S64x128
      shapeCasts_S128_S1x128 broadcasts_S1x128_S64x128 slices_S64x128_o0_0_S64x64 slices_S64x128_o0_64_S64x64
      concatenates_S64x64_S64x64_S64x128_d1 p d
  unfold k0_pay63
  refine h.trans ?_
  exact congrArg (fun X => Spec.rope X (fun d => v5 (ix2 p d)) (fun d => v6 (ix2 p d)) (fun d => v7 (ix1 d)) d)
    (funext fun d' => q_slice_apply v0 v2 3840 (by norm_num) _ p d')

/-- Query head 31 (columns 3968…4095): its slice of the product and the column under the root are computed in
the part before and passed along. -/
theorem q_store31 (v0 : Vec Ideal S64x4096 .f32) (v2 : Vec Ideal S4096x4096 .bf16)
    (v5 v6 : Vec Ideal S64x128 .f32) (v7 : Vec Ideal S128 .f32) (p : Fin 64) (d : Fin 128) :
    k0_pay1 v5 v6 v7 (k0_pay64 (k0_pay2 v0 v2)) (k0_pay65 (k0_pay2 v0 v2)) (ix2 p d)
      = Spec.rope (fun d' => ∑ k : Fin 4096, v0 (ix2 p k) * v2 (ix2 (⟨3968 + d'.val, by omega⟩ : Fin 4096) k))
          (fun d => v5 (ix2 p d)) (fun d => v6 (ix2 p d)) (fun d => v7 (ix1 d)) d := by
  have hr : k0_pay65 (k0_pay2 v0 v2) (ix2 p (0 : Fin 1))
      = Ideal.div (∑ d' : Fin 128, k0_pay64 (k0_pay2 v0 v2) (ix2 p d') * k0_pay64 (k0_pay2 v0 v2) (ix2 p d')) Spec.c128
        + Spec.eps := by
    have h := meanSq_apply (n := 64) (k0_pay64 (k0_pay2 v0 v2)) reduces_S64x128_S64 (.inl rfl) rfl shapeCasts_S64_S64x1 p 0
    unfold k0_pay65
    exact h
  have h := headTail_apply (n := 64) (k0_pay64 (k0_pay2 v0 v2)) (k0_pay65 (k0_pay2 v0 v2)) v5 v6 v7 broadcasts_S64x1_S64x128
      shapeCasts_S128_S1x128 broadcasts_S1x128_S64x128 slices_S64x128_o0_0_S64x64 slices_S64x128_o0_64_S64x64
      concatenates_S64x64_S64x64_S64x128_d1 p d hr
  unfold k0_pay1
  refine h.trans ?_
  exact congrArg (fun X => Spec.rope X (fun d => v5 (ix2 p d)) (fun d => v6 (ix2 p d)) (fun d => v7 (ix1 d)) d)
    (funext fun d' => by
      unfold k0_pay64
      exact q_slice_apply v0 v2 3968 (by norm_num) _ p d')

end Cert.KernelPay

end
-- ==== Proof.SpecCols.lean ====
/-
  The specification read at a column given by its block and its place in the block: column b·128 + d of a
  head block (b < 36) is entry d of head b's rotated row, with the query weight for b < 32 and the key weight
  from there on; a column from 4608 on is the projection itself.
-/
import proofs.«167721_j61710090109455_2_alg».proof.Proof.Spec

noncomputable section

namespace Cert.Spec

open Idealize.ShloMosaic Idealize.ShloMosaic.ValueIdx
open scoped BigOperators

variable (h : (⟨2, ![16384, 4096]⟩ : Shape).Idx → EReal) (sn cs : (⟨2, ![16384, 128]⟩ : Shape).Idx → EReal)
  (w : (⟨2, ![5120, 4096]⟩ : Shape).Idx → EReal) (qn kn : (⟨1, ![128]⟩ : Shape).Idx → EReal)

/-- A head column: block `b` below 36, place `d` in the block. -/
theorem Gat_head (t : Fin 16384) (b : Fin 36) (d : Fin 128) (e : Fin 5120) (he : e.val = b.val * 128 + d.val) :
    Gat h sn cs w qn kn t e
      = rope (headRow h w t ⟨b.val, by omega⟩) (fun d' => sn (ix2 t d')) (fun d' => cs (ix2 t d'))
          (fun d' => if b.val < 32 then qn (ix1 d') else kn (ix1 d')) d := by
  have hb := b.isLt
  have hd := d.isLt
  have hlt : e.val < 4608 := by omega
  have hdiv : e.val / 128 = b.val := by rw [he]; omega
  have hmod : e.val % 128 = d.val := by rw [he]; omega
  have hq : (e.val < 4096) = (b.val < 32) := by rw [he]; exact propext ⟨fun _ => by omega, fun _ => by omega⟩
  unfold Gat
  rw [if_pos hlt]
  have e1 : (⟨e.val / 128, by omega⟩ : Fin 40) = ⟨b.val, by omega⟩ := Fin.ext hdiv
  have e2 : (⟨e.val % 128, Nat.mod_lt _ (by norm_num)⟩ : Fin 128) = d := Fin.ext hmod
  rw [e1, e2]
  simp only [hq]

/-- A value column. -/
theorem Gat_val (t : Fin 16384) (e : Fin 5120) (he : 4608 ≤ e.val) :
    Gat h sn cs w qn kn t e = proj h w t e := by
  unfold Gat
  rw [if_neg (by omega)]

end Cert.Spec

end
-- ==== Proof.KI.QBlock.lean ====
/-
  The query kernel's output block against the specification, piece by piece. At grid point t the kernel is handed
  rows t·64 … t·64+63 of the tokens and of the sine and cosine tables, rows 0 … 4095 of the weights, and the
  query norm weight. Piece j < 32 (columns j·128 …) is query head j: entry (a, b) is the rotated, normalised row
  of token t·64+a in head j, that is the specification at column j·128 + b.
-/
import proofs.«167721_j61710090109455_2_alg».proof.Proof.PayQ
import proofs.«167721_j61710090109455_2_alg».proof.Proof.SpecCols
import Idealize.ShloMosaic.Lib.Pipeline.Value
import Idealize.ShloMosaic.Lib.ValueIdx

set_option maxRecDepth 16384

noncomputable section

namespace Cert.KernelIdeal.Val

open Cert.KernelIdeal Cert.KernelIdeal.Gen
open Idealize.ShloMosaic Idealize.ShloMosaic.ValueIdx
open scoped BigOperators

variable (h : (⟨2, ![16384, 4096]⟩ : Shape).Idx → EReal) (sn cs : (⟨2, ![16384, 128]⟩ : Shape).Idx → EReal)
  (w : (⟨2, ![5120, 4096]⟩ : Shape).Idx → EReal) (qn kn : (⟨1, ![128]⟩ : Shape).Idx → EReal)

/-- What the query kernel is handed at grid point `t`: the blocks of the argument arrays. -/
structure QBlocks (t : Fin 256) (x0 : Vec Ideal S64x4096 .f32) (x1 : Vec Ideal S4096x4096 .bf16)
    (x2 x3 : Vec Ideal S64x128 .f32) (x4 : Vec Ideal S128 .f32) : Prop where
  tok : ∀ (a : Fin 64) (k : Fin 4096), x0 (ix2 a k) = h (ix2 (⟨t.val * 64 + a.val, by omega⟩ : Fin 16384) k)
  wgt : ∀ (r : Fin 4096) (k : Fin 4096), x1 (ix2 r k) = w (ix2 (⟨r.val, by omega⟩ : Fin 5120) k)
  sin : ∀ (a : Fin 64) (d : Fin 128), x2 (ix2 a d) = sn (ix2 (⟨t.val * 64 + a.val, by omega⟩ : Fin 16384) d)
  cos : ∀ (a : Fin 64) (d : Fin 128), x3 (ix2 a d) = cs (ix2 (⟨t.val * 64 + a.val, by omega⟩ : Fin 16384) d)
  nrm : ∀ d : Fin 128, x4 (ix1 d) = qn (ix1 d)

variable {h sn cs w qn kn}

/-- A query head's piece is the specification: head `j` of the block is head `j` of the result, with the query
weight. -/
theorem q_head_close {t : Fin 256} {x0 : Vec Ideal S64x4096 .f32} {x1 : Vec Ideal S4096x4096 .bf16}
    {x2 x3 : Vec Ideal S64x128 .f32} {x4 : Vec Ideal S128 .f32} (B : QBlocks h sn cs w qn t x0 x1 x2 x3 x4)
    (j : Fin 32) (row : Fin 128 → Fin 4096) (hrow : ∀ d', (row d').val = j.val * 128 + d'.val)
    (a : Fin 64) (b : Fin 128) (e : Fin 5120) (he : e.val = j.val * 128 + b.val) :
    Spec.rope (fun d' => ∑ k : Fin 4096, x0 (ix2 a k) * x1 (ix2 (row d') k)) (fun d => x2 (ix2 a d)) (fun d => x3 (ix2 a d))
        (fun d => x4 (ix1 d)) b
      = Spec.Gat h sn cs w qn kn ⟨t.val * 64 + a.val, by omega⟩ e := by
  have hj := j.isLt
  rw [Spec.Gat_head h sn cs w qn kn _ (⟨j.val, by omega⟩ : Fin 36) b e (by simp only; omega)]
  have hx : (fun d' => ∑ k : Fin 4096, x0 (ix2 a k) * x1 (ix2 (row d') k))
      = Spec.headRow h w ⟨t.val * 64 + a.val, by omega⟩ ⟨j.val, by omega⟩ := by
    funext d'
    unfold Spec.headRow Spec.proj
    refine Finset.sum_congr rfl fun k _ => ?_
    rw [B.tok a k, B.wgt (row d') k]
    have e1 : (⟨(row d').val, by have := (row d').isLt; omega⟩ : Fin 5120)
        = ⟨j.val * 128 + d'.val, by have := d'.isLt; omega⟩ :=
      Fin.ext (by simp only; rw [hrow d'])
    rw [e1]
  rw [hx]
  have hs : (fun d => x2 (ix2 a d)) = fun d' => sn (ix2 (⟨t.val * 64 + a.val, by omega⟩ : Fin 16384) d') :=
    funext fun d => B.sin a d
  have hc : (fun d => x3 (ix2 a d)) = fun d' => cs (ix2 (⟨t.val * 64 + a.val, by omega⟩ : Fin 16384) d') :=
    funext fun d => B.cos a d
  have hg : (fun d => x4 (ix1 d)) = fun d' => if j.val < 32 then qn (ix1 d') else kn (ix1 d') := by
    funext d; rw [if_pos (by omega)]; exact B.nrm d
  rw [hs, hc, hg]

end Cert.KernelIdeal.Val

end
-- ==== Proof.PayKV.lean ====
/-
  The key/value kernel's five stored blocks read at an index.

  A block of 512 tokens (rows of v0) is multiplied against 1024 rows of the weight (v2); the product's columns
  0…511 are four key heads of 128 columns, each normalised, weighted and rotated, and its columns 512…1023 are the
  values, stored as they are. Each stored block at (p, d) is the specification's function of token p's row of the
  product over the head's 128 columns.
-/
import proofs.«167721_j61710090109455_2_alg».proof.Proof.Gen.KernelIdeal.Skeleton
import proofs.«167721_j61710090109455_2_alg».proof.Proof.PayHead

noncomputable section

namespace Cert.KernelPay

open Idealize.ShloMosaic Idealize.ShloMosaic.ValueIdx Cert.KernelIdeal Cert.KernelIdeal.Gen
open scoped BigOperators

/-! ## The product at an index -/

theorem kv_lhs0 (i : S512x1024.Idx) (q : dot_S512x4096_S1024x4096_S512x1024_1_1_0_0_n_n.contr.Idx) :
    (dot_S512x4096_S1024x4096_S512x1024_1_1_0_0_n_n.lhsIdx i q 0).val = (i 0).val := by
  unfold DotDims.lhsIdx
  rw [dif_neg (show ¬(0 : Fin S512x4096.rank) ∈ dot_S512x4096_S1024x4096_S512x1024_1_1_0_0_n_n.lhsBatch by decide),
    dif_pos (show (0 : Fin S512x4096.rank) ∈ dot_S512x4096_S1024x4096_S512x1024_1_1_0_0_n_n.lhsNonContracting by decide)]
  rfl
theorem kv_lhs1 (i : S512x1024.Idx) (q : dot_S512x4096_S1024x4096_S512x1024_1_1_0_0_n_n.contr.Idx) :
    (dot_S512x4096_S1024x4096_S512x1024_1_1_0_0_n_n.lhsIdx i q 1).val = (q ⟨0, by decide⟩).val :=
  dot_S512x4096_S1024x4096_S512x1024_1_1_0_0_n_n.lhsIdx_val_of_single rfl i q
theorem kv_rhs0 (i : S512x1024.Idx) (q : dot_S512x4096_S1024x4096_S512x1024_1_1_0_0_n_n.contr.Idx) :
    (dot_S512x4096_S1024x4096_S512x1024_1_1_0_0_n_n.rhsIdx i q 0).val = (i 1).val := by
  unfold DotDims.rhsIdx
  rw [dif_neg (show ¬(0 : Fin S1024x4096.rank) ∈ dot_S512x4096_S1024x4096_S512x1024_1_1_0_0_n_n.rhsBatch by decide),
    dif_pos (show (0 : Fin S1024x4096.rank) ∈ dot_S512x4096_S1024x4096_S512x1024_1_1_0_0_n_n.rhsNonContracting by decide)]
  rfl
theorem kv_rhs1 (i : S512x1024.Idx) (q : dot_S512x4096_S1024x4096_S512x1024_1_1_0_0_n_n.contr.Idx) :
    (dot_S512x4096_S1024x4096_S512x1024_1_1_0_0_n_n.rhsIdx i q 1).val = (q ⟨0, by decide⟩).val :=
  dot_S512x4096_S1024x4096_S512x1024_1_1_0_0_n_n.rhsIdx_val_of_single rfl i q

/-- The product block at `(p, e)`: token `p`'s row against weight row `e` (the narrowing to bf16 is the identity
on the extended reals, and the accumulator is zero). -/
theorem kv_mm_apply (v0 : Vec Ideal S512x4096 .f32) (v2 : Vec Ideal S1024x4096 .bf16) (p : Fin 512) (e : Fin 1024) :
    k1_pay3 v0 v2 (ix2 p e) = ∑ k : Fin 4096, v0 (ix2 p k) * v2 (ix2 e k) := by
  unfold k1_pay3
  show FloatOps.matmul (F := Ideal) (φ₁ := .bf16) (φ₂ := .bf16) dot_S512x4096_S1024x4096_S512x1024_1_1_0_0_n_n none (truncf .bf16 (v0 : FVec Ideal S512x4096 .f32) bitsLt_bf16_f32)
      (shapeCast S1024x4096 (v2 : FVec Ideal S1024x4096 .bf16) shapeCasts_S1024x4096_S1024x4096) (constant S512x1024 .f32 0x00000000#32) (ix2 p e) = _
  rw [shapeCast_self, Ideal.matmul_constant_zero_apply,
    ← Equiv.sum_comp (contrEquiv1 dot_S512x4096_S1024x4096_S512x1024_1_1_0_0_n_n 4096 rfl rfl).symm]
  refine Finset.sum_congr rfl fun k _ => ?_
  have hk := contrEquiv1_symm_val dot_S512x4096_S1024x4096_S512x1024_1_1_0_0_n_n 4096 rfl rfl k
  have el : dot_S512x4096_S1024x4096_S512x1024_1_1_0_0_n_n.lhsIdx (ix2 p e) ((contrEquiv1 dot_S512x4096_S1024x4096_S512x1024_1_1_0_0_n_n 4096 rfl rfl).symm k) = ix2 p k :=
    funext fun a => Fin.ext (by
      match a with
      | ⟨0, _⟩ => exact kv_lhs0 _ _
      | ⟨1, _⟩ => exact (kv_lhs1 _ _).trans hk)
  have er : dot_S512x4096_S1024x4096_S512x1024_1_1_0_0_n_n.rhsIdx (ix2 p e) ((contrEquiv1 dot_S512x4096_S1024x4096_S512x1024_1_1_0_0_n_n 4096 rfl rfl).symm k) = ix2 e k :=
    funext fun a => Fin.ext (by
      match a with
      | ⟨0, _⟩ => exact kv_rhs0 _ _
      | ⟨1, _⟩ => exact (kv_rhs1 _ _).trans hk)
  rw [el, er]
  rfl

/-- A 128-column slice of the product at `(p, d')`: token `p`'s row against weight row `off + d'`. -/
theorem kv_slice_apply (v0 : Vec Ideal S512x4096 .f32) (v2 : Vec Ideal S1024x4096 .bf16) (off : Nat)
    (hoff : off + 128 ≤ 1024) (h : S512x1024.Slices ![0, off] S512x128) (p : Fin 512) (d' : Fin 128) :
    extractStridedSlice S512x128 ![0, off] (k1_pay3 v0 v2) h (ix2 p d')
      = ∑ k : Fin 4096, v0 (ix2 p k) * v2 (ix2 (⟨off + d'.val, by omega⟩ : Fin 1024) k) :=
  (slice2_axis1_eq off (k1_pay3 v0 v2) h p d').trans (kv_mm_apply v0 v2 p _)

/-! ## The four key heads -/

/-- Key head 0 (columns 0…127 of the block). -/
theorem kv_store0 (v0 : Vec Ideal S512x4096 .f32) (v2 : Vec Ideal S1024x4096 .bf16)
    (v5 v6 : Vec Ideal S512x128 .f32) (v7 : Vec Ideal S128 .f32) (p : Fin 512) (d : Fin 128) :
    k1_pay4 v0 v2 v5 v6 v7 (ix2 p d)
      = Spec.rope (fun d' => ∑ k : Fin 4096, v0 (ix2 p k) * v2 (ix2 (⟨0 + d'.val, by omega⟩ : Fin 1024) k))
          (fun d => v5 (ix2 p d)) (fun d => v6 (ix2 p d)) (fun d => v7 (ix1 d)) d := by
  have h := headFull_apply (n := 512)
      (extractStridedSlice S512x128 ![0, 0] (k1_pay3 v0 v2) slices_S512x1024_o0_0_S512x128)
      v5 v6 v7 reduces_S512x128_S512 (.inl rfl) rfl shapeCasts_S512_S512x1 broadcasts_S512x1_S512x128
      shapeCasts_S128_S1x128 broadcasts_S1x128_S512x128 slices_S512x128_o0_0_S512x64 slices_S512x128_o0_64_S512x64
      concatenates_S512x64_S512x64_S512x128_d1 p d
  unfold k1_pay4
  refine h.trans ?_
  exact congrArg (fun X => Spec.rope X (fun d => v5 (ix2 p d)) (fun d => v6 (ix2 p d)) (fun d => v7 (ix1 d)) d)
    (funext fun d' => kv_slice_apply v0 v2 0 (by norm_num) _ p d')

/-- Key head 1 (columns 128…255): its slice of the product and the column under the root are computed in the part
before and passed along. -/
theorem kv_store1 (v0 : Vec Ideal S512x4096 .f32) (v2 : Vec Ideal S1024x4096 .bf16)
    (v5 v6 : Vec Ideal S512x128 .f32) (v7 : Vec Ideal S128 .f32) (p : Fin 512) (d : Fin 128) :
    k1_pay7 v5 v6 v7 (k1_pay5 v0 v2) (k1_pay6 v0 v2) (ix2 p d)
      = Spec.rope (fun d' => ∑ k : Fin 4096, v0 (ix2 p k) * v2 (ix2 (⟨128 + d'.val, by omega⟩ : Fin 1024) k))
          (fun d => v5 (ix2 p d)) (fun d => v6 (ix2 p d)) (fun d => v7 (ix1 d)) d := by
  have hr : k1_pay6 v0 v2 (ix2 p (0 : Fin 1))
      = Ideal.div (∑ d' : Fin 128, k1_pay5 v0 v2 (ix2 p d') * k1_pay5 v0 v2 (ix2 p d')) Spec.c128 + Spec.eps := by
    have h := meanSq_apply (n := 512) (k1_pay5 v0 v2) reduces_S512x128_S512 (.inl rfl) rfl shapeCasts_S512_S512x1 p 0
    unfold k1_pay6
    exact h
  have h := headTail_apply (n := 512) (k1_pay5 v0 v2) (k1_pay6 v0 v2) v5 v6 v7 broadcasts_S512x1_S512x128
      shapeCasts_S128_S1x128 broadcasts_S1x128_S512x128 slices_S512x128_o0_0_S512x64 slices_S512x128_o0_64_S512x64
      concatenates_S512x64_S512x64_S512x128_d1 p d hr
  unfold k1_pay7
  refine h.trans ?_
  exact congrArg (fun X => Spec.rope X (fun d => v5 (ix2 p d)) (fun d => v6 (ix2 p d)) (fun d => v7 (ix1 d)) d)
    (funext fun d' => by
      unfold k1_pay5
      exact kv_slice_apply v0 v2 128 (by norm_num) _ p d')

/-- Key head 2 (columns 256…383). -/
theorem kv_store2 (v0 : Vec Ideal S512x4096 .f32) (v2 : Vec Ideal S1024x4096 .bf16)
    (v5 v6 : Vec Ideal S512x128 .f32) (v7 : Vec Ideal S128 .f32) (p : Fin 512) (d : Fin 128) :
    k1_pay8 (k1_pay3 v0 v2) v5 v6 v7 (ix2 p d)
      = Spec.rope (fun d' => ∑ k : Fin 4096, v0 (ix2 p k) * v2 (ix2 (⟨256 + d'.val, by omega⟩ : Fin 1024) k))
          (fun d => v5 (ix2 p d)) (fun d => v6 (ix2 p d)) (fun d => v7 (ix1 d)) d := by
  have h := headFull_apply (n := 512)
      (extractStridedSlice S512x128 ![0, 256] (k1_pay3 v0 v2) slices_S512x1024_o0_256_S512x128)
      v5 v6 v7 reduces_S512x128_S512 (.inl rfl) rfl shapeCasts_S512_S512x1 broadcasts_S512x1_S512x128
      shapeCasts_S128_S1x128 broadcasts_S1x128_S512x128 slices_S512x128_o0_0_S512x64 slices_S512x128_o0_64_S512x64
      concatenates_S512x64_S512x64_S512x128_d1 p d
  unfold k1_pay8
  refine h.trans ?_
  exact congrArg (fun X => Spec.rope X (fun d => v5 (ix2 p d)) (fun d => v6 (ix2 p d)) (fun d => v7 (ix1 d)) d)
    (funext fun d' => kv_slice_apply v0 v2 256 (by norm_num) _ p d')

/-- Key head 3 (columns 384…511): again the slice and the column under the root are passed along. -/
theorem kv_store3 (v0 : Vec Ideal S512x4096 .f32) (v2 : Vec Ideal S1024x4096 .bf16)
    (v5 v6 : Vec Ideal S512x128 .f32) (v7 : Vec Ideal S128 .f32) (p : Fin 512) (d : Fin 128) :
    k1_pay1 v5 v6 v7 (k1_pay9 (k1_pay3 v0 v2)) (k1_pay10 (k1_pay3 v0 v2)) (ix2 p d)
      = Spec.rope (fun d' => ∑ k : Fin 4096, v0 (ix2 p k) * v2 (ix2 (⟨384 + d'.val, by omega⟩ : Fin 1024) k))
          (fun d => v5 (ix2 p d)) (fun d => v6 (ix2 p d)) (fun d => v7 (ix1 d)) d := by
  have hr : k1_pay10 (k1_pay3 v0 v2) (ix2 p (0 : Fin 1))
      = Ideal.div (∑ d' : Fin 128, k1_pay9 (k1_pay3 v0 v2) (ix2 p d') * k1_pay9 (k1_pay3 v0 v2) (ix2 p d')) Spec.c128 + Spec.eps := by
    have h := meanSq_apply (n := 512) (k1_pay9 (k1_pay3 v0 v2)) reduces_S512x128_S512 (.inl rfl) rfl shapeCasts_S512_S512x1 p 0
    unfold k1_pay10
    exact h
  have h := headTail_apply (n := 512) (k1_pay9 (k1_pay3 v0 v2)) (k1_pay10 (k1_pay3 v0 v2)) v5 v6 v7 broadcasts_S512x1_S512x128
      shapeCasts_S128_S1x128 broadcasts_S1x128_S512x128 slices_S512x128_o0_0_S512x64 slices_S512x128_o0_64_S512x64
      concatenates_S512x64_S512x64_S512x128_d1 p d hr
  unfold k1_pay1
  refine h.trans ?_
  exact congrArg (fun X => Spec.rope X (fun d => v5 (ix2 p d)) (fun d => v6 (ix2 p d)) (fun d => v7 (ix1 d)) d)
    (funext fun d' => by
      unfold k1_pay9
      exact kv_slice_apply v0 v2 384 (by norm_num) _ p d')

/-! ## The values -/

/-- The value columns (512…1023 of the block) are the product itself. -/
theorem kv_store4 (v0 : Vec Ideal S512x4096 .f32) (v2 : Vec Ideal S1024x4096 .bf16) (p : Fin 512) (q : Fin 512) :
    k1_pay2 (k1_pay3 v0 v2) (ix2 p q)
      = ∑ k : Fin 4096, v0 (ix2 p k) * v2 (ix2 (⟨512 + q.val, by omega⟩ : Fin 1024) k) := by
  unfold k1_pay2
  exact (slice2_axis1_eq 512 (k1_pay3 v0 v2) slices_S512x1024_o0_512_S512x512 p q).trans (kv_mm_apply v0 v2 p _)

end Cert.KernelPay

end
-- ==== Proof.KI.KVBlock.lean ====
/-
  The key/value kernel's output block, read back from the pieces its five stores leave, against the
  specification. At grid point t the kernel is handed rows t·512 … t·512+511 of the tokens, of the sine and
  cosine tables, rows 4096 … 5119 of the weights, and the key norm weight. Piece j < 4 (columns j·128 …) is key
  head j: entry (a, b) is the rotated, normalised row of token t·512+a in head 32+j, that is the specification
  at column 4096 + j·128 + b; the last piece (columns 512 … 1023) is the plain projection, the specification at
  column 4608 + its column. The pieces tile the block, so every entry of the block is the specification's.
-/
import proofs.«167721_j61710090109455_2_alg».proof.Proof.KI.KVRun
import proofs.«167721_j61710090109455_2_alg».proof.Proof.PayKV
import proofs.«167721_j61710090109455_2_alg».proof.Proof.SpecCols
import Idealize.ShloMosaic.Lib.Pipeline.Value
import Idealize.ShloMosaic.Lib.ValueIdx

set_option maxRecDepth 16384

noncomputable section

namespace Cert.KernelIdeal.Val

open Cert.KernelIdeal Cert.KernelIdeal.Gen Cert.KernelIdeal.Fr
open Idealize.ShloMosaic Idealize.ShloMosaic.TcCoe Idealize.ShloMosaic.ValueIdx Idealize.ShloMosaic.Tactic
open Idealize.SL Idealize.SL.Sem
open scoped BigOperators

variable (h : (⟨2, ![16384, 4096]⟩ : Shape).Idx → EReal) (sn cs : (⟨2, ![16384, 128]⟩ : Shape).Idx → EReal)
  (w : (⟨2, ![5120, 4096]⟩ : Shape).Idx → EReal) (qn kn : (⟨1, ![128]⟩ : Shape).Idx → EReal)

/-- What the key/value kernel is handed at grid point `t`: the blocks of the argument arrays. -/
structure KVBlocks (t : Fin 32) (x0 : Vec Ideal S512x4096 .f32) (x1 : Vec Ideal S1024x4096 .bf16)
    (x2 x3 : Vec Ideal S512x128 .f32) (x4 : Vec Ideal S128 .f32) : Prop where
  tok : ∀ (a : Fin 512) (k : Fin 4096), x0 (ix2 a k) = h (ix2 (⟨t.val * 512 + a.val, by omega⟩ : Fin 16384) k)
  wgt : ∀ (r : Fin 1024) (k : Fin 4096), x1 (ix2 r k) = w (ix2 (⟨4096 + r.val, by omega⟩ : Fin 5120) k)
  sin : ∀ (a : Fin 512) (d : Fin 128), x2 (ix2 a d) = sn (ix2 (⟨t.val * 512 + a.val, by omega⟩ : Fin 16384) d)
  cos : ∀ (a : Fin 512) (d : Fin 128), x3 (ix2 a d) = cs (ix2 (⟨t.val * 512 + a.val, by omega⟩ : Fin 16384) d)
  nrm : ∀ d : Fin 128, x4 (ix1 d) = kn (ix1 d)

variable {h sn cs w qn kn}

/-- A key head's piece is the specification: head `j` of the block is head `32 + j` of the result. -/
theorem kv_head_close {t : Fin 32} {x0 : Vec Ideal S512x4096 .f32} {x1 : Vec Ideal S1024x4096 .bf16}
    {x2 x3 : Vec Ideal S512x128 .f32} {x4 : Vec Ideal S128 .f32} (B : KVBlocks h sn cs w kn t x0 x1 x2 x3 x4)
    (j : Fin 4) (row : Fin 128 → Fin 1024) (hrow : ∀ d', (row d').val = j.val * 128 + d'.val)
    (a : Fin 512) (b : Fin 128) (e : Fin 5120) (he : e.val = 4096 + (j.val * 128 + b.val)) :
    Spec.rope (fun d' => ∑ k : Fin 4096, x0 (ix2 a k) * x1 (ix2 (row d') k)) (fun d => x2 (ix2 a d)) (fun d => x3 (ix2 a d))
        (fun d => x4 (ix1 d)) b
      = Spec.Gat h sn cs w qn kn ⟨t.val * 512 + a.val, by omega⟩ e := by
  have hj := j.isLt
  rw [Spec.Gat_head h sn cs w qn kn _ (⟨32 + j.val, by omega⟩ : Fin 36) b e (by simp only; omega)]
  have hx : (fun d' => ∑ k : Fin 4096, x0 (ix2 a k) * x1 (ix2 (row d') k))
      = Spec.headRow h w ⟨t.val * 512 + a.val, by omega⟩ ⟨32 + j.val, by omega⟩ := by
    funext d'
    unfold Spec.headRow Spec.proj
    refine Finset.sum_congr rfl fun k _ => ?_
    rw [B.tok a k, B.wgt (row d') k]
    have e1 : (⟨4096 + (row d').val, by have := (row d').isLt; omega⟩ : Fin 5120) = ⟨(32 + j.val) * 128 + d'.val, by have := d'.isLt; omega⟩ :=
      Fin.ext (by simp only; rw [hrow d']; omega)
    rw [e1]
  rw [hx]
  have hs : (fun d => x2 (ix2 a d)) = fun d' => sn (ix2 (⟨t.val * 512 + a.val, by omega⟩ : Fin 16384) d') := funext fun d => B.sin a d
  have hc : (fun d => x3 (ix2 a d)) = fun d' => cs (ix2 (⟨t.val * 512 + a.val, by omega⟩ : Fin 16384) d') := funext fun d => B.cos a d
  have hg : (fun d => x4 (ix1 d)) = fun d' => if 32 + j.val < 32 then qn (ix1 d') else kn (ix1 d') := by
    funext d; rw [if_neg (by omega)]; exact B.nrm d
  rw [hs, hc, hg]

/-- The value columns' piece is the projection, the specification from column 4608 on. -/
theorem kv_val_close {t : Fin 32} {x0 : Vec Ideal S512x4096 .f32} {x1 : Vec Ideal S1024x4096 .bf16}
    {x2 x3 : Vec Ideal S512x128 .f32} {x4 : Vec Ideal S128 .f32} (B : KVBlocks h sn cs w kn t x0 x1 x2 x3 x4)
    (a : Fin 512) (q : Fin 512) (r : Fin 1024) (hr : r.val = 512 + q.val) (e : Fin 5120) (he : e.val = 4096 + (512 + q.val)) :
    (∑ k : Fin 4096, x0 (ix2 a k) * x1 (ix2 r k))
      = Spec.Gat h sn cs w qn kn ⟨t.val * 512 + a.val, by omega⟩ e := by
  rw [Spec.Gat_val h sn cs w qn kn _ e (by omega)]
  unfold Spec.proj
  refine Finset.sum_congr rfl fun k _ => ?_
  rw [B.tok a k, B.wgt r k]
  have e1 : (⟨4096 + r.val, by have := r.isLt; omega⟩ : Fin 5120) = e := Fin.ext (by simp only; omega)
  rw [e1]

end Cert.KernelIdeal.Val

end
-- ==== Proof.KI.KVCanon.lean ====
/-
  The key/value kernel's output block, read back: every entry (a, q) of the block the five stores leave at grid
  point t is the specification at token t·512 + a, column 4096 + q.
-/
import proofs.«167721_j61710090109455_2_alg».proof.Proof.KI.KVBlock
import proofs.«167721_j61710090109455_2_alg».proof.Proof.KI.Data1
import Idealize.ShloMosaic.Lib.Ring

set_option maxRecDepth 16384

noncomputable section

namespace Cert.KernelIdeal.Val

open Cert.KernelIdeal Cert.KernelIdeal.Gen Cert.KernelIdeal.Fr
open Idealize.ShloMosaic Idealize.ShloMosaic.TcCoe Idealize.ShloMosaic.ValueIdx Idealize.ShloMosaic.Tactic
open Idealize.SL Idealize.SL.Sem
open scoped BigOperators

variable {h : (⟨2, ![16384, 4096]⟩ : Shape).Idx → EReal} {sn cs : (⟨2, ![16384, 128]⟩ : Shape).Idx → EReal}
  {w : (⟨2, ![5120, 4096]⟩ : Shape).Idx → EReal} {qn kn : (⟨1, ![128]⟩ : Shape).Idx → EReal}

/-- The specification depends on the token and the column only through their numbers. -/
theorem Gat_congr {t t' : Fin 16384} {e e' : Fin 5120} (ht : t.val = t'.val) (he : e.val = e'.val) :
    Spec.Gat h sn cs w qn kn t e = Spec.Gat h sn cs w qn kn t' e' := by
  obtain rfl := Fin.ext ht
  obtain rfl := Fin.ext he
  rfl

/-- A coordinate of a unit-stride rectangle's entry in the block: the offset plus the coordinate inside. -/
theorem emb_unit_val {S : Shape} (off size : Fin S.rank → Nat) (inb : ∀ a, off a + size a ≤ S.size a)
    (x : (Rect.unit (s := S) off size inb).shape.Idx) (a : Fin S.rank) :
    ((Rect.unit (s := S) off size inb).emb x a : Nat) = off a + (x a : Nat) := by
  rw [Rect.emb_apply, Rect.off_unit, Rect.stride_unit, Nat.one_mul]

variable (h sn cs w qn kn) in
/-- The specification on the block of grid point `t`: token t·512 + row, column 4096 + column. -/
def kvG (t : Fin 32) : S512x1024.Idx → EReal := fun y =>
  Spec.Gat h sn cs w qn kn ⟨t.val * 512 + (y 0 : Fin 512).val, by have h0 : ((y 0 : Fin 512) : Nat) < 512 := (y 0 : Fin 512).isLt; omega⟩
    ⟨4096 + (y 1 : Fin 1024).val, by have h1 : ((y 1 : Fin 1024) : Nat) < 1024 := (y 1 : Fin 1024).isLt; omega⟩

theorem kv_canon {t : Fin 32} {x0 : Vec Ideal S512x4096 .f32} {x1 : Vec Ideal S1024x4096 .bf16}
    {x2 x3 : Vec Ideal S512x128 .f32} {x4 : Vec Ideal S128 .f32} (B : KVBlocks h sn cs w kn t x0 x1 x2 x3 x4)
    (c : Dev nD) (i : grid1.Coords)
    (arg1 : Memref sig .tc .vmem S512x4096 .f32) (harg1 : arg1.IsWhole) (arg2 : Memref sig .tc .vmem S1024x4096 .bf16) (harg2 : arg2.IsWhole)
    (arg3 : Memref sig .tc .vmem S512x128 .f32) (harg3 : arg3.IsWhole) (arg4 : Memref sig .tc .vmem S512x128 .f32) (harg4 : arg4.IsWhole)
    (arg5 : Memref sig .tc .vmem S128 .f32) (harg5 : arg5.IsWhole) (arg6 : Memref sig .tc .vmem S512x1024 .f32) (harg6 : arg6.IsWhole)
    (y : S512x1024.Idx) :
    View.canon (kvRun (F := Ideal) c i arg1 harg1 arg2 harg2 arg3 harg3 arg4 harg4 arg5 harg5 arg6 harg6 x0 x1 x2 x3 x4).1 y
      = kvG h sn cs w qn kn t y := by
  have hz2 : (![0, 0] : Fin 2 → Nat) = fun _ => 0 := funext fun a => by fin_cases a <;> rfl
  have hz1 : (![0] : Fin 1 → Nat) = fun _ => 0 := funext fun a => by fin_cases a <;> rfl
  have r0 : View.readAt (Elt Ideal) arg1.view (Rect.unit ![0, 0] S512x4096.size inb_S512x4096_S512x4096_0_0).toLoadRect (harg1.unread x0) = x0 := by
    rw [View.readAt_eq_ld, harg1.read_unread, View.ld_unit_zero hz2]
  have r1 : View.readAt (Elt Ideal) arg2.view (Rect.unit ![0, 0] S1024x4096.size inb_S1024x4096_S1024x4096_0_0).toLoadRect (harg2.unread x1) = x1 := by
    rw [View.readAt_eq_ld, harg2.read_unread, View.ld_unit_zero hz2]
  have r2 : View.readAt (Elt Ideal) arg3.view (Rect.unit ![0, 0] S512x128.size inb_S512x128_S512x128_0_0).toLoadRect (harg3.unread x2) = x2 := by
    rw [View.readAt_eq_ld, harg3.read_unread, View.ld_unit_zero hz2]
  have r3 : View.readAt (Elt Ideal) arg4.view (Rect.unit ![0, 0] S512x128.size inb_S512x128_S512x128_0_0).toLoadRect (harg4.unread x3) = x3 := by
    rw [View.readAt_eq_ld, harg4.read_unread, View.ld_unit_zero hz2]
  have r4 : View.readAt (Elt Ideal) arg5.view (Rect.unit ![0] S128.size inb_S128_S128_0).toLoadRect (harg5.unread x4) = x4 := by
    rw [View.readAt_eq_ld, harg5.read_unread, View.ld_unit_zero hz1]
  refine View.canon_apply_of_pieces (Val := Elt Ideal) (e := .f32) (kvG h sn cs w qn kn t) _ ?hp y
    (cover1 c i arg1 harg1 arg2 harg2 arg3 harg3 arg4 harg4 arg5 harg5 arg6 harg6 x0 x1 x2 x3 x4 y)
  unfold kvRun
  dsimp only
  sl_unfold_words
  rw [r0, r1, r2, r3, r4]
  intro pc hpc x
  simp only [List.mem_cons, List.mem_nil_iff, or_false] at hpc
  rcases hpc with rfl | rfl | rfl | rfl | rfl
  · -- the value columns
    obtain ⟨p, q, rfl⟩ : ∃ (p : Fin 512) (q : Fin 512), x = ix2 p q := ⟨x 0, x 1, eq_ix2 x⟩
    refine (KernelPay.kv_store4 x0 x1 p q).trans ?_
    refine (kv_val_close (qn := qn) B p q ⟨512 + q.val, by omega⟩ rfl ⟨4096 + (512 + q.val), by omega⟩ rfl).trans ?_
    unfold kvG
    exact Gat_congr (by simp only [emb_unit_val]; show t.val * 512 + p.val = t.val * 512 + (0 + p.val); omega)
      (by simp only [emb_unit_val]; show 4096 + (512 + q.val) = 4096 + (512 + q.val); rfl)
  · -- key head 3: columns 384 … 511
    obtain ⟨p, d, rfl⟩ : ∃ (p : Fin 512) (d : Fin 128), x = ix2 p d := ⟨x 0, x 1, eq_ix2 x⟩
    refine (KernelPay.kv_store3 x0 x1 x2 x3 x4 p d).trans ?_
    refine (kv_head_close (qn := qn) B (⟨3, by omega⟩ : Fin 4) (fun d' => (⟨384 + d'.val, by omega⟩ : Fin 1024)) (fun d' => by first | rfl | omega | (simp only; omega)) p d
      ⟨4096 + (384 + d.val), by omega⟩ (by first | rfl | omega | (simp only; omega))).trans ?_
    unfold kvG
    exact Gat_congr (by simp only [emb_unit_val]; show t.val * 512 + p.val = t.val * 512 + (0 + p.val); omega)
      (by simp only [emb_unit_val]; show 4096 + (384 + d.val) = 4096 + (384 + d.val); rfl)
  · -- key head 2: columns 256 … 383
    obtain ⟨p, d, rfl⟩ : ∃ (p : Fin 512) (d : Fin 128), x = ix2 p d := ⟨x 0, x 1, eq_ix2 x⟩
    refine (KernelPay.kv_store2 x0 x1 x2 x3 x4 p d).trans ?_
    refine (kv_head_close (qn := qn) B (⟨2, by omega⟩ : Fin 4) (fun d' => (⟨256 + d'.val, by omega⟩ : Fin 1024)) (fun d' => by first | rfl | omega | (simp only; omega)) p d
      ⟨4096 + (256 + d.val), by omega⟩ (by first | rfl | omega | (simp only; omega))).trans ?_
    unfold kvG
    exact Gat_congr (by simp only [emb_unit_val]; show t.val * 512 + p.val = t.val * 512 + (0 + p.val); omega)
      (by simp only [emb_unit_val]; show 4096 + (256 + d.val) = 4096 + (256 + d.val); rfl)
  · -- key head 1: columns 128 … 255
    obtain ⟨p, d, rfl⟩ : ∃ (p : Fin 512) (d : Fin 128), x = ix2 p d := ⟨x 0, x 1, eq_ix2 x⟩
    refine (KernelPay.kv_store1 x0 x1 x2 x3 x4 p d).trans ?_
    refine (kv_head_close (qn := qn) B (⟨1, by omega⟩ : Fin 4) (fun d' => (⟨128 + d'.val, by omega⟩ : Fin 1024)) (fun d' => by first | rfl | omega | (simp only; omega)) p d
      ⟨4096 + (128 + d.val), by omega⟩ (by first | rfl | omega | (simp only; omega))).trans ?_
    unfold kvG
    exact Gat_congr (by simp only [emb_unit_val]; show t.val * 512 + p.val = t.val * 512 + (0 + p.val); omega)
      (by simp only [emb_unit_val]; show 4096 + (128 + d.val) = 4096 + (128 + d.val); rfl)
  · -- key head 0: columns 0 … 127
    obtain ⟨p, d, rfl⟩ : ∃ (p : Fin 512) (d : Fin 128), x = ix2 p d := ⟨x 0, x 1, eq_ix2 x⟩
    refine (KernelPay.kv_store0 x0 x1 x2 x3 x4 p d).trans ?_
    refine (kv_head_close (qn := qn) B (⟨0, by omega⟩ : Fin 4) (fun d' => (⟨0 + d'.val, by omega⟩ : Fin 1024)) (fun d' => by first | rfl | omega | (simp only; omega)) p d
      ⟨4096 + (0 + d.val), by omega⟩ (by first | rfl | omega | (simp only; omega))).trans ?_
    unfold kvG
    exact Gat_congr (by simp only [emb_unit_val]; show t.val * 512 + p.val = t.val * 512 + (0 + p.val); omega)
      (by simp only [emb_unit_val]; show 4096 + (0 + d.val) = 4096 + (0 + d.val); rfl)

end Cert.KernelIdeal.Val

end
-- ==== Proof.KI.QCanon.lean ====
/-
  The query kernel's output block, read back: every entry (a, q) of the block the thirty-two stores leave at grid
  point t is the specification at token t·64 + a, column q.
-/
import proofs.«167721_j61710090109455_2_alg».proof.Proof.KI.QBlock
import proofs.«167721_j61710090109455_2_alg».proof.Proof.KI.Data0
import proofs.«167721_j61710090109455_2_alg».proof.Proof.KI.KVCanon
import Idealize.ShloMosaic.Lib.Ring

set_option maxRecDepth 16384

noncomputable section

namespace Cert.KernelIdeal.Val

open Cert.KernelIdeal Cert.KernelIdeal.Gen Cert.KernelIdeal.Fr
open Idealize.ShloMosaic Idealize.ShloMosaic.TcCoe Idealize.ShloMosaic.ValueIdx Idealize.ShloMosaic.Tactic
open Idealize.SL Idealize.SL.Sem
open scoped BigOperators

variable {h : (⟨2, ![16384, 4096]⟩ : Shape).Idx → EReal} {sn cs : (⟨2, ![16384, 128]⟩ : Shape).Idx → EReal}
  {w : (⟨2, ![5120, 4096]⟩ : Shape).Idx → EReal} {qn kn : (⟨1, ![128]⟩ : Shape).Idx → EReal}

variable (h sn cs w qn kn) in
/-- The specification on the block of grid point `t`: token t·64 + row, column as it is. -/
def qG (t : Fin 256) : S64x4096.Idx → EReal := fun y =>
  Spec.Gat h sn cs w qn kn ⟨t.val * 64 + (y 0 : Fin 64).val, by have h0 : ((y 0 : Fin 64) : Nat) < 64 := (y 0 : Fin 64).isLt; omega⟩
    ⟨(y 1 : Fin 4096).val, by have h1 : ((y 1 : Fin 4096) : Nat) < 4096 := (y 1 : Fin 4096).isLt; omega⟩

theorem q_canon {t : Fin 256} {x0 : Vec Ideal S64x4096 .f32} {x1 : Vec Ideal S4096x4096 .bf16}
    {x2 x3 : Vec Ideal S64x128 .f32} {x4 : Vec Ideal S128 .f32} (B : QBlocks h sn cs w qn t x0 x1 x2 x3 x4)
    (c : Dev nD) (i : grid0.Coords)
    (arg1 : Memref sig .tc .vmem S64x4096 .f32) (harg1 : arg1.IsWhole) (arg2 : Memref sig .tc .vmem S4096x4096 .bf16) (harg2 : arg2.IsWhole)
    (arg3 : Memref sig .tc .vmem S64x128 .f32) (harg3 : arg3.IsWhole) (arg4 : Memref sig .tc .vmem S64x128 .f32) (harg4 : arg4.IsWhole)
    (arg5 : Memref sig .tc .vmem S128 .f32) (harg5 : arg5.IsWhole) (arg6 : Memref sig .tc .vmem S64x4096 .f32) (harg6 : arg6.IsWhole)
    (y : S64x4096.Idx) :
    View.canon (qRun (F := Ideal) c i arg1 harg1 arg2 harg2 arg3 harg3 arg4 harg4 arg5 harg5 arg6 harg6 x0 x1 x2 x3 x4).1 y
      = qG h sn cs w qn kn t y := by
  have hz2 : (![0, 0] : Fin 2 → Nat) = fun _ => 0 := funext fun a => by fin_cases a <;> rfl
  have hz1 : (![0] : Fin 1 → Nat) = fun _ => 0 := funext fun a => by fin_cases a <;> rfl
  have r0 : View.readAt (Elt Ideal) arg1.view (Rect.unit ![0, 0] S64x4096.size inb_S64x4096_S64x4096_0_0).toLoadRect (harg1.unread x0) = x0 := by
    rw [View.readAt_eq_ld, harg1.read_unread, View.ld_unit_zero hz2]
  have r1 : View.readAt (Elt Ideal) arg2.view (Rect.unit ![0, 0] S4096x4096.size inb_S4096x4096_S4096x4096_0_0).toLoadRect (harg2.unread x1) = x1 := by
    rw [View.readAt_eq_ld, harg2.read_unread, View.ld_unit_zero hz2]
  have r2 : View.readAt (Elt Ideal) arg3.view (Rect.unit ![0, 0] S64x128.size inb_S64x128_S64x128_0_0).toLoadRect (harg3.unread x2) = x2 := by
    rw [View.readAt_eq_ld, harg3.read_unread, View.ld_unit_zero hz2]
  have r3 : View.readAt (Elt Ideal) arg4.view (Rect.unit ![0, 0] S64x128.size inb_S64x128_S64x128_0_0).toLoadRect (harg4.unread x3) = x3 := by
    rw [View.readAt_eq_ld, harg4.read_unread, View.ld_unit_zero hz2]
  have r4 : View.readAt (Elt Ideal) arg5.view (Rect.unit ![0] S128.size inb_S128_S128_0).toLoadRect (harg5.unread x4) = x4 := by
    rw [View.readAt_eq_ld, harg5.read_unread, View.ld_unit_zero hz1]
  refine View.canon_apply_of_pieces (Val := Elt Ideal) (e := .f32) (qG h sn cs w qn kn t) _ ?hp y
    (cover0 c i arg1 harg1 arg2 harg2 arg3 harg3 arg4 harg4 arg5 harg5 arg6 harg6 x0 x1 x2 x3 x4 y)
  unfold qRun
  dsimp only
  sl_unfold_words
  rw [r0, r1, r2, r3, r4]
  intro pc hpc x
  simp only [List.mem_cons, List.mem_nil_iff, or_false] at hpc
  rcases hpc with rfl | rfl | rfl | rfl | rfl | rfl | rfl | rfl | rfl | rfl | rfl | rfl | rfl | rfl | rfl | rfl | rfl | rfl | rfl | rfl | rfl | rfl | rfl | rfl | rfl | rfl | rfl | rfl | rfl | rfl | rfl | rfl
  · -- query head 31: columns 3968 … 4095
    obtain ⟨p, d, rfl⟩ : ∃ (p : Fin 64) (d : Fin 128), x = ix2 p d := ⟨x 0, x 1, eq_ix2 x⟩
    refine (KernelPay.q_store31 x0 x1 x2 x3 x4 p d).trans ?_
    refine (q_head_close (kn := kn) B (⟨31, by omega⟩ : Fin 32) (fun d' => (⟨3968 + d'.val, by omega⟩ : Fin 4096)) (fun d' => by first | rfl | omega | (simp only; omega)) p d
      ⟨3968 + d.val, by omega⟩ (by first | rfl | omega | (simp only; omega))).trans ?_
    unfold qG
    exact Gat_congr (by simp only [emb_unit_val]; show t.val * 64 + p.val = t.val * 64 + (0 + p.val); omega)
      (by simp only [emb_unit_val]; show 3968 + d.val = 3968 + d.val; rfl)
  · -- query head 30: columns 3840 … 3967
    obtain ⟨p, d, rfl⟩ : ∃ (p : Fin 64) (d : Fin 128), x = ix2 p d := ⟨x 0, x 1, eq_ix2 x⟩
    refine (KernelPay.q_store30 x0 x1 x2 x3 x4 p d).trans ?_
    refine (q_head_close (kn := kn) B (⟨30, by omega⟩ : Fin 32) (fun d' => (⟨3840 + d'.val, by omega⟩ : Fin 4096)) (fun d' => by first | rfl | omega | (simp only; omega)) p d
      ⟨3840 + d.val, by omega⟩ (by first | rfl | omega | (simp only; omega))).trans ?_
    unfold qG
    exact Gat_congr (by simp only [emb_unit_val]; show t.val * 64 + p.val = t.val * 64 + (0 + p.val); omega)
      (by simp only [emb_unit_val]; show 3840 + d.val = 3840 + d.val; rfl)
  · -- query head 29: columns 3712 … 3839
    obtain ⟨p, d, rfl⟩ : ∃ (p : Fin 64) (d : Fin 128), x = ix2 p d := ⟨x 0, x 1, eq_ix2 x⟩
    refine (KernelPay.q_store29 x0 x1 x2 x3 x4 p d).trans ?_
    refine (q_head_close (kn := kn) B (⟨29, by omega⟩ : Fin 32) (fun d' => (⟨3712 + d'.val, by omega⟩ : Fin 4096)) (fun d' => by first | rfl | omega | (simp only; omega)) p d
      ⟨3712 + d.val, by omega⟩ (by first | rfl | omega | (simp only; omega))).trans ?_
    unfold qG
    exact Gat_congr (by simp only [emb_unit_val]; show t.val * 64 + p.val = t.val * 64 + (0 + p.val); omega)
      (by simp only [emb_unit_val]; show 3712 + d.val = 3712 + d.val; rfl)
  · -- query head 28: columns 3584 … 3711
    obtain ⟨p, d, rfl⟩ : ∃ (p : Fin 64) (d : Fin 128), x = ix2 p d := ⟨x 0, x 1, eq_ix2 x⟩
    refine (KernelPay.q_store28 x0 x1 x2 x3 x4 p d).trans ?_
    refine (q_head_close (kn := kn) B (⟨28, by omega⟩ : Fin 32) (fun d' => (⟨3584 + d'.val, by omega⟩ : Fin 4096)) (fun d' => by first | rfl | omega | (simp only; omega)) p d
      ⟨3584 + d.val, by omega⟩ (by first | rfl | omega | (simp only; omega))).trans ?_
    unfold qG
    exact Gat_congr (by simp only [emb_unit_val]; show t.val * 64 + p.val = t.val * 64 + (0 + p.val); omega)
      (by simp only [emb_unit_val]; show 3584 + d.val = 3584 + d.val; rfl)
  · -- query head 27: columns 3456 … 3583
    obtain ⟨p, d, rfl⟩ : ∃ (p : Fin 64) (d : Fin 128), x = ix2 p d := ⟨x 0, x 1, eq_ix2 x⟩
    refine (KernelPay.q_store27 x0 x1 x2 x3 x4 p d).trans ?_
    refine (q_head_close (kn := kn) B (⟨27, by omega⟩ : Fin 32) (fun d' => (⟨3456 + d'.val, by omega⟩ : Fin 4096)) (fun d' => by first | rfl | omega | (simp only; omega)) p d
      ⟨3456 + d.val, by omega⟩ (by first | rfl | omega | (simp only; omega))).trans ?_
    unfold qG
    exact Gat_congr (by simp only [emb_unit_val]; show t.val * 64 + p.val = t.val * 64 + (0 + p.val); omega)
      (by simp only [emb_unit_val]; show 3456 + d.val = 3456 + d.val; rfl)
  · -- query head 26: columns 3328 … 3455
    obtain ⟨p, d, rfl⟩ : ∃ (p : Fin 64) (d : Fin 128), x = ix2 p d := ⟨x 0, x 1, eq_ix2 x⟩
    refine (KernelPay.q_store26 x0 x1 x2 x3 x4 p d).trans ?_
    refine (q_head_close (kn := kn) B (⟨26, by omega⟩ : Fin 32) (fun d' => (⟨3328 + d'.val, by omega⟩ : Fin 4096)) (fun d' => by first | rfl | omega | (simp only; omega)) p d
      ⟨3328 + d.val, by omega⟩ (by first | rfl | omega | (simp only; omega))).trans ?_
    unfold qG
    exact Gat_congr (by simp only [emb_unit_val]; show t.val * 64 + p.val = t.val * 64 + (0 + p.val); omega)
      (by simp only [emb_unit_val]; show 3328 + d.val = 3328 + d.val; rfl)
  · -- query head 25: columns 3200 … 3327
    obtain ⟨p, d, rfl⟩ : ∃ (p : Fin 64) (d : Fin 128), x = ix2 p d := ⟨x 0, x 1, eq_ix2 x⟩
    refine (KernelPay.q_store25 x0 x1 x2 x3 x4 p d).trans ?_
    refine (q_head_close (kn := kn) B (⟨25, by omega⟩ : Fin 32) (fun d' => (⟨3200 + d'.val, by omega⟩ : Fin 4096)) (fun d' => by first | rfl | omega | (simp only; omega)) p d
      ⟨3200 + d.val, by omega⟩ (by first | rfl | omega | (simp only; omega))).trans ?_
    unfold qG
    exact Gat_congr (by simp only [emb_unit_val]; show t.val * 64 + p.val = t.val * 64 + (0 + p.val); omega)
      (by simp only [emb_unit_val]; show 3200 + d.val = 3200 + d.val; rfl)
  · -- query head 24: columns 3072 … 3199
    obtain ⟨p, d, rfl⟩ : ∃ (p : Fin 64) (d : Fin 128), x = ix2 p d := ⟨x 0, x 1, eq_ix2 x⟩
    refine (KernelPay.q_store24 x0 x1 x2 x3 x4 p d).trans ?_
    refine (q_head_close (kn := kn) B (⟨24, by omega⟩ : Fin 32) (fun d' => (⟨3072 + d'.val, by omega⟩ : Fin 4096)) (fun d' => by first | rfl | omega | (simp only; omega)) p d
      ⟨3072 + d.val, by omega⟩ (by first | rfl | omega | (simp only; omega))).trans ?_
    unfold qG
    exact Gat_congr (by simp only [emb_unit_val]; show t.val * 64 + p.val = t.val * 64 + (0 + p.val); omega)
      (by simp only [emb_unit_val]; show 3072 + d.val = 3072 + d.val; rfl)
  · -- query head 23: columns 2944 … 3071
    obtain ⟨p, d, rfl⟩ : ∃ (p : Fin 64) (d : Fin 128), x = ix2 p d := ⟨x 0, x 1, eq_ix2 x⟩
    refine (KernelPay.q_store23 x0 x1 x2 x3 x4 p d).trans ?_
    refine (q_head_close (kn := kn) B (⟨23, by omega⟩ : Fin 32) (fun d' => (⟨2944 + d'.val, by omega⟩ : Fin 4096)) (fun d' => by first | rfl | omega | (simp only; omega)) p d
      ⟨2944 + d.val, by omega⟩ (by first | rfl | omega | (simp only; omega))).trans ?_
    unfold qG
    exact Gat_congr (by simp only [emb_unit_val]; show t.val * 64 + p.val = t.val * 64 + (0 + p.val); omega)
      (by simp only [emb_unit_val]; show 2944 + d.val = 2944 + d.val; rfl)
  · -- query head 22: columns 2816 … 2943
    obtain ⟨p, d, rfl⟩ : ∃ (p : Fin 64) (d : Fin 128), x = ix2 p d := ⟨x 0, x 1, eq_ix2 x⟩
    refine (KernelPay.q_store22 x0 x1 x2 x3 x4 p d).trans ?_
    refine (q_head_close (kn := kn) B (⟨22, by omega⟩ : Fin 32) (fun d' => (⟨2816 + d'.val, by omega⟩ : Fin 4096)) (fun d' => by first | rfl | omega | (simp only; omega)) p d
      ⟨2816 + d.val, by omega⟩ (by first | rfl | omega | (simp only; omega))).trans ?_
    unfold qG
    exact Gat_congr (by simp only [emb_unit_val]; show t.val * 64 + p.val = t.val * 64 + (0 + p.val); omega)
      (by simp only [emb_unit_val]; show 2816 + d.val = 2816 + d.val; rfl)
  · -- query head 21: columns 2688 … 2815
    obtain ⟨p, d, rfl⟩ : ∃ (p : Fin 64) (d : Fin 128), x = ix2 p d := ⟨x 0, x 1, eq_ix2 x⟩
    refine (KernelPay.q_store21 x0 x1 x2 x3 x4 p d).trans ?_
    refine (q_head_close (kn := kn) B (⟨21, by omega⟩ : Fin 32) (fun d' => (⟨2688 + d'.val, by omega⟩ : Fin 4096)) (fun d' => by first | rfl | omega | (simp only; omega)) p d
      ⟨2688 + d.val, by omega⟩ (by first | rfl | omega | (simp only; omega))).trans ?_
    unfold qG
    exact Gat_congr (by simp only [emb_unit_val]; show t.val * 64 + p.val = t.val * 64 + (0 + p.val); omega)
      (by simp only [emb_unit_val]; show 2688 + d.val = 2688 + d.val; rfl)
  · -- query head 20: columns 2560 … 2687
    obtain ⟨p, d, rfl⟩ : ∃ (p : Fin 64) (d : Fin 128), x = ix2 p d := ⟨x 0, x 1, eq_ix2 x⟩
    refine (KernelPay.q_store20 x0 x1 x2 x3 x4 p d).trans ?_
    refine (q_head_close (kn := kn) B (⟨20, by omega⟩ : Fin 32) (fun d' => (⟨2560 + d'.val, by omega⟩ : Fin 4096)) (fun d' => by first | rfl | omega | (simp only; omega)) p d
      ⟨2560 + d.val, by omega⟩ (by first | rfl | omega | (simp only; omega))).trans ?_
    unfold qG
    exact Gat_congr (by simp only [emb_unit_val]; show t.val * 64 + p.val = t.val * 64 + (0 + p.val); omega)
      (by simp only [emb_unit_val]; show 2560 + d.val = 2560 + d.val; rfl)
  · -- query head 19: columns 2432 … 2559
    obtain ⟨p, d, rfl⟩ : ∃ (p : Fin 64) (d : Fin 128), x = ix2 p d := ⟨x 0, x 1, eq_ix2 x⟩
    refine (KernelPay.q_store19 x0 x1 x2 x3 x4 p d).trans ?_
    refine (q_head_close (kn := kn) B (⟨19, by omega⟩ : Fin 32) (fun d' => (⟨2432 + d'.val, by omega⟩ : Fin 4096)) (fun d' => by first | rfl | omega | (simp only; omega)) p d
      ⟨2432 + d.val, by omega⟩ (by first | rfl | omega | (simp only; omega))).trans ?_
    unfold qG
    exact Gat_congr (by simp only [emb_unit_val]; show t.val * 64 + p.val = t.val * 64 + (0 + p.val); omega)
      (by simp only [emb_unit_val]; show 2432 + d.val = 2432 + d.val; rfl)
  · -- query head 18: columns 2304 … 2431
    obtain ⟨p, d, rfl⟩ : ∃ (p : Fin 64) (d : Fin 128), x = ix2 p d := ⟨x 0, x 1, eq_ix2 x⟩
    refine (KernelPay.q_store18 x0 x1 x2 x3 x4 p d).trans ?_
    refine (q_head_close (kn := kn) B (⟨18, by omega⟩ : Fin 32) (fun d' => (⟨2304 + d'.val, by omega⟩ : Fin 4096)) (fun d' => by first | rfl | omega | (simp only; omega)) p d
      ⟨2304 + d.val, by omega⟩ (by first | rfl | omega | (simp only; omega))).trans ?_
    unfold qG
    exact Gat_congr (by simp only [emb_unit_val]; show t.val * 64 + p.val = t.val * 64 + (0 + p.val); omega)
      (by simp only [emb_unit_val]; show 2304 + d.val = 2304 + d.val; rfl)
  · -- query head 17: columns 2176 … 2303
    obtain ⟨p, d, rfl⟩ : ∃ (p : Fin 64) (d : Fin 128), x = ix2 p d := ⟨x 0, x 1, eq_ix2 x⟩
    refine (KernelPay.q_store17 x0 x1 x2 x3 x4 p d).trans ?_
    refine (q_head_close (kn := kn) B (⟨17, by omega⟩ : Fin 32) (fun d' => (⟨2176 + d'.val, by omega⟩ : Fin 4096)) (fun d' => by first | rfl | omega | (simp only; omega)) p d
      ⟨2176 + d.val, by omega⟩ (by first | rfl | omega | (simp only; omega))).trans ?_
    unfold qG
    exact Gat_congr (by simp only [emb_unit_val]; show t.val * 64 + p.val = t.val * 64 + (0 + p.val); omega)
      (by simp only [emb_unit_val]; show 2176 + d.val = 2176 + d.val; rfl)
  · -- query head 16: columns 2048 … 2175
    obtain ⟨p, d, rfl⟩ : ∃ (p : Fin 64) (d : Fin 128), x = ix2 p d := ⟨x 0, x 1, eq_ix2 x⟩
    refine (KernelPay.q_store16 x0 x1 x2 x3 x4 p d).trans ?_
    refine (q_head_close (kn := kn) B (⟨16, by omega⟩ : Fin 32) (fun d' => (⟨2048 + d'.val, by omega⟩ : Fin 4096)) (fun d' => by first | rfl | omega | (simp only; omega)) p d
      ⟨2048 + d.val, by omega⟩ (by first | rfl | omega | (simp only; omega))).trans ?_
    unfold qG
    exact Gat_congr (by simp only [emb_unit_val]; show t.val * 64 + p.val = t.val * 64 + (0 + p.val); omega)
      (by simp only [emb_unit_val]; show 2048 + d.val = 2048 + d.val; rfl)
  · -- query head 15: columns 1920 … 2047
    obtain ⟨p, d, rfl⟩ : ∃ (p : Fin 64) (d : Fin 128), x = ix2 p d := ⟨x 0, x 1, eq_ix2 x⟩
    refine (KernelPay.q_store15 x0 x1 x2 x3 x4 p d).trans ?_
    refine (q_head_close (kn := kn) B (⟨15, by omega⟩ : Fin 32) (fun d' => (⟨1920 + d'.val, by omega⟩ : Fin 4096)) (fun d' => by first | rfl | omega | (simp only; omega)) p d
      ⟨1920 + d.val, by omega⟩ (by first | rfl | omega | (simp only; omega))).trans ?_
    unfold qG
    exact Gat_congr (by simp only [emb_unit_val]; show t.val * 64 + p.val = t.val * 64 + (0 + p.val); omega)
      (by simp only [emb_unit_val]; show 1920 + d.val = 1920 + d.val; rfl)
  · -- query head 14: columns 1792 … 1919
    obtain ⟨p, d, rfl⟩ : ∃ (p : Fin 64) (d : Fin 128), x = ix2 p d := ⟨x 0, x 1, eq_ix2 x⟩
    refine (KernelPay.q_store14 x0 x1 x2 x3 x4 p d).trans ?_
    refine (q_head_close (kn := kn) B (⟨14, by omega⟩ : Fin 32) (fun d' => (⟨1792 + d'.val, by omega⟩ : Fin 4096)) (fun d' => by first | rfl | omega | (simp only; omega)) p d
      ⟨1792 + d.val, by omega⟩ (by first | rfl | omega | (simp only; omega))).trans ?_
    unfold qG
    exact Gat_congr (by simp only [emb_unit_val]; show t.val * 64 + p.val = t.val * 64 + (0 + p.val); omega)
      (by simp only [emb_unit_val]; show 1792 + d.val = 1792 + d.val; rfl)
  · -- query head 13: columns 1664 … 1791
    obtain ⟨p, d, rfl⟩ : ∃ (p : Fin 64) (d : Fin 128), x = ix2 p d := ⟨x 0, x 1, eq_ix2 x⟩
    refine (KernelPay.q_store13 x0 x1 x2 x3 x4 p d).trans ?_
    refine (q_head_close (kn := kn) B (⟨13, by omega⟩ : Fin 32) (fun d' => (⟨1664 + d'.val, by omega⟩ : Fin 4096)) (fun d' => by first | rfl | omega | (simp only; omega)) p d
      ⟨1664 + d.val, by omega⟩ (by first | rfl | omega | (simp only; omega))).trans ?_
    unfold qG
    exact Gat_congr (by simp only [emb_unit_val]; show t.val * 64 + p.val = t.val * 64 + (0 + p.val); omega)
      (by simp only [emb_unit_val]; show 1664 + d.val = 1664 + d.val; rfl)
  · -- query head 12: columns 1536 … 1663
    obtain ⟨p, d, rfl⟩ : ∃ (p : Fin 64) (d : Fin 128), x = ix2 p d := ⟨x 0, x 1, eq_ix2 x⟩
    refine (KernelPay.q_store12 x0 x1 x2 x3 x4 p d).trans ?_
    refine (q_head_close (kn := kn) B (⟨12, by omega⟩ : Fin 32) (fun d' => (⟨1536 + d'.val, by omega⟩ : Fin 4096)) (fun d' => by first | rfl | omega | (simp only; omega)) p d
      ⟨1536 + d.val, by omega⟩ (by first | rfl | omega | (simp only; omega))).trans ?_
    unfold qG
    exact Gat_congr (by simp only [emb_unit_val]; show t.val * 64 + p.val = t.val * 64 + (0 + p.val); omega)
      (by simp only [emb_unit_val]; show 1536 + d.val = 1536 + d.val; rfl)
  · -- query head 11: columns 1408 … 1535
    obtain ⟨p, d, rfl⟩ : ∃ (p : Fin 64) (d : Fin 128), x = ix2 p d := ⟨x 0, x 1, eq_ix2 x⟩
    refine (KernelPay.q_store11 x0 x1 x2 x3 x4 p d).trans ?_
    refine (q_head_close (kn := kn) B (⟨11, by omega⟩ : Fin 32) (fun d' => (⟨1408 + d'.val, by omega⟩ : Fin 4096)) (fun d' => by first | rfl | omega | (simp only; omega)) p d
      ⟨1408 + d.val, by omega⟩ (by first | rfl | omega | (simp only; omega))).trans ?_
    unfold qG
    exact Gat_congr (by simp only [emb_unit_val]; show t.val * 64 + p.val = t.val * 64 + (0 + p.val); omega)
      (by simp only [emb_unit_val]; show 1408 + d.val = 1408 + d.val; rfl)
  · -- query head 10: columns 1280 … 1407
    obtain ⟨p, d, rfl⟩ : ∃ (p : Fin 64) (d : Fin 128), x = ix2 p d := ⟨x 0, x 1, eq_ix2 x⟩
    refine (KernelPay.q_store10 x0 x1 x2 x3 x4 p d).trans ?_
    refine (q_head_close (kn := kn) B (⟨10, by omega⟩ : Fin 32) (fun d' => (⟨1280 + d'.val, by omega⟩ : Fin 4096)) (fun d' => by first | rfl | omega | (simp only; omega)) p d
      ⟨1280 + d.val, by omega⟩ (by first | rfl | omega | (simp only; omega))).trans ?_
    unfold qG
    exact Gat_congr (by simp only [emb_unit_val]; show t.val * 64 + p.val = t.val * 64 + (0 + p.val); omega)
      (by simp only [emb_unit_val]; show 1280 + d.val = 1280 + d.val; rfl)
  · -- query head 9: columns 1152 … 1279
    obtain ⟨p, d, rfl⟩ : ∃ (p : Fin 64) (d : Fin 128), x = ix2 p d := ⟨x 0, x 1, eq_ix2 x⟩
    refine (KernelPay.q_store9 x0 x1 x2 x3 x4 p d).trans ?_
    refine (q_head_close (kn := kn) B (⟨9, by omega⟩ : Fin 32) (fun d' => (⟨1152 + d'.val, by omega⟩ : Fin 4096)) (fun d' => by first | rfl | omega | (simp only; omega)) p d
      ⟨1152 + d.val, by omega⟩ (by first | rfl | omega | (simp only; omega))).trans ?_
    unfold qG
    exact Gat_congr (by simp only [emb_unit_val]; show t.val * 64 + p.val = t.val * 64 + (0 + p.val); omega)
      (by simp only [emb_unit_val]; show 1152 + d.val = 1152 + d.val; rfl)
  · -- query head 8: columns 1024 … 1151
    obtain ⟨p, d, rfl⟩ : ∃ (p : Fin 64) (d : Fin 128), x = ix2 p d := ⟨x 0, x 1, eq_ix2 x⟩
    refine (KernelPay.q_store8 x0 x1 x2 x3 x4 p d).trans ?_
    refine (q_head_close (kn := kn) B (⟨8, by omega⟩ : Fin 32) (fun d' => (⟨1024 + d'.val, by omega⟩ : Fin 4096)) (fun d' => by first | rfl | omega | (simp only; omega)) p d
      ⟨1024 + d.val, by omega⟩ (by first | rfl | omega | (simp only; omega))).trans ?_
    unfold qG
    exact Gat_congr (by simp only [emb_unit_val]; show t.val * 64 + p.val = t.val * 64 + (0 + p.val); omega)
      (by simp only [emb_unit_val]; show 1024 + d.val = 1024 + d.val; rfl)
  · -- query head 7: columns 896 … 1023
    obtain ⟨p, d, rfl⟩ : ∃ (p : Fin 64) (d : Fin 128), x = ix2 p d := ⟨x 0, x 1, eq_ix2 x⟩
    refine (KernelPay.q_store7 x0 x1 x2 x3 x4 p d).trans ?_
    refine (q_head_close (kn := kn) B (⟨7, by omega⟩ : Fin 32) (fun d' => (⟨896 + d'.val, by omega⟩ : Fin 4096)) (fun d' => by first | rfl | omega | (simp only; omega)) p d
      ⟨896 + d.val, by omega⟩ (by first | rfl | omega | (simp only; omega))).trans ?_
    unfold qG
    exact Gat_congr (by simp only [emb_unit_val]; show t.val * 64 + p.val = t.val * 64 + (0 + p.val); omega)
      (by simp only [emb_unit_val]; show 896 + d.val = 896 + d.val; rfl)
  · -- query head 6: columns 768 … 895
    obtain ⟨p, d, rfl⟩ : ∃ (p : Fin 64) (d : Fin 128), x = ix2 p d := ⟨x 0, x 1, eq_ix2 x⟩
    refine (KernelPay.q_store6 x0 x1 x2 x3 x4 p d).trans ?_
    refine (q_head_close (kn := kn) B (⟨6, by omega⟩ : Fin 32) (fun d' => (⟨768 + d'.val, by omega⟩ : Fin 4096)) (fun d' => by first | rfl | omega | (simp only; omega)) p d
      ⟨768 + d.val, by omega⟩ (by first | rfl | omega | (simp only; omega))).trans ?_
    unfold qG
    exact Gat_congr (by simp only [emb_unit_val]; show t.val * 64 + p.val = t.val * 64 + (0 + p.val); omega)
      (by simp only [emb_unit_val]; show 768 + d.val = 768 + d.val; rfl)
  · -- query head 5: columns 640 … 767
    obtain ⟨p, d, rfl⟩ : ∃ (p : Fin 64) (d : Fin 128), x = ix2 p d := ⟨x 0, x 1, eq_ix2 x⟩
    refine (KernelPay.q_store5 x0 x1 x2 x3 x4 p d).trans ?_
    refine (q_head_close (kn := kn) B (⟨5, by omega⟩ : Fin 32) (fun d' => (⟨640 + d'.val, by omega⟩ : Fin 4096)) (fun d' => by first | rfl | omega | (simp only; omega)) p d
      ⟨640 + d.val, by omega⟩ (by first | rfl | omega | (simp only; omega))).trans ?_
    unfold qG
    exact Gat_congr (by simp only [emb_unit_val]; show t.val * 64 + p.val = t.val * 64 + (0 + p.val); omega)
      (by simp only [emb_unit_val]; show 640 + d.val = 640 + d.val; rfl)
  · -- query head 4: columns 512 … 639
    obtain ⟨p, d, rfl⟩ : ∃ (p : Fin 64) (d : Fin 128), x = ix2 p d := ⟨x 0, x 1, eq_ix2 x⟩
    refine (KernelPay.q_store4 x0 x1 x2 x3 x4 p d).trans ?_
    refine (q_head_close (kn := kn) B (⟨4, by omega⟩ : Fin 32) (fun d' => (⟨512 + d'.val, by omega⟩ : Fin 4096)) (fun d' => by first | rfl | omega | (simp only; omega)) p d
      ⟨512 + d.val, by omega⟩ (by first | rfl | omega | (simp only; omega))).trans ?_
    unfold qG
    exact Gat_congr (by simp only [emb_unit_val]; show t.val * 64 + p.val = t.val * 64 + (0 + p.val); omega)
      (by simp only [emb_unit_val]; show 512 + d.val = 512 + d.val; rfl)
  · -- query head 3: columns 384 … 511
    obtain ⟨p, d, rfl⟩ : ∃ (p : Fin 64) (d : Fin 128), x = ix2 p d := ⟨x 0, x 1, eq_ix2 x⟩
    refine (KernelPay.q_store3 x0 x1 x2 x3 x4 p d).trans ?_
    refine (q_head_close (kn := kn) B (⟨3, by omega⟩ : Fin 32) (fun d' => (⟨384 + d'.val, by omega⟩ : Fin 4096)) (fun d' => by first | rfl | omega | (simp only; omega)) p d
      ⟨384 + d.val, by omega⟩ (by first | rfl | omega | (simp only; omega))).trans ?_
    unfold qG
    exact Gat_congr (by simp only [emb_unit_val]; show t.val * 64 + p.val = t.val * 64 + (0 + p.val); omega)
      (by simp only [emb_unit_val]; show 384 + d.val = 384 + d.val; rfl)
  · -- query head 2: columns 256 … 383
    obtain ⟨p, d, rfl⟩ : ∃ (p : Fin 64) (d : Fin 128), x = ix2 p d := ⟨x 0, x 1, eq_ix2 x⟩
    refine (KernelPay.q_store2 x0 x1 x2 x3 x4 p d).trans ?_
    refine (q_head_close (kn := kn) B (⟨2, by omega⟩ : Fin 32) (fun d' => (⟨256 + d'.val, by omega⟩ : Fin 4096)) (fun d' => by first | rfl | omega | (simp only; omega)) p d
      ⟨256 + d.val, by omega⟩ (by first | rfl | omega | (simp only; omega))).trans ?_
    unfold qG
    exact Gat_congr (by simp only [emb_unit_val]; show t.val * 64 + p.val = t.val * 64 + (0 + p.val); omega)
      (by simp only [emb_unit_val]; show 256 + d.val = 256 + d.val; rfl)
  · -- query head 1: columns 128 … 255
    obtain ⟨p, d, rfl⟩ : ∃ (p : Fin 64) (d : Fin 128), x = ix2 p d := ⟨x 0, x 1, eq_ix2 x⟩
    refine (KernelPay.q_store1 x0 x1 x2 x3 x4 p d).trans ?_
    refine (q_head_close (kn := kn) B (⟨1, by omega⟩ : Fin 32) (fun d' => (⟨128 + d'.val, by omega⟩ : Fin 4096)) (fun d' => by first | rfl | omega | (simp only; omega)) p d
      ⟨128 + d.val, by omega⟩ (by first | rfl | omega | (simp only; omega))).trans ?_
    unfold qG
    exact Gat_congr (by simp only [emb_unit_val]; show t.val * 64 + p.val = t.val * 64 + (0 + p.val); omega)
      (by simp only [emb_unit_val]; show 128 + d.val = 128 + d.val; rfl)
  · -- query head 0: columns 0 … 127
    obtain ⟨p, d, rfl⟩ : ∃ (p : Fin 64) (d : Fin 128), x = ix2 p d := ⟨x 0, x 1, eq_ix2 x⟩
    refine (KernelPay.q_store0 x0 x1 x2 x3 x4 p d).trans ?_
    refine (q_head_close (kn := kn) B (⟨0, by omega⟩ : Fin 32) (fun d' => (⟨0 + d'.val, by omega⟩ : Fin 4096)) (fun d' => by first | rfl | omega | (simp only; omega)) p d
      ⟨0 + d.val, by omega⟩ (by first | rfl | omega | (simp only; omega))).trans ?_
    unfold qG
    exact Gat_congr (by simp only [emb_unit_val]; show t.val * 64 + p.val = t.val * 64 + (0 + p.val); omega)
      (by simp only [emb_unit_val]; show 0 + d.val = 0 + d.val; rfl)

end Cert.KernelIdeal.Val

end
-- ==== Proof.KI.QArray.lean ====
/-
  From the query kernel's blocks to its result array. Grid point t is handed rows t·64 … of the tokens and of the
  sine and cosine tables, rows 0 … 4095 of the weights (one block for every point, none of it past the array's
  end) and the query norm weight, and writes back rows t·64 … of the result; the 256 blocks tile the 16384 rows,
  so the array the region leaves is, index by index, the specification at the same token and the same column.
-/
import proofs.«167721_j61710090109455_2_alg».proof.Proof.KI.QCanon
import Idealize.ShloMosaic.Lib.Pipeline.Value

set_option maxRecDepth 16384

noncomputable section

namespace Cert.KernelIdeal.Val

open Cert.KernelIdeal Cert.KernelIdeal.Gen Cert.KernelIdeal.Fr
open Idealize.ShloMosaic Idealize.ShloMosaic.TcCoe Idealize.ShloMosaic.ValueIdx Idealize.ShloMosaic.Tactic
open Idealize.SL Idealize.SL.Sem
open Idealize.ShloMosaic.Pipeline (Dat Window)
open scoped BigOperators

variable (V : (c : Dev nD) → (b : Ref sig .tc) → Buf (Elt Ideal) ((c : Thread nD τ).loc b))

/-- The printed index maps of the query region, decided over its 256 grid points: the token, sine, cosine and
    result windows move with the point, the weight window and the norm weight sit at block 0. -/
theorem idx0 : ∀ t : Fin cfg0.N,
    win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0
    ∧ win0_3.index t (0 : Fin 2) = t.val ∧ win0_3.index t (1 : Fin 2) = 0
    ∧ win0_4.index t (0 : Fin 1) = 0
    ∧ win0_5.index t (0 : Fin 2) = t.val ∧ win0_5.index t (1 : Fin 2) = 0 :=
  (by decide +kernel : ∀ t : Fin grid0.N, _)

theorem N0_lt (t : Fin cfg0.N) : t.val < 256 := lt_of_lt_of_eq t.isLt (show cfg0.N = 256 from N_0)

/-- The result array of the query region, as the specification of the arrays the region finds. -/
def qArr (c : Dev nD) : S16384x4096.Idx → EReal := fun i =>
  Spec.Gat (V c main_arg0) (V c main_arg1) (V c main_arg2) (V c main_v0) (V c main_arg4) (V c main_arg5)
    ⟨(i 0 : Fin 16384).val, (i 0 : Fin 16384).isLt⟩
    ⟨(i 1 : Fin 4096).val, by have h1 : ((i 1 : Fin 4096) : Nat) < 4096 := (i 1 : Fin 4096).isLt; omega⟩

/-- What the kernel is handed at grid point `t`, as equations with the arrays. The weight buffer holds its one
    block whole: no axis of it is cut, so every entry of the buffer is an entry of the block. -/
theorem q_blocks (c : Dev nD) (t : Fin cfg0.N) :
    QBlocks (V c main_arg0) (V c main_arg1) (V c main_arg2) (V c main_v0) (V c main_arg4) ⟨t.val, N0_lt t⟩
      (iblk0 V c 0 t) (wblk0 V c t) (iblk0 V c 2 t) (iblk0 V c 3 t) (iblk0 V c 4 t) := by
  obtain ⟨e00, e01, e10, e11, e20, e21, e30, e31, e40, e50, e51⟩ := idx0 t
  have hN := N0_lt t
  refine ⟨fun a k => ?_, fun r k => ?_, fun a d => ?_, fun a d => ?_, fun d => ?_⟩
  · show V c main_arg0 (((cfg0.win 0).blk t).view.emb (ix2 a k)) = V c main_arg0 _
    refine congrArg _ (funext fun ax => Fin.ext ?_)
    match ax with
    | ⟨0, _⟩ => show win0_0.index t (0 : Fin 2) * 64 + 1 * a.val = t.val * 64 + a.val; rw [e00]; omega
    | ⟨1, _⟩ => show win0_0.index t (1 : Fin 2) * 4096 + 1 * k.val = k.val; rw [e01]; omega
  · have hm : (cfg0.win 1).moved (cfg0.grid.coords t) (ix2 r k) = true :=
      ((cfg0.win 1).moved_iff _ (ix2 r k)).mpr fun ax => by
        have := ((ix2 r k : (cfg0.win 1).block.Idx) ax).isLt
        unfold Window.xsize
        rw [clip0_1]
        exact this
    unfold wblk0 Window.fill
    rw [dif_pos hm]
    show V c main_v0 (((cfg0.win 1).blk t).view.emb _) = V c main_v0 _
    refine congrArg _ (funext fun ax => Fin.ext ?_)
    match ax with
    | ⟨0, _⟩ => show win0_1.index t (0 : Fin 2) * 4096 + 1 * r.val = r.val; rw [e10]; omega
    | ⟨1, _⟩ => show win0_1.index t (1 : Fin 2) * 4096 + 1 * k.val = k.val; rw [e11]; omega
  · show V c main_arg1 (((cfg0.win 2).blk t).view.emb (ix2 a d)) = V c main_arg1 _
    refine congrArg _ (funext fun ax => Fin.ext ?_)
    match ax with
    | ⟨0, _⟩ => show win0_2.index t (0 : Fin 2) * 64 + 1 * a.val = t.val * 64 + a.val; rw [e20]; omega
    | ⟨1, _⟩ => show win0_2.index t (1 : Fin 2) * 128 + 1 * d.val = d.val; rw [e21]; omega
  · show V c main_arg2 (((cfg0.win 3).blk t).view.emb (ix2 a d)) = V c main_arg2 _
    refine congrArg _ (funext fun ax => Fin.ext ?_)
    match ax with
    | ⟨0, _⟩ => show win0_3.index t (0 : Fin 2) * 64 + 1 * a.val = t.val * 64 + a.val; rw [e30]; omega
    | ⟨1, _⟩ => show win0_3.index t (1 : Fin 2) * 128 + 1 * d.val = d.val; rw [e31]; omega
  · show V c main_arg4 (((cfg0.win 4).blk t).view.emb (ix1 d)) = V c main_arg4 _
    refine congrArg _ (funext fun ax => Fin.ext ?_)
    match ax with
    | ⟨0, _⟩ => show win0_4.index t (0 : Fin 1) * 128 + 1 * d.val = d.val; rw [e40]; omega

/-- What point `t` writes back is block `t` of the result array. -/
theorem q_flushed (c : Dev nD) (t : Fin cfg0.N) :
    (dat0 V c).flushed 5 t = ((cfg0.win 5).blk t).view.read (Elt Ideal) (qArr V c) := by
  obtain ⟨e00, e01, e10, e11, e20, e21, e30, e31, e40, e50, e51⟩ := idx0 t
  have hN := N0_lt t
  show (cfg0.win 5).cut (grid0.coords t) ((dat0 V c).after 5 t) = _
  rw [after0_5]
  unfold out0
  rw [View.read_writes_eq_canon _ _ _ (cover0 _ _ _ _ _ _ _ _ _ _ _ _ _ _ _ _ _ _ _)]
  funext y
  show View.canon (Val := Elt Ideal) (e := .f32) _ y = qArr V c (((cfg0.win 5).blk t).view.emb y)
  rw [q_canon (kn := V c main_arg5) (q_blocks V c t)]
  unfold qG qArr
  refine Gat_congr ?_ ?_
  · show t.val * 64 + (y 0 : Fin 64).val = win0_5.index t (0 : Fin 2) * 64 + 1 * (y 0 : Fin 64).val
    rw [e50]; omega
  · show (y 1 : Fin 4096).val = win0_5.index t (1 : Fin 2) * 4096 + 1 * (y 1 : Fin 4096).val
    rw [e51]; omega

/-- An index of the result array is in point `t`'s block iff its row is among the point's 64 rows. -/
theorem mem_blk0_5 (t : Fin cfg0.N) (i : S16384x4096.Idx) :
    i ∈ ((cfg0.win 5).blk t).view.set ↔ ∀ a : Fin 2, win0_5.index t a * S64x4096.size a ≤ (i a).val ∧ (i a).val < win0_5.index t a * S64x4096.size a + S64x4096.size a := by
  show i ∈ ((View.whole main_v1).slice (win0_5.rect t)).set ↔ _
  rw [View.set_slice_whole, Rect.mem_set_unit]
  exact Iff.rfl

/-- Every index of the result array is in some point's block: row r is in block r / 64. -/
theorem q_cover (i : S16384x4096.Idx) :
    ∃ t : Fin cfg0.N, (cfg0.win 5).flush t = true ∧ i ∈ ((cfg0.win 5).blk t).view.set := by
  have hi0 : (i 0).val < 16384 := (i 0).isLt
  have hi1 : (i 1).val < 4096 := (i 1).isLt
  let t : Fin cfg0.N := ⟨(i 0).val / 64, by rw [show cfg0.N = 256 from N_0]; omega⟩
  obtain ⟨e00, e01, e10, e11, e20, e21, e30, e31, e40, e50, e51⟩ := idx0 t
  refine ⟨t, flush0_5 t, ?_⟩
  rw [mem_blk0_5]
  intro a
  match a with
  | ⟨0, _⟩ => show win0_5.index t (0 : Fin 2) * 64 ≤ (i 0).val ∧ (i 0).val < win0_5.index t (0 : Fin 2) * 64 + 64; rw [e50]; show (i 0).val / 64 * 64 ≤ (i 0).val ∧ (i 0).val < (i 0).val / 64 * 64 + 64; omega
  | ⟨1, _⟩ => show win0_5.index t (1 : Fin 2) * 4096 ≤ (i 1).val ∧ (i 1).val < win0_5.index t (1 : Fin 2) * 4096 + 4096; rw [e51]; omega

/-- The array the query region leaves. -/
theorem q_final (c : Dev nD) : (dat0 V c).arrAt 5 cfg0.N = qArr V c :=
  (dat0 V c).arrAt_eq_of_cover 5 (qArr V c) (fun t _ => q_flushed V c t) (q_cover)

end Cert.KernelIdeal.Val

end
-- ==== Proof.KI.KVArray.lean ====
/-
  From the key/value kernel's blocks to its result array. Grid point t is handed rows t·512 … of the tokens and of
  the sine and cosine tables, rows 4096 … 5119 of the weights and the key norm weight, and writes back rows
  t·512 … of the result; the 32 blocks tile the 16384 rows, so the array the region leaves is, index by index,
  the specification at the same token and at column 4096 + the column.
-/
import proofs.«167721_j61710090109455_2_alg».proof.Proof.KI.KVCanon
import Idealize.ShloMosaic.Lib.Pipeline.Value

set_option maxRecDepth 16384

noncomputable section

namespace Cert.KernelIdeal.Val

open Cert.KernelIdeal Cert.KernelIdeal.Gen Cert.KernelIdeal.Fr
open Idealize.ShloMosaic Idealize.ShloMosaic.TcCoe Idealize.ShloMosaic.ValueIdx Idealize.ShloMosaic.Tactic
open Idealize.SL Idealize.SL.Sem
open Idealize.ShloMosaic.Pipeline (Dat)
open scoped BigOperators

variable (V : (c : Dev nD) → (b : Ref sig .tc) → Buf (Elt Ideal) ((c : Thread nD τ).loc b))

/-- The printed index maps of the key/value region, decided over its 32 grid points: the token, sine, cosine and
    result windows move with the point, the weight window sits at block 4, the norm weight at block 0. -/
theorem idx1 : ∀ t : Fin cfg1.N,
    win1_0.index t (0 : Fin 2) = t.val ∧ win1_0.index t (1 : Fin 2) = 0
    ∧ win1_1.index t (0 : Fin 2) = 4 ∧ win1_1.index t (1 : Fin 2) = 0
    ∧ win1_2.index t (0 : Fin 2) = t.val ∧ win1_2.index t (1 : Fin 2) = 0
    ∧ win1_3.index t (0 : Fin 2) = t.val ∧ win1_3.index t (1 : Fin 2) = 0
    ∧ win1_4.index t (0 : Fin 1) = 0
    ∧ win1_5.index t (0 : Fin 2) = t.val ∧ win1_5.index t (1 : Fin 2) = 0 :=
  (by decide +kernel : ∀ t : Fin grid1.N, _)

theorem N1_lt (t : Fin cfg1.N) : t.val < 32 := lt_of_lt_of_eq t.isLt (show cfg1.N = 32 from N_1)

/-- The result array of the key/value region, as the specification of the arrays the region finds. -/
def kvArr (c : Dev nD) : S16384x1024.Idx → EReal := fun i =>
  Spec.Gat (V c main_arg0) (V c main_arg1) (V c main_arg2) (V c main_v0) (V c main_arg4) (V c main_arg5)
    ⟨(i 0 : Fin 16384).val, (i 0 : Fin 16384).isLt⟩
    ⟨4096 + (i 1 : Fin 1024).val, by have h1 : ((i 1 : Fin 1024) : Nat) < 1024 := (i 1 : Fin 1024).isLt; omega⟩

/-- What the kernel is handed at grid point `t`, as equations with the arrays. -/
theorem kv_blocks (c : Dev nD) (t : Fin cfg1.N) :
    KVBlocks (V c main_arg0) (V c main_arg1) (V c main_arg2) (V c main_v0) (V c main_arg5) ⟨t.val, N1_lt t⟩
      (iblk1 V c 0 t) (iblk1 V c 1 t) (iblk1 V c 2 t) (iblk1 V c 3 t) (iblk1 V c 4 t) := by
  obtain ⟨e00, e01, e10, e11, e20, e21, e30, e31, e40, e50, e51⟩ := idx1 t
  have hN := N1_lt t
  refine ⟨fun a k => ?_, fun r k => ?_, fun a d => ?_, fun a d => ?_, fun d => ?_⟩
  · show V c main_arg0 (((cfg1.win 0).blk t).view.emb (ix2 a k)) = V c main_arg0 _
    refine congrArg _ (funext fun ax => Fin.ext ?_)
    match ax with
    | ⟨0, _⟩ => show win1_0.index t (0 : Fin 2) * 512 + 1 * a.val = t.val * 512 + a.val; rw [e00]; omega
    | ⟨1, _⟩ => show win1_0.index t (1 : Fin 2) * 4096 + 1 * k.val = k.val; rw [e01]; omega
  · show V c main_v0 (((cfg1.win 1).blk t).view.emb (ix2 r k)) = V c main_v0 _
    refine congrArg _ (funext fun ax => Fin.ext ?_)
    match ax with
    | ⟨0, _⟩ => show win1_1.index t (0 : Fin 2) * 1024 + 1 * r.val = 4096 + r.val; rw [e10]; omega
    | ⟨1, _⟩ => show win1_1.index t (1 : Fin 2) * 4096 + 1 * k.val = k.val; rw [e11]; omega
  · show V c main_arg1 (((cfg1.win 2).blk t).view.emb (ix2 a d)) = V c main_arg1 _
    refine congrArg _ (funext fun ax => Fin.ext ?_)
    match ax with
    | ⟨0, _⟩ => show win1_2.index t (0 : Fin 2) * 512 + 1 * a.val = t.val * 512 + a.val; rw [e20]; omega
    | ⟨1, _⟩ => show win1_2.index t (1 : Fin 2) * 128 + 1 * d.val = d.val; rw [e21]; omega
  · show V c main_arg2 (((cfg1.win 3).blk t).view.emb (ix2 a d)) = V c main_arg2 _
    refine congrArg _ (funext fun ax => Fin.ext ?_)
    match ax with
    | ⟨0, _⟩ => show win1_3.index t (0 : Fin 2) * 512 + 1 * a.val = t.val * 512 + a.val; rw [e30]; omega
    | ⟨1, _⟩ => show win1_3.index t (1 : Fin 2) * 128 + 1 * d.val = d.val; rw [e31]; omega
  · show V c main_arg5 (((cfg1.win 4).blk t).view.emb (ix1 d)) = V c main_arg5 _
    refine congrArg _ (funext fun ax => Fin.ext ?_)
    match ax with
    | ⟨0, _⟩ => show win1_4.index t (0 : Fin 1) * 128 + 1 * d.val = d.val; rw [e40]; omega

/-- What point `t` writes back is block `t` of the result array. -/
theorem kv_flushed (c : Dev nD) (t : Fin cfg1.N) :
    (dat1 V c).flushed 5 t = ((cfg1.win 5).blk t).view.read (Elt Ideal) (kvArr V c) := by
  obtain ⟨e00, e01, e10, e11, e20, e21, e30, e31, e40, e50, e51⟩ := idx1 t
  have hN := N1_lt t
  show (cfg1.win 5).cut (grid1.coords t) ((dat1 V c).after 5 t) = _
  rw [after1_5]
  unfold out1
  rw [View.read_writes_eq_canon _ _ _ (cover1 _ _ _ _ _ _ _ _ _ _ _ _ _ _ _ _ _ _ _)]
  funext y
  show View.canon (Val := Elt Ideal) (e := .f32) _ y = kvArr V c (((cfg1.win 5).blk t).view.emb y)
  rw [kv_canon (qn := V c main_arg4) (kv_blocks V c t)]
  unfold kvG kvArr
  refine Gat_congr ?_ ?_
  · show t.val * 512 + (y 0 : Fin 512).val = win1_5.index t (0 : Fin 2) * 512 + 1 * (y 0 : Fin 512).val
    rw [e50]; omega
  · show 4096 + (y 1 : Fin 1024).val = 4096 + (win1_5.index t (1 : Fin 2) * 1024 + 1 * (y 1 : Fin 1024).val)
    rw [e51]; omega

/-- An index of the result array is in point `t`'s block iff its row is among the point's 512 rows. -/
theorem mem_blk1_5 (t : Fin cfg1.N) (i : S16384x1024.Idx) :
    i ∈ ((cfg1.win 5).blk t).view.set ↔ ∀ a : Fin 2, win1_5.index t a * S512x1024.size a ≤ (i a).val ∧ (i a).val < win1_5.index t a * S512x1024.size a + S512x1024.size a := by
  show i ∈ ((View.whole main_v2).slice (win1_5.rect t)).set ↔ _
  rw [View.set_slice_whole, Rect.mem_set_unit]
  exact Iff.rfl

/-- Every index of the result array is in some point's block: row r is in block r / 512. -/
theorem kv_cover (i : S16384x1024.Idx) :
    ∃ t : Fin cfg1.N, (cfg1.win 5).flush t = true ∧ i ∈ ((cfg1.win 5).blk t).view.set := by
  have hi0 : (i 0).val < 16384 := (i 0).isLt
  have hi1 : (i 1).val < 1024 := (i 1).isLt
  let t : Fin cfg1.N := ⟨(i 0).val / 512, by rw [show cfg1.N = 32 from N_1]; omega⟩
  obtain ⟨e00, e01, e10, e11, e20, e21, e30, e31, e40, e50, e51⟩ := idx1 t
  refine ⟨t, flush1_5 t, ?_⟩
  rw [mem_blk1_5]
  intro a
  match a with
  | ⟨0, _⟩ => show win1_5.index t (0 : Fin 2) * 512 ≤ (i 0).val ∧ (i 0).val < win1_5.index t (0 : Fin 2) * 512 + 512; rw [e50]; show (i 0).val / 512 * 512 ≤ (i 0).val ∧ (i 0).val < (i 0).val / 512 * 512 + 512; omega
  | ⟨1, _⟩ => show win1_5.index t (1 : Fin 2) * 1024 ≤ (i 1).val ∧ (i 1).val < win1_5.index t (1 : Fin 2) * 1024 + 1024; rw [e51]; omega

/-- The array the key/value region leaves. -/
theorem kv_final (c : Dev nD) : (dat1 V c).arrAt 5 cfg1.N = kvArr V c :=
  (dat1 V c).arrAt_eq_of_cover 5 (kvArr V c) (fun t _ => kv_flushed V c t) (kv_cover)

end Cert.KernelIdeal.Val

end
-- ==== Proof.KI.Join.lean ====
/-
  The last host operation joins the query region's array (columns 0 … 4095) and the key/value region's array
  (columns 4096 … 5119) along the columns. Read at (t, e) the join is the first array's entry below column 4096
  and the second's, at column e − 4096, from there on; with the two arrays the specification's at those columns,
  the join is the specification.
-/
import proofs.«167721_j61710090109455_2_alg».proof.Proof.KI.KVCanon
import Idealize.ShloMosaic.Lib.Pipeline.Value

set_option maxRecDepth 16384

noncomputable section

namespace Cert.KernelIdeal.Val

open Cert.KernelIdeal Cert.KernelIdeal.Gen
open Idealize.ShloMosaic Idealize.ShloMosaic.TcCoe Idealize.ShloMosaic.ValueIdx
open Idealize.SL Idealize.SL.Sem

/-- The two result arrays joined along the columns, read at an index. -/
theorem join_at (u : S16384x4096.Idx → EReal) (v : S16384x1024.Idx → EReal) (t : Fin 16384) (e : Fin 5120) :
    concatenate S16384x5120 1 [⟨S16384x4096, u⟩, ⟨S16384x1024, v⟩] concatenates_S16384x4096_S16384x1024_S16384x5120_d1 (ix2 t e)
      = if he : e.val < 4096 then u (ix2 t ⟨e.val, he⟩) else v (ix2 t ⟨e.val - 4096, by omega⟩) := by
  by_cases he : e.val < 4096
  · rw [dif_pos he]
    exact concatenate_pair_apply_left 1 u v _ (ix2 t e) rfl (ix2 t ⟨e.val, he⟩) (fun a => by match a with | ⟨0, _⟩ => rfl | ⟨1, _⟩ => rfl)
  · rw [dif_neg he]
    exact concatenate_pair_apply_right 1 u v _ (ix2 t e) rfl rfl (ix2 t ⟨e.val - 4096, by omega⟩)
      (fun a => by
        match a with
        | ⟨0, _⟩ => exact fun _ => rfl
        | ⟨1, _⟩ => exact fun hne => absurd rfl hne)
      (by show (e.val - 4096) + 4096 = e.val; omega)

variable (h : (⟨2, ![16384, 4096]⟩ : Shape).Idx → EReal) (sn cs : (⟨2, ![16384, 128]⟩ : Shape).Idx → EReal)
  (w : (⟨2, ![5120, 4096]⟩ : Shape).Idx → EReal) (qn kn : (⟨1, ![128]⟩ : Shape).Idx → EReal)

/-- The specification's columns 0 … 4095, as an array of its own. -/
def specQ : S16384x4096.Idx → EReal := fun i =>
  Spec.Gat h sn cs w qn kn ⟨(i 0 : Fin 16384).val, (i 0 : Fin 16384).isLt⟩
    ⟨(i 1 : Fin 4096).val, by have h1 : ((i 1 : Fin 4096) : Nat) < 4096 := (i 1 : Fin 4096).isLt; omega⟩

/-- The specification's columns 4096 … 5119, as an array of its own. -/
def specKV : S16384x1024.Idx → EReal := fun i =>
  Spec.Gat h sn cs w qn kn ⟨(i 0 : Fin 16384).val, (i 0 : Fin 16384).isLt⟩
    ⟨4096 + (i 1 : Fin 1024).val, by have h1 : ((i 1 : Fin 1024) : Nat) < 1024 := (i 1 : Fin 1024).isLt; omega⟩

/-- The two parts joined are the specification. -/
theorem join_spec :
    concatenate S16384x5120 1 [⟨S16384x4096, specQ h sn cs w qn kn⟩, ⟨S16384x1024, specKV h sn cs w qn kn⟩]
        concatenates_S16384x4096_S16384x1024_S16384x5120_d1
      = Spec.G h sn cs w qn kn := by
  funext i
  obtain ⟨t, e, rfl⟩ : ∃ (t : Fin 16384) (e : Fin 5120), i = ix2 t e := ⟨i 0, i 1, eq_ix2 i⟩
  rw [join_at, Spec.G_ix2]
  by_cases he : e.val < 4096
  · rw [dif_pos he]; unfold specQ; exact Gat_congr rfl rfl
  · rw [dif_neg he]; unfold specKV
    exact Gat_congr rfl (by show 4096 + (e.val - 4096) = e.val; omega)

end Cert.KernelIdeal.Val

end
-- ==== Proof.KI.ValueRun.lean ====
/-
  The idealized kernel program's run with its result named: every weakly fair execution ends with the result
  array at the specification of the six argument arrays as launched, and the arguments unchanged. The result is
  the join of the two regions' arrays; each is the specification's part of the columns, over the arrays its
  region finds — the arguments as launched and the weights converted to the narrow format, which at the ideal
  instance is the identity.
-/
import proofs.«167721_j61710090109455_2_alg».proof.Proof.KI.Frame
import proofs.«167721_j61710090109455_2_alg».proof.Proof.KI.QArray
import proofs.«167721_j61710090109455_2_alg».proof.Proof.KI.KVArray
import proofs.«167721_j61710090109455_2_alg».proof.Proof.KI.Join

set_option maxRecDepth 16384

noncomputable section

namespace Cert.KernelIdeal.Val

open Cert.KernelIdeal Cert.KernelIdeal.Gen Cert.KernelIdeal.Fr
open Idealize.ShloMosaic Idealize.ShloMosaic.TcCoe Idealize.ShloMosaic.ValueIdx
open Idealize.SL Idealize.SL.Sem

variable (m : (ℓ : Loc nD τ sig) → Buf (Elt Ideal) ℓ) (ρ : Dev nD → PrngReg)

/-- The key norm weight as the query region finds it: the launch contents (the conversion before it writes
    another buffer). -/
theorem U1_main_arg5 (c : Dev nD) : U1 m ρ c main_arg5 = m ((c : Thread nD τ).loc main_arg5) :=
  StableHlo.after_of_forall_not_mem (b := Proc.devRef .tc main_arg5) _ _ (List.forall_iff_forall_mem.mp (by
      simp only [hostOps0, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))

/-- The query norm weight as the key/value region finds it: the query region only reads it. -/
theorem U2_main_arg4 (c : Dev nD) : U2 m ρ c main_arg4 = m ((c : Thread nD τ).loc main_arg4) :=
  ((W2_arr m ρ c 4).trans (((dat0 (U1 m ρ) c).arrAt_in 4 rfl _).trans (A_eq0 (U1 m ρ) c 4))).trans (U1_main_arg4 m ρ c)

/-- The conversion of the weights to the narrow format is the identity on the extended reals. -/
theorem narrow_id (c : Dev nD) :
    truncf (F := Ideal) .bf16 (m ((c : Thread nD τ).loc main_arg3)) bitsLt_bf16_f32 = (m ((c : Thread nD τ).loc main_arg3) : S5120x4096.Idx → EReal) := rfl

/-- The result array the program ends with. -/
def res (c : Dev nD) : S16384x5120.Idx → EReal :=
  Spec.G (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5))

theorem wfin_eq (c : Dev nD) : (Wfin m ρ c (Proc.devRef .tc main_v3) : S16384x5120.Idx → EReal) = res m c := by
  rw [Wfin_main_v3, q_final, kv_final]
  have hq : qArr (U1 m ρ) c = specQ (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) := by
    unfold qArr specQ
    rw [U1_main_arg0, U1_main_arg1, U1_main_arg2, U1_main_v0, U1_main_arg4, U1_main_arg5, narrow_id]
  have hk : kvArr (U2 m ρ) c = specKV (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) := by
    unfold kvArr specKV
    rw [U2_main_arg0, U2_main_arg1, U2_main_arg2, U2_main_v0, U2_main_arg4, U2_main_arg5, narrow_id]
  rw [hq, hk]
  exact join_spec _ _ _ _ _ _

/-- The run, read: the result at the specification, the six arguments as launched. -/
theorem run : θ_run (defs (F := Ideal)) (onTc (τ := τ) (main (F := Ideal))) ⟨m, fun _ => 0, ρ⟩ (fun r => ∀ c : Dev nD,
      r.2.mem ((c.tc : Thread nD τ).loc main_v3) = res m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  (θ_run defs _ _).mono (fun r h c =>
    ⟨(h c _ (mem_uc main_v3 (by decide))).trans (wfin_eq m ρ c),
     (h c _ (mem_uc main_arg0 (by decide))).trans (W4_main_arg0 m ρ c),
     (h c _ (mem_uc main_arg1 (by decide))).trans (W4_main_arg1 m ρ c),
     (h c _ (mem_uc main_arg2 (by decide))).trans (W4_main_arg2 m ρ c),
     (h c _ (mem_uc main_arg3 (by decide))).trans (W4_main_arg3 m ρ c),
     (h c _ (mem_uc main_arg4 (by decide))).trans (W4_main_arg4 m ρ c),
     (h c _ (mem_uc main_arg5 (by decide))).trans (W4_main_arg5 m ρ c)⟩)
    (run_main m ρ)

end Cert.KernelIdeal.Val

end
-- ==== Proof.lean ====
/-
  Equivalence of a fused attention-input kernel with its reference, on the extended reals.

  The program projects 16384 tokens of width 4096 onto 5120 output columns (one matrix product against the
  weight rows), then treats the columns in blocks of 128: the 32 query heads (columns 0 … 4095) and the 4 key
  heads (4096 … 4607) are normalised by the root of their mean square (plus a fixed small constant) and a weight
  per column, and rotated by the token's sine and cosine rows (the upper half of a head negated into the lower,
  the lower into the upper); the value columns (4608 … 5119) are the projection unchanged. The kernel does this
  in two grid regions — the query columns in blocks of 64 tokens, the key and value columns in blocks of 512
  tokens, each with its weight rows resident — and joins the two results along the columns; the reference is the
  same arithmetic on whole arrays.

  Both sides are shown equal to one function of the six arguments (Proof/Spec.lean), index by index:
  the reference by reading its operations one at a time (Proof/RefSpec.lean); the kernel by running each region's
  body once on symbolic blocks (Proof/KI/QRun.lean, KVRun.lean), reading the pieces its stores leave against the
  specification (Proof/PayHead.lean … KI/QCanon.lean, KVCanon.lean), carrying blocks to arrays (KI/QArray.lean,
  KVArray.lean) through the launch of the two regions (KI/Data*.lean … KI/Frame.lean) and the final join
  (KI/Join.lean, KI/ValueRun.lean). No algebraic law is needed beyond the neutrality of zero: the two sides
  apply the same operations in the same order, a sum of products being a sum of products however it is tiled.
  The word-level program's frame is the same launch argument read at the machine's words (Proof/K/).
  The idealization rewrote nothing, so the preservation claim is trivial.
-/
import proofs.«167721_j61710090109455_2_alg».proof.Defs
import proofs.«167721_j61710090109455_2_alg».proof.Proof.Gen.Kernel
import proofs.«167721_j61710090109455_2_alg».proof.Proof.Gen.KernelIdeal
import proofs.«167721_j61710090109455_2_alg».proof.Proof.Gen.ReferenceIdeal
import proofs.«167721_j61710090109455_2_alg».proof.Proof.Gen.Pre_finite_inputs
import proofs.«167721_j61710090109455_2_alg».proof.Proof.Gen.ReferenceIdeal.Run
import proofs.«167721_j61710090109455_2_alg».proof.Proof.Gen.ReferenceIdeal.Read
import proofs.«167721_j61710090109455_2_alg».proof.Proof.RefSpec
import proofs.«167721_j61710090109455_2_alg».proof.Proof.K.FrameClaim
import proofs.«167721_j61710090109455_2_alg».proof.Proof.KI.FrameClaim
import proofs.«167721_j61710090109455_2_alg».proof.Proof.KI.ValueRun
import Idealize.ShloMosaic.Adequacy
import Idealize.ShloMosaic.Init

noncomputable section

namespace Cert.Proof

open Idealize.ShloMosaic Idealize.SL.Sem

/-- The word-level program runs, faults nowhere and leaves its arguments as launched. -/
theorem frame_k : Cert.frame_Kernel := fun m ρ _ => Cert.Kernel.Fr.frame m ρ

/-- So does the idealized program. -/
theorem frame_ki : Cert.frame_KernelIdeal := fun m ρ _ => Cert.KernelIdeal.Fr.frame m ρ

/-- So does the reference: its run, with the result forgotten. -/
theorem frame_ri : Cert.frame_ReferenceIdeal := fun m ρ _ =>
  (θ_run Cert.ReferenceIdeal.defs _ _).mono (fun _ h c => (h c).2) (Cert.ReferenceIdeal.Value.run (F := Ideal) m ρ)

/-- The idealization rewrote no operation. -/
theorem preserves : Cert.preserves_Kernel_KernelIdeal := trivial

/-- From memories agreeing on the arguments both programs end with the specification of those arguments. -/
theorem algebraic : Cert.algebraic_KernelIdeal_ReferenceIdeal := by
  intro m ρ m' ρ' _ hagree
  refine ⟨fun c => Cert.KernelIdeal.Val.res m c, Cert.KernelIdeal.Val.run m ρ, ?_⟩
  refine (θ_run Cert.ReferenceIdeal.defs _ _).mono (fun _ h c => ⟨(h c).1.trans ?_, (h c).2⟩)
    (Cert.ReferenceIdeal.Value.run (F := Ideal) m' ρ')
  obtain ⟨h0, h1, h2, h3, h4, h5⟩ := hagree c
  rw [Cert.ReferenceIdeal.Read.val_main_v56_eq, Cert.RefSpec.ref_eq, h0, h1, h2, h3, h4, h5]
  rfl

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
